-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S64 : Shape := ⟨1, ![64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S64 .f32) (main_arg4 : FVec F S64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S64 : Shape := ⟨1, ![64]⟩
abbrev S16x64x3x1024 : Shape := ⟨4, ![16, 64, 3, 1024]⟩
abbrev S3x16x64x1024 : Shape := ⟨4, ![3, 16, 64, 1024]⟩
abbrev S1024x3072 : Shape := ⟨2, ![1024, 3072]⟩
abbrev S16x64x3 : Shape := ⟨3, ![16, 64, 3]⟩
abbrev S3x16x64 : Shape := ⟨3, ![3, 16, 64]⟩
abbrev S1x2048x1024 : Shape := ⟨3, ![1, 2048, 1024]⟩
abbrev S2048x3072 : Shape := ⟨2, ![2048, 3072]⟩
abbrev S1x256x1024 : Shape := ⟨3, ![1, 256, 1024]⟩
abbrev S256x1024 : Shape := ⟨2, ![256, 1024]⟩
abbrev S256x3072 : Shape := ⟨2, ![256, 3072]⟩
abbrev S1x3072 : Shape := ⟨2, ![1, 3072]⟩
abbrev S256x64 : Shape := ⟨2, ![256, 64]⟩
abbrev S256 : Shape := ⟨1, ![256]⟩
abbrev S256x1 : Shape := ⟨2, ![256, 1]⟩
abbrev S1x64 : Shape := ⟨2, ![1, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S64, .f32⟩
  | .hbm, ⟨4, _⟩ => ⟨S64, .f32⟩
  | .hbm, ⟨5, _⟩ => ⟨S16x64x3x1024, .f32⟩
  | .hbm, ⟨6, _⟩ => ⟨S3x16x64x1024, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S16x64x3, .f32⟩
  | .hbm, ⟨11, _⟩ => ⟨S3x16x64, .f32⟩
  | .hbm, ⟨12, _⟩ => ⟨S3072, .f32⟩
  | .hbm, ⟨13, _⟩ => ⟨S2x2048x1024, .f32⟩
  | .local _ .vmem, ⟨0, _⟩ => ⟨S1x2048x1024, .f32⟩
  | .local _ .vmem, ⟨1, _⟩ => ⟨S1024x3072, .bf16⟩
  | .local _ .vmem, ⟨2, _⟩ => ⟨S3072, .f32⟩
  | .local _ .vmem, ⟨3, _⟩ => ⟨S64, .f32⟩
  | .local _ .vmem, ⟨4, _⟩ => ⟨S64, .f32⟩
  | .local _ .vmem, ⟨5, _⟩ => ⟨S1x2048x1024, .f32⟩
  | .local _ .vmem, ⟨6, _⟩ => ⟨S2048x3072, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![2], ![false]⟩

def k0_mult1 : BitVec 32 :=
  let c0_i32_4 : BitVec 32 := 0#32
  let c0_i32 : BitVec 32 := 0#32
  let c1_i32 : BitVec 32 := 1#32
  let v6 : BitVec 32 := Scalar.muli c0_i32 c1_i32
  let v7 : BitVec 32 := Scalar.addi c0_i32_4 v6
  let c256_i32 : BitVec 32 := 256#32
  let v8 : BitVec 32 := Scalar.muli v7 c256_i32
  v8
def k0_off1 (c0_i32 : BitVec 32) : Fin 3 → Nat :=
  let c0_5 : Index := 0#32
  let c0_i32_4 : BitVec 32 := 0#32
  let c1_i32 : BitVec 32 := 1#32
  let v6 : BitVec 32 := Scalar.muli c0_i32 c1_i32
  let v7 : BitVec 32 := Scalar.addi c0_i32_4 v6
  let c256_i32 : BitVec 32 := 256#32
  let v8 : BitVec 32 := Scalar.muli v7 c256_i32
  let v9 : BitVec 32 := v8
  let v10 : Index := Scalar.indexCast v9
  let c0_6 : Index := 0#32
  ![0, v10.toNat, 0]
def k0_off2 (c0_i32 : BitVec 32) : Fin 2 → Nat :=
  let c0_i32_4 : BitVec 32 := 0#32
  let c1_i32 : BitVec 32 := 1#32
  let v6 : BitVec 32 := Scalar.muli c0_i32 c1_i32
  let v7 : BitVec 32 := Scalar.addi c0_i32_4 v6
  let c256_i32 : BitVec 32 := 256#32
  let v8 : BitVec 32 := Scalar.muli v7 c256_i32
  let v9 : BitVec 32 := v8
  let v472 : Index := Scalar.indexCast v9
  let c0_103 : Index := 0#32
  ![v472.toNat, 0]
def k0_off3 (c0_i32 : BitVec 32) : Fin 2 → Nat :=
  let c0_i32_4 : BitVec 32 := 0#32
  let c1_i32 : BitVec 32 := 1#32
  let v6 : BitVec 32 := Scalar.muli c0_i32 c1_i32
  let v7 : BitVec 32 := Scalar.addi c0_i32_4 v6
  let c256_i32 : BitVec 32 := 256#32
  let v8 : BitVec 32 := Scalar.muli v7 c256_i32
  let v9 : BitVec 32 := v8
  let v477 : Index := Scalar.indexCast v9
  let c1024 : Index := 1024#32
  ![v477.toNat, 1024]
def k0_off4 (c0_i32 : BitVec 32) : Fin 2 → Nat :=
  let c0_i32_4 : BitVec 32 := 0#32
  let c1_i32 : BitVec 32 := 1#32
  let v6 : BitVec 32 := Scalar.muli c0_i32 c1_i32
  let v7 : BitVec 32 := Scalar.addi c0_i32_4 v6
  let c256_i32 : BitVec 32 := 256#32
  let v8 : BitVec 32 := Scalar.muli v7 c256_i32
  let v9 : BitVec 32 := v8
  let v482 : Index := Scalar.indexCast v9
  let c2048 : Index := 2048#32
  ![v482.toNat, 2048]
def k0_mult2 : BitVec 32 :=
  let c0_i32_106 : BitVec 32 := 0#32
  let c1_i32_104 : BitVec 32 := 1#32
  let c1_i32_105 : BitVec 32 := 1#32
  let v486 : BitVec 32 := Scalar.muli c1_i32_104 c1_i32_105
  let v487 : BitVec 32 := Scalar.addi c0_i32_106 v486
  let c256_i32_107 : BitVec 32 := 256#32
  let v488 : BitVec 32 := Scalar.muli v487 c256_i32_107
  v488
def k0_mult3 : BitVec 32 :=
  let c0_i32_211 : BitVec 32 := 0#32
  let c2_i32 : BitVec 32 := 2#32
  let c1_i32_210 : BitVec 32 := 1#32
  let v966 : BitVec 32 := Scalar.muli c2_i32 c1_i32_210
  let v967 : BitVec 32 := Scalar.addi c0_i32_211 v966
  let c256_i32_212 : BitVec 32 := 256#32
  let v968 : BitVec 32 := Scalar.muli v967 c256_i32_212
  v968
def k0_mult4 : BitVec 32 :=
  let c0_i32_316 : BitVec 32 := 0#32
  let c3_i32 : BitVec 32 := 3#32
  let c1_i32_315 : BitVec 32 := 1#32
  let v1446 : BitVec 32 := Scalar.muli c3_i32 c1_i32_315
  let v1447 : BitVec 32 := Scalar.addi c0_i32_316 v1446
  let c256_i32_317 : BitVec 32 := 256#32
  let v1448 : BitVec 32 := Scalar.muli v1447 c256_i32_317
  v1448
def k0_mult5 : BitVec 32 :=
  let c0_i32_421 : BitVec 32 := 0#32
  let c4_i32 : BitVec 32 := 4#32
  let c1_i32_420 : BitVec 32 := 1#32
  let v1926 : BitVec 32 := Scalar.muli c4_i32 c1_i32_420
  let v1927 : BitVec 32 := Scalar.addi c0_i32_421 v1926
  let c256_i32_422 : BitVec 32 := 256#32
  let v1928 : BitVec 32 := Scalar.muli v1927 c256_i32_422
  v1928
def k0_mult6 : BitVec 32 :=
  let c0_i32_526 : BitVec 32 := 0#32
  let c5_i32 : BitVec 32 := 5#32
  let c1_i32_525 : BitVec 32 := 1#32
  let v2406 : BitVec 32 := Scalar.muli c5_i32 c1_i32_525
  let v2407 : BitVec 32 := Scalar.addi c0_i32_526 v2406
  let c256_i32_527 : BitVec 32 := 256#32
  let v2408 : BitVec 32 := Scalar.muli v2407 c256_i32_527
  v2408
def k0_mult7 : BitVec 32 :=
  let c0_i32_631 : BitVec 32 := 0#32
  let c6_i32 : BitVec 32 := 6#32
  let c1_i32_630 : BitVec 32 := 1#32
  let v2886 : BitVec 32 := Scalar.muli c6_i32 c1_i32_630
  let v2887 : BitVec 32 := Scalar.addi c0_i32_631 v2886
  let c256_i32_632 : BitVec 32 := 256#32
  let v2888 : BitVec 32 := Scalar.muli v2887 c256_i32_632
  v2888
def k0_mult8 : BitVec 32 :=
  let c0_i32_736 : BitVec 32 := 0#32
  let c7_i32 : BitVec 32 := 7#32
  let c1_i32_735 : BitVec 32 := 1#32
  let v3366 : BitVec 32 := Scalar.muli c7_i32 c1_i32_735
  let v3367 : BitVec 32 := Scalar.addi c0_i32_736 v3366
  let c256_i32_737 : BitVec 32 := 256#32
  let v3368 : BitVec 32 := Scalar.muli v3367 c256_i32_737
  v3368
def k0_mult9 : BitVec 32 :=
  let c0_i32_842 : BitVec 32 := 0#32
  let c0_i32_840 : BitVec 32 := 0#32
  let c1_i32_841 : BitVec 32 := 1#32
  let v3846 : BitVec 32 := Scalar.muli c0_i32_840 c1_i32_841
  let v3847 : BitVec 32 := Scalar.addi c0_i32_842 v3846
  let c512_i32 : BitVec 32 := 512#32
  let v3848 : BitVec 32 := Scalar.muli v3847 c512_i32
  v3848
def k0_mult10 : BitVec 32 :=
  let c0_i32_845 : BitVec 32 := 0#32
  let c0_i32_843 : BitVec 32 := 0#32
  let c1_i32_844 : BitVec 32 := 1#32
  let v3850 : BitVec 32 := Scalar.muli c0_i32_843 c1_i32_844
  let v3851 : BitVec 32 := Scalar.addi c0_i32_845 v3850
  let c64_i32 : BitVec 32 := 64#32
  let v3852 : BitVec 32 := Scalar.muli v3851 c64_i32
  v3852
def k0_off5 (c0_i32_840 : BitVec 32) (c0_i32_843 : BitVec 32) : Fin 2 → Nat :=
  let c0_i32_842 : BitVec 32 := 0#32
  let c1_i32_841 : BitVec 32 := 1#32
  let v3846 : BitVec 32 := Scalar.muli c0_i32_840 c1_i32_841
  let v3847 : BitVec 32 := Scalar.addi c0_i32_842 v3846
  let c512_i32 : BitVec 32 := 512#32
  let v3848 : BitVec 32 := Scalar.muli v3847 c512_i32
  let v3849 : BitVec 32 := v3848
  let v3854 : Index := Scalar.indexCast v3849
  let c0_i32_845 : BitVec 32 := 0#32
  let c1_i32_844 : BitVec 32 := 1#32
  let v3850 : BitVec 32 := Scalar.muli c0_i32_843 c1_i32_844
  let v3851 : BitVec 32 := Scalar.addi c0_i32_845 v3850
  let c64_i32 : BitVec 32 := 64#32
  let v3852 : BitVec 32 := Scalar.muli v3851 c64_i32
  let v3853 : BitVec 32 := v3852
  let v3855 : Index := Scalar.indexCast v3853
  ![v3854.toNat, v3855.toNat]
def k0_off6 (c1024_i32 : BitVec 32) (c0_i32_843 : BitVec 32) : Fin 2 → Nat :=
  let c0_846 : Index := 0#32
  let c0_i32_845 : BitVec 32 := 0#32
  let c1_i32_844 : BitVec 32 := 1#32
  let v3850 : BitVec 32 := Scalar.muli c0_i32_843 c1_i32_844
  let v3851 : BitVec 32 := Scalar.addi c0_i32_845 v3850
  let c64_i32 : BitVec 32 := 64#32
  let v3852 : BitVec 32 := Scalar.muli v3851 c64_i32
  let v3853 : BitVec 32 := v3852
  let v3857 : BitVec 32 := Scalar.addi c1024_i32 v3853
  let v3858 : Index := Scalar.indexCast v3857
  ![0, v3858.toNat]
def k0_off7 (c0_i32_840 : BitVec 32) (c0_i32_843 : BitVec 32) : Fin 3 → Nat :=
  let c0_854 : Index := 0#32
  let c0_i32_842 : BitVec 32 := 0#32
  let c1_i32_841 : BitVec 32 := 1#32
  let v3846 : BitVec 32 := Scalar.muli c0_i32_840 c1_i32_841
  let v3847 : BitVec 32 := Scalar.addi c0_i32_842 v3846
  let c512_i32 : BitVec 32 := 512#32
  let v3848 : BitVec 32 := Scalar.muli v3847 c512_i32
  let v3849 : BitVec 32 := v3848
  let v3879 : Index := Scalar.indexCast v3849
  let c0_i32_845 : BitVec 32 := 0#32
  let c1_i32_844 : BitVec 32 := 1#32
  let v3850 : BitVec 32 := Scalar.muli c0_i32_843 c1_i32_844
  let v3851 : BitVec 32 := Scalar.addi c0_i32_845 v3850
  let c64_i32 : BitVec 32 := 64#32
  let v3852 : BitVec 32 := Scalar.muli v3851 c64_i32
  let v3853 : BitVec 32 := v3852
  let v3880 : Index := Scalar.indexCast v3853
  ![0, v3879.toNat, v3880.toNat]
def k0_mult11 : BitVec 32 :=
  let c0_i32_857 : BitVec 32 := 0#32
  let c1_i32_855 : BitVec 32 := 1#32
  let c1_i32_856 : BitVec 32 := 1#32
  let v3884 : BitVec 32 := Scalar.muli c1_i32_855 c1_i32_856
  let v3885 : BitVec 32 := Scalar.addi c0_i32_857 v3884
  let c64_i32_858 : BitVec 32 := 64#32
  let v3886 : BitVec 32 := Scalar.muli v3885 c64_i32_858
  v3886
def k0_mult12 : BitVec 32 :=
  let c0_i32_872 : BitVec 32 := 0#32
  let c2_i32_870 : BitVec 32 := 2#32
  let c1_i32_871 : BitVec 32 := 1#32
  let v3918 : BitVec 32 := Scalar.muli c2_i32_870 c1_i32_871
  let v3919 : BitVec 32 := Scalar.addi c0_i32_872 v3918
  let c64_i32_873 : BitVec 32 := 64#32
  let v3920 : BitVec 32 := Scalar.muli v3919 c64_i32_873
  v3920
def k0_mult13 : BitVec 32 :=
  let c0_i32_887 : BitVec 32 := 0#32
  let c3_i32_885 : BitVec 32 := 3#32
  let c1_i32_886 : BitVec 32 := 1#32
  let v3952 : BitVec 32 := Scalar.muli c3_i32_885 c1_i32_886
  let v3953 : BitVec 32 := Scalar.addi c0_i32_887 v3952
  let c64_i32_888 : BitVec 32 := 64#32
  let v3954 : BitVec 32 := Scalar.muli v3953 c64_i32_888
  v3954
def k0_mult14 : BitVec 32 :=
  let c0_i32_902 : BitVec 32 := 0#32
  let c4_i32_900 : BitVec 32 := 4#32
  let c1_i32_901 : BitVec 32 := 1#32
  let v3986 : BitVec 32 := Scalar.muli c4_i32_900 c1_i32_901
  let v3987 : BitVec 32 := Scalar.addi c0_i32_902 v3986
  let c64_i32_903 : BitVec 32 := 64#32
  let v3988 : BitVec 32 := Scalar.muli v3987 c64_i32_903
  v3988
def k0_mult15 : BitVec 32 :=
  let c0_i32_917 : BitVec 32 := 0#32
  let c5_i32_915 : BitVec 32 := 5#32
  let c1_i32_916 : BitVec 32 := 1#32
  let v4020 : BitVec 32 := Scalar.muli c5_i32_915 c1_i32_916
  let v4021 : BitVec 32 := Scalar.addi c0_i32_917 v4020
  let c64_i32_918 : BitVec 32 := 64#32
  let v4022 : BitVec 32 := Scalar.muli v4021 c64_i32_918
  v4022
def k0_mult16 : BitVec 32 :=
  let c0_i32_932 : BitVec 32 := 0#32
  let c6_i32_930 : BitVec 32 := 6#32
  let c1_i32_931 : BitVec 32 := 1#32
  let v4054 : BitVec 32 := Scalar.muli c6_i32_930 c1_i32_931
  let v4055 : BitVec 32 := Scalar.addi c0_i32_932 v4054
  let c64_i32_933 : BitVec 32 := 64#32
  let v4056 : BitVec 32 := Scalar.muli v4055 c64_i32_933
  v4056
def k0_mult17 : BitVec 32 :=
  let c0_i32_947 : BitVec 32 := 0#32
  let c7_i32_945 : BitVec 32 := 7#32
  let c1_i32_946 : BitVec 32 := 1#32
  let v4088 : BitVec 32 := Scalar.muli c7_i32_945 c1_i32_946
  let v4089 : BitVec 32 := Scalar.addi c0_i32_947 v4088
  let c64_i32_948 : BitVec 32 := 64#32
  let v4090 : BitVec 32 := Scalar.muli v4089 c64_i32_948
  v4090
def k0_mult18 : BitVec 32 :=
  let c0_i32_962 : BitVec 32 := 0#32
  let c8_i32_960 : BitVec 32 := 8#32
  let c1_i32_961 : BitVec 32 := 1#32
  let v4122 : BitVec 32 := Scalar.muli c8_i32_960 c1_i32_961
  let v4123 : BitVec 32 := Scalar.addi c0_i32_962 v4122
  let c64_i32_963 : BitVec 32 := 64#32
  let v4124 : BitVec 32 := Scalar.muli v4123 c64_i32_963
  v4124
def k0_mult19 : BitVec 32 :=
  let c0_i32_976 : BitVec 32 := 0#32
  let c9_i32 : BitVec 32 := 9#32
  let c1_i32_975 : BitVec 32 := 1#32
  let v4156 : BitVec 32 := Scalar.muli c9_i32 c1_i32_975
  let v4157 : BitVec 32 := Scalar.addi c0_i32_976 v4156
  let c64_i32_977 : BitVec 32 := 64#32
  let v4158 : BitVec 32 := Scalar.muli v4157 c64_i32_977
  v4158
def k0_mult20 : BitVec 32 :=
  let c0_i32_990 : BitVec 32 := 0#32
  let c10_i32 : BitVec 32 := 10#32
  let c1_i32_989 : BitVec 32 := 1#32
  let v4190 : BitVec 32 := Scalar.muli c10_i32 c1_i32_989
  let v4191 : BitVec 32 := Scalar.addi c0_i32_990 v4190
  let c64_i32_991 : BitVec 32 := 64#32
  let v4192 : BitVec 32 := Scalar.muli v4191 c64_i32_991
  v4192
def k0_mult21 : BitVec 32 :=
  let c0_i32_1004 : BitVec 32 := 0#32
  let c11_i32 : BitVec 32 := 11#32
  let c1_i32_1003 : BitVec 32 := 1#32
  let v4224 : BitVec 32 := Scalar.muli c11_i32 c1_i32_1003
  let v4225 : BitVec 32 := Scalar.addi c0_i32_1004 v4224
  let c64_i32_1005 : BitVec 32 := 64#32
  let v4226 : BitVec 32 := Scalar.muli v4225 c64_i32_1005
  v4226
def k0_mult22 : BitVec 32 :=
  let c0_i32_1018 : BitVec 32 := 0#32
  let c12_i32 : BitVec 32 := 12#32
  let c1_i32_1017 : BitVec 32 := 1#32
  let v4258 : BitVec 32 := Scalar.muli c12_i32 c1_i32_1017
  let v4259 : BitVec 32 := Scalar.addi c0_i32_1018 v4258
  let c64_i32_1019 : BitVec 32 := 64#32
  let v4260 : BitVec 32 := Scalar.muli v4259 c64_i32_1019
  v4260
def k0_mult23 : BitVec 32 :=
  let c0_i32_1032 : BitVec 32 := 0#32
  let c13_i32 : BitVec 32 := 13#32
  let c1_i32_1031 : BitVec 32 := 1#32
  let v4292 : BitVec 32 := Scalar.muli c13_i32 c1_i32_1031
  let v4293 : BitVec 32 := Scalar.addi c0_i32_1032 v4292
  let c64_i32_1033 : BitVec 32 := 64#32
  let v4294 : BitVec 32 := Scalar.muli v4293 c64_i32_1033
  v4294
def k0_mult24 : BitVec 32 :=
  let c0_i32_1046 : BitVec 32 := 0#32
  let c14_i32 : BitVec 32 := 14#32
  let c1_i32_1045 : BitVec 32 := 1#32
  let v4326 : BitVec 32 := Scalar.muli c14_i32 c1_i32_1045
  let v4327 : BitVec 32 := Scalar.addi c0_i32_1046 v4326
  let c64_i32_1047 : BitVec 32 := 64#32
  let v4328 : BitVec 32 := Scalar.muli v4327 c64_i32_1047
  v4328
def k0_mult25 : BitVec 32 :=
  let c0_i32_1060 : BitVec 32 := 0#32
  let c15_i32 : BitVec 32 := 15#32
  let c1_i32_1059 : BitVec 32 := 1#32
  let v4360 : BitVec 32 := Scalar.muli c15_i32 c1_i32_1059
  let v4361 : BitVec 32 := Scalar.addi c0_i32_1060 v4360
  let c64_i32_1061 : BitVec 32 := 64#32
  let v4362 : BitVec 32 := Scalar.muli v4361 c64_i32_1061
  v4362
def k0_mult26 : BitVec 32 :=
  let c0_i32_1075 : BitVec 32 := 0#32
  let c1_i32_1073 : BitVec 32 := 1#32
  let c1_i32_1074 : BitVec 32 := 1#32
  let v4394 : BitVec 32 := Scalar.muli c1_i32_1073 c1_i32_1074
  let v4395 : BitVec 32 := Scalar.addi c0_i32_1075 v4394
  let c512_i32_1076 : BitVec 32 := 512#32
  let v4396 : BitVec 32 := Scalar.muli v4395 c512_i32_1076
  v4396
def k0_mult27 : BitVec 32 :=
  let c0_i32_1079 : BitVec 32 := 0#32
  let c0_i32_1077 : BitVec 32 := 0#32
  let c1_i32_1078 : BitVec 32 := 1#32
  let v4398 : BitVec 32 := Scalar.muli c0_i32_1077 c1_i32_1078
  let v4399 : BitVec 32 := Scalar.addi c0_i32_1079 v4398
  let c64_i32_1080 : BitVec 32 := 64#32
  let v4400 : BitVec 32 := Scalar.muli v4399 c64_i32_1080
  v4400
def k0_mult28 : BitVec 32 :=
  let c0_i32_1094 : BitVec 32 := 0#32
  let c1_i32_1092 : BitVec 32 := 1#32
  let c1_i32_1093 : BitVec 32 := 1#32
  let v4432 : BitVec 32 := Scalar.muli c1_i32_1092 c1_i32_1093
  let v4433 : BitVec 32 := Scalar.addi c0_i32_1094 v4432
  let c64_i32_1095 : BitVec 32 := 64#32
  let v4434 : BitVec 32 := Scalar.muli v4433 c64_i32_1095
  v4434
def k0_mult29 : BitVec 32 :=
  let c0_i32_1109 : BitVec 32 := 0#32
  let c2_i32_1107 : BitVec 32 := 2#32
  let c1_i32_1108 : BitVec 32 := 1#32
  let v4466 : BitVec 32 := Scalar.muli c2_i32_1107 c1_i32_1108
  let v4467 : BitVec 32 := Scalar.addi c0_i32_1109 v4466
  let c64_i32_1110 : BitVec 32 := 64#32
  let v4468 : BitVec 32 := Scalar.muli v4467 c64_i32_1110
  v4468
def k0_mult30 : BitVec 32 :=
  let c0_i32_1124 : BitVec 32 := 0#32
  let c3_i32_1122 : BitVec 32 := 3#32
  let c1_i32_1123 : BitVec 32 := 1#32
  let v4500 : BitVec 32 := Scalar.muli c3_i32_1122 c1_i32_1123
  let v4501 : BitVec 32 := Scalar.addi c0_i32_1124 v4500
  let c64_i32_1125 : BitVec 32 := 64#32
  let v4502 : BitVec 32 := Scalar.muli v4501 c64_i32_1125
  v4502
def k0_mult31 : BitVec 32 :=
  let c0_i32_1139 : BitVec 32 := 0#32
  let c4_i32_1137 : BitVec 32 := 4#32
  let c1_i32_1138 : BitVec 32 := 1#32
  let v4534 : BitVec 32 := Scalar.muli c4_i32_1137 c1_i32_1138
  let v4535 : BitVec 32 := Scalar.addi c0_i32_1139 v4534
  let c64_i32_1140 : BitVec 32 := 64#32
  let v4536 : BitVec 32 := Scalar.muli v4535 c64_i32_1140
  v4536
def k0_mult32 : BitVec 32 :=
  let c0_i32_1154 : BitVec 32 := 0#32
  let c5_i32_1152 : BitVec 32 := 5#32
  let c1_i32_1153 : BitVec 32 := 1#32
  let v4568 : BitVec 32 := Scalar.muli c5_i32_1152 c1_i32_1153
  let v4569 : BitVec 32 := Scalar.addi c0_i32_1154 v4568
  let c64_i32_1155 : BitVec 32 := 64#32
  let v4570 : BitVec 32 := Scalar.muli v4569 c64_i32_1155
  v4570
def k0_mult33 : BitVec 32 :=
  let c0_i32_1169 : BitVec 32 := 0#32
  let c6_i32_1167 : BitVec 32 := 6#32
  let c1_i32_1168 : BitVec 32 := 1#32
  let v4602 : BitVec 32 := Scalar.muli c6_i32_1167 c1_i32_1168
  let v4603 : BitVec 32 := Scalar.addi c0_i32_1169 v4602
  let c64_i32_1170 : BitVec 32 := 64#32
  let v4604 : BitVec 32 := Scalar.muli v4603 c64_i32_1170
  v4604
def k0_mult34 : BitVec 32 :=
  let c0_i32_1184 : BitVec 32 := 0#32
  let c7_i32_1182 : BitVec 32 := 7#32
  let c1_i32_1183 : BitVec 32 := 1#32
  let v4636 : BitVec 32 := Scalar.muli c7_i32_1182 c1_i32_1183
  let v4637 : BitVec 32 := Scalar.addi c0_i32_1184 v4636
  let c64_i32_1185 : BitVec 32 := 64#32
  let v4638 : BitVec 32 := Scalar.muli v4637 c64_i32_1185
  v4638
def k0_mult35 : BitVec 32 :=
  let c0_i32_1199 : BitVec 32 := 0#32
  let c8_i32_1197 : BitVec 32 := 8#32
  let c1_i32_1198 : BitVec 32 := 1#32
  let v4670 : BitVec 32 := Scalar.muli c8_i32_1197 c1_i32_1198
  let v4671 : BitVec 32 := Scalar.addi c0_i32_1199 v4670
  let c64_i32_1200 : BitVec 32 := 64#32
  let v4672 : BitVec 32 := Scalar.muli v4671 c64_i32_1200
  v4672
def k0_mult36 : BitVec 32 :=
  let c0_i32_1214 : BitVec 32 := 0#32
  let c9_i32_1212 : BitVec 32 := 9#32
  let c1_i32_1213 : BitVec 32 := 1#32
  let v4704 : BitVec 32 := Scalar.muli c9_i32_1212 c1_i32_1213
  let v4705 : BitVec 32 := Scalar.addi c0_i32_1214 v4704
  let c64_i32_1215 : BitVec 32 := 64#32
  let v4706 : BitVec 32 := Scalar.muli v4705 c64_i32_1215
  v4706
def k0_mult37 : BitVec 32 :=
  let c0_i32_1229 : BitVec 32 := 0#32
  let c10_i32_1227 : BitVec 32 := 10#32
  let c1_i32_1228 : BitVec 32 := 1#32
  let v4738 : BitVec 32 := Scalar.muli c10_i32_1227 c1_i32_1228
  let v4739 : BitVec 32 := Scalar.addi c0_i32_1229 v4738
  let c64_i32_1230 : BitVec 32 := 64#32
  let v4740 : BitVec 32 := Scalar.muli v4739 c64_i32_1230
  v4740
def k0_mult38 : BitVec 32 :=
  let c0_i32_1244 : BitVec 32 := 0#32
  let c11_i32_1242 : BitVec 32 := 11#32
  let c1_i32_1243 : BitVec 32 := 1#32
  let v4772 : BitVec 32 := Scalar.muli c11_i32_1242 c1_i32_1243
  let v4773 : BitVec 32 := Scalar.addi c0_i32_1244 v4772
  let c64_i32_1245 : BitVec 32 := 64#32
  let v4774 : BitVec 32 := Scalar.muli v4773 c64_i32_1245
  v4774
def k0_mult39 : BitVec 32 :=
  let c0_i32_1259 : BitVec 32 := 0#32
  let c12_i32_1257 : BitVec 32 := 12#32
  let c1_i32_1258 : BitVec 32 := 1#32
  let v4806 : BitVec 32 := Scalar.muli c12_i32_1257 c1_i32_1258
  let v4807 : BitVec 32 := Scalar.addi c0_i32_1259 v4806
  let c64_i32_1260 : BitVec 32 := 64#32
  let v4808 : BitVec 32 := Scalar.muli v4807 c64_i32_1260
  v4808
def k0_mult40 : BitVec 32 :=
  let c0_i32_1274 : BitVec 32 := 0#32
  let c13_i32_1272 : BitVec 32 := 13#32
  let c1_i32_1273 : BitVec 32 := 1#32
  let v4840 : BitVec 32 := Scalar.muli c13_i32_1272 c1_i32_1273
  let v4841 : BitVec 32 := Scalar.addi c0_i32_1274 v4840
  let c64_i32_1275 : BitVec 32 := 64#32
  let v4842 : BitVec 32 := Scalar.muli v4841 c64_i32_1275
  v4842
def k0_mult41 : BitVec 32 :=
  let c0_i32_1289 : BitVec 32 := 0#32
  let c14_i32_1287 : BitVec 32 := 14#32
  let c1_i32_1288 : BitVec 32 := 1#32
  let v4874 : BitVec 32 := Scalar.muli c14_i32_1287 c1_i32_1288
  let v4875 : BitVec 32 := Scalar.addi c0_i32_1289 v4874
  let c64_i32_1290 : BitVec 32 := 64#32
  let v4876 : BitVec 32 := Scalar.muli v4875 c64_i32_1290
  v4876
def k0_mult42 : BitVec 32 :=
  let c0_i32_1304 : BitVec 32 := 0#32
  let c15_i32_1302 : BitVec 32 := 15#32
  let c1_i32_1303 : BitVec 32 := 1#32
  let v4908 : BitVec 32 := Scalar.muli c15_i32_1302 c1_i32_1303
  let v4909 : BitVec 32 := Scalar.addi c0_i32_1304 v4908
  let c64_i32_1305 : BitVec 32 := 64#32
  let v4910 : BitVec 32 := Scalar.muli v4909 c64_i32_1305
  v4910
def k0_mult43 : BitVec 32 :=
  let c0_i32_1320 : BitVec 32 := 0#32
  let c2_i32_1318 : BitVec 32 := 2#32
  let c1_i32_1319 : BitVec 32 := 1#32
  let v4942 : BitVec 32 := Scalar.muli c2_i32_1318 c1_i32_1319
  let v4943 : BitVec 32 := Scalar.addi c0_i32_1320 v4942
  let c512_i32_1321 : BitVec 32 := 512#32
  let v4944 : BitVec 32 := Scalar.muli v4943 c512_i32_1321
  v4944
def k0_mult44 : BitVec 32 :=
  let c0_i32_1324 : BitVec 32 := 0#32
  let c0_i32_1322 : BitVec 32 := 0#32
  let c1_i32_1323 : BitVec 32 := 1#32
  let v4946 : BitVec 32 := Scalar.muli c0_i32_1322 c1_i32_1323
  let v4947 : BitVec 32 := Scalar.addi c0_i32_1324 v4946
  let c64_i32_1325 : BitVec 32 := 64#32
  let v4948 : BitVec 32 := Scalar.muli v4947 c64_i32_1325
  v4948
def k0_mult45 : BitVec 32 :=
  let c0_i32_1339 : BitVec 32 := 0#32
  let c1_i32_1337 : BitVec 32 := 1#32
  let c1_i32_1338 : BitVec 32 := 1#32
  let v4980 : BitVec 32 := Scalar.muli c1_i32_1337 c1_i32_1338
  let v4981 : BitVec 32 := Scalar.addi c0_i32_1339 v4980
  let c64_i32_1340 : BitVec 32 := 64#32
  let v4982 : BitVec 32 := Scalar.muli v4981 c64_i32_1340
  v4982
def k0_mult46 : BitVec 32 :=
  let c0_i32_1354 : BitVec 32 := 0#32
  let c2_i32_1352 : BitVec 32 := 2#32
  let c1_i32_1353 : BitVec 32 := 1#32
  let v5014 : BitVec 32 := Scalar.muli c2_i32_1352 c1_i32_1353
  let v5015 : BitVec 32 := Scalar.addi c0_i32_1354 v5014
  let c64_i32_1355 : BitVec 32 := 64#32
  let v5016 : BitVec 32 := Scalar.muli v5015 c64_i32_1355
  v5016
def k0_mult47 : BitVec 32 :=
  let c0_i32_1369 : BitVec 32 := 0#32
  let c3_i32_1367 : BitVec 32 := 3#32
  let c1_i32_1368 : BitVec 32 := 1#32
  let v5048 : BitVec 32 := Scalar.muli c3_i32_1367 c1_i32_1368
  let v5049 : BitVec 32 := Scalar.addi c0_i32_1369 v5048
  let c64_i32_1370 : BitVec 32 := 64#32
  let v5050 : BitVec 32 := Scalar.muli v5049 c64_i32_1370
  v5050
def k0_mult48 : BitVec 32 :=
  let c0_i32_1384 : BitVec 32 := 0#32
  let c4_i32_1382 : BitVec 32 := 4#32
  let c1_i32_1383 : BitVec 32 := 1#32
  let v5082 : BitVec 32 := Scalar.muli c4_i32_1382 c1_i32_1383
  let v5083 : BitVec 32 := Scalar.addi c0_i32_1384 v5082
  let c64_i32_1385 : BitVec 32 := 64#32
  let v5084 : BitVec 32 := Scalar.muli v5083 c64_i32_1385
  v5084
def k0_mult49 : BitVec 32 :=
  let c0_i32_1399 : BitVec 32 := 0#32
  let c5_i32_1397 : BitVec 32 := 5#32
  let c1_i32_1398 : BitVec 32 := 1#32
  let v5116 : BitVec 32 := Scalar.muli c5_i32_1397 c1_i32_1398
  let v5117 : BitVec 32 := Scalar.addi c0_i32_1399 v5116
  let c64_i32_1400 : BitVec 32 := 64#32
  let v5118 : BitVec 32 := Scalar.muli v5117 c64_i32_1400
  v5118
def k0_mult50 : BitVec 32 :=
  let c0_i32_1414 : BitVec 32 := 0#32
  let c6_i32_1412 : BitVec 32 := 6#32
  let c1_i32_1413 : BitVec 32 := 1#32
  let v5150 : BitVec 32 := Scalar.muli c6_i32_1412 c1_i32_1413
  let v5151 : BitVec 32 := Scalar.addi c0_i32_1414 v5150
  let c64_i32_1415 : BitVec 32 := 64#32
  let v5152 : BitVec 32 := Scalar.muli v5151 c64_i32_1415
  v5152
def k0_mult51 : BitVec 32 :=
  let c0_i32_1429 : BitVec 32 := 0#32
  let c7_i32_1427 : BitVec 32 := 7#32
  let c1_i32_1428 : BitVec 32 := 1#32
  let v5184 : BitVec 32 := Scalar.muli c7_i32_1427 c1_i32_1428
  let v5185 : BitVec 32 := Scalar.addi c0_i32_1429 v5184
  let c64_i32_1430 : BitVec 32 := 64#32
  let v5186 : BitVec 32 := Scalar.muli v5185 c64_i32_1430
  v5186
def k0_mult52 : BitVec 32 :=
  let c0_i32_1444 : BitVec 32 := 0#32
  let c8_i32_1442 : BitVec 32 := 8#32
  let c1_i32_1443 : BitVec 32 := 1#32
  let v5218 : BitVec 32 := Scalar.muli c8_i32_1442 c1_i32_1443
  let v5219 : BitVec 32 := Scalar.addi c0_i32_1444 v5218
  let c64_i32_1445 : BitVec 32 := 64#32
  let v5220 : BitVec 32 := Scalar.muli v5219 c64_i32_1445
  v5220
def k0_mult53 : BitVec 32 :=
  let c0_i32_1459 : BitVec 32 := 0#32
  let c9_i32_1457 : BitVec 32 := 9#32
  let c1_i32_1458 : BitVec 32 := 1#32
  let v5252 : BitVec 32 := Scalar.muli c9_i32_1457 c1_i32_1458
  let v5253 : BitVec 32 := Scalar.addi c0_i32_1459 v5252
  let c64_i32_1460 : BitVec 32 := 64#32
  let v5254 : BitVec 32 := Scalar.muli v5253 c64_i32_1460
  v5254
def k0_mult54 : BitVec 32 :=
  let c0_i32_1474 : BitVec 32 := 0#32
  let c10_i32_1472 : BitVec 32 := 10#32
  let c1_i32_1473 : BitVec 32 := 1#32
  let v5286 : BitVec 32 := Scalar.muli c10_i32_1472 c1_i32_1473
  let v5287 : BitVec 32 := Scalar.addi c0_i32_1474 v5286
  let c64_i32_1475 : BitVec 32 := 64#32
  let v5288 : BitVec 32 := Scalar.muli v5287 c64_i32_1475
  v5288
def k0_mult55 : BitVec 32 :=
  let c0_i32_1489 : BitVec 32 := 0#32
  let c11_i32_1487 : BitVec 32 := 11#32
  let c1_i32_1488 : BitVec 32 := 1#32
  let v5320 : BitVec 32 := Scalar.muli c11_i32_1487 c1_i32_1488
  let v5321 : BitVec 32 := Scalar.addi c0_i32_1489 v5320
  let c64_i32_1490 : BitVec 32 := 64#32
  let v5322 : BitVec 32 := Scalar.muli v5321 c64_i32_1490
  v5322
def k0_mult56 : BitVec 32 :=
  let c0_i32_1504 : BitVec 32 := 0#32
  let c12_i32_1502 : BitVec 32 := 12#32
  let c1_i32_1503 : BitVec 32 := 1#32
  let v5354 : BitVec 32 := Scalar.muli c12_i32_1502 c1_i32_1503
  let v5355 : BitVec 32 := Scalar.addi c0_i32_1504 v5354
  let c64_i32_1505 : BitVec 32 := 64#32
  let v5356 : BitVec 32 := Scalar.muli v5355 c64_i32_1505
  v5356
def k0_mult57 : BitVec 32 :=
  let c0_i32_1519 : BitVec 32 := 0#32
  let c13_i32_1517 : BitVec 32 := 13#32
  let c1_i32_1518 : BitVec 32 := 1#32
  let v5388 : BitVec 32 := Scalar.muli c13_i32_1517 c1_i32_1518
  let v5389 : BitVec 32 := Scalar.addi c0_i32_1519 v5388
  let c64_i32_1520 : BitVec 32 := 64#32
  let v5390 : BitVec 32 := Scalar.muli v5389 c64_i32_1520
  v5390
def k0_mult58 : BitVec 32 :=
  let c0_i32_1534 : BitVec 32 := 0#32
  let c14_i32_1532 : BitVec 32 := 14#32
  let c1_i32_1533 : BitVec 32 := 1#32
  let v5422 : BitVec 32 := Scalar.muli c14_i32_1532 c1_i32_1533
  let v5423 : BitVec 32 := Scalar.addi c0_i32_1534 v5422
  let c64_i32_1535 : BitVec 32 := 64#32
  let v5424 : BitVec 32 := Scalar.muli v5423 c64_i32_1535
  v5424
def k0_mult59 : BitVec 32 :=
  let c0_i32_1549 : BitVec 32 := 0#32
  let c15_i32_1547 : BitVec 32 := 15#32
  let c1_i32_1548 : BitVec 32 := 1#32
  let v5456 : BitVec 32 := Scalar.muli c15_i32_1547 c1_i32_1548
  let v5457 : BitVec 32 := Scalar.addi c0_i32_1549 v5456
  let c64_i32_1550 : BitVec 32 := 64#32
  let v5458 : BitVec 32 := Scalar.muli v5457 c64_i32_1550
  v5458
def k0_mult60 : BitVec 32 :=
  let c0_i32_1565 : BitVec 32 := 0#32
  let c3_i32_1563 : BitVec 32 := 3#32
  let c1_i32_1564 : BitVec 32 := 1#32
  let v5490 : BitVec 32 := Scalar.muli c3_i32_1563 c1_i32_1564
  let v5491 : BitVec 32 := Scalar.addi c0_i32_1565 v5490
  let c512_i32_1566 : BitVec 32 := 512#32
  let v5492 : BitVec 32 := Scalar.muli v5491 c512_i32_1566
  v5492
def k0_mult61 : BitVec 32 :=
  let c0_i32_1569 : BitVec 32 := 0#32
  let c0_i32_1567 : BitVec 32 := 0#32
  let c1_i32_1568 : BitVec 32 := 1#32
  let v5494 : BitVec 32 := Scalar.muli c0_i32_1567 c1_i32_1568
  let v5495 : BitVec 32 := Scalar.addi c0_i32_1569 v5494
  let c64_i32_1570 : BitVec 32 := 64#32
  let v5496 : BitVec 32 := Scalar.muli v5495 c64_i32_1570
  v5496
def k0_mult62 : BitVec 32 :=
  let c0_i32_1584 : BitVec 32 := 0#32
  let c1_i32_1582 : BitVec 32 := 1#32
  let c1_i32_1583 : BitVec 32 := 1#32
  let v5528 : BitVec 32 := Scalar.muli c1_i32_1582 c1_i32_1583
  let v5529 : BitVec 32 := Scalar.addi c0_i32_1584 v5528
  let c64_i32_1585 : BitVec 32 := 64#32
  let v5530 : BitVec 32 := Scalar.muli v5529 c64_i32_1585
  v5530
def k0_mult63 : BitVec 32 :=
  let c0_i32_1599 : BitVec 32 := 0#32
  let c2_i32_1597 : BitVec 32 := 2#32
  let c1_i32_1598 : BitVec 32 := 1#32
  let v5562 : BitVec 32 := Scalar.muli c2_i32_1597 c1_i32_1598
  let v5563 : BitVec 32 := Scalar.addi c0_i32_1599 v5562
  let c64_i32_1600 : BitVec 32 := 64#32
  let v5564 : BitVec 32 := Scalar.muli v5563 c64_i32_1600
  v5564
def k0_mult64 : BitVec 32 :=
  let c0_i32_1614 : BitVec 32 := 0#32
  let c3_i32_1612 : BitVec 32 := 3#32
  let c1_i32_1613 : BitVec 32 := 1#32
  let v5596 : BitVec 32 := Scalar.muli c3_i32_1612 c1_i32_1613
  let v5597 : BitVec 32 := Scalar.addi c0_i32_1614 v5596
  let c64_i32_1615 : BitVec 32 := 64#32
  let v5598 : BitVec 32 := Scalar.muli v5597 c64_i32_1615
  v5598
def k0_mult65 : BitVec 32 :=
  let c0_i32_1629 : BitVec 32 := 0#32
  let c4_i32_1627 : BitVec 32 := 4#32
  let c1_i32_1628 : BitVec 32 := 1#32
  let v5630 : BitVec 32 := Scalar.muli c4_i32_1627 c1_i32_1628
  let v5631 : BitVec 32 := Scalar.addi c0_i32_1629 v5630
  let c64_i32_1630 : BitVec 32 := 64#32
  let v5632 : BitVec 32 := Scalar.muli v5631 c64_i32_1630
  v5632
def k0_mult66 : BitVec 32 :=
  let c0_i32_1644 : BitVec 32 := 0#32
  let c5_i32_1642 : BitVec 32 := 5#32
  let c1_i32_1643 : BitVec 32 := 1#32
  let v5664 : BitVec 32 := Scalar.muli c5_i32_1642 c1_i32_1643
  let v5665 : BitVec 32 := Scalar.addi c0_i32_1644 v5664
  let c64_i32_1645 : BitVec 32 := 64#32
  let v5666 : BitVec 32 := Scalar.muli v5665 c64_i32_1645
  v5666
def k0_mult67 : BitVec 32 :=
  let c0_i32_1659 : BitVec 32 := 0#32
  let c6_i32_1657 : BitVec 32 := 6#32
  let c1_i32_1658 : BitVec 32 := 1#32
  let v5698 : BitVec 32 := Scalar.muli c6_i32_1657 c1_i32_1658
  let v5699 : BitVec 32 := Scalar.addi c0_i32_1659 v5698
  let c64_i32_1660 : BitVec 32 := 64#32
  let v5700 : BitVec 32 := Scalar.muli v5699 c64_i32_1660
  v5700
def k0_mult68 : BitVec 32 :=
  let c0_i32_1674 : BitVec 32 := 0#32
  let c7_i32_1672 : BitVec 32 := 7#32
  let c1_i32_1673 : BitVec 32 := 1#32
  let v5732 : BitVec 32 := Scalar.muli c7_i32_1672 c1_i32_1673
  let v5733 : BitVec 32 := Scalar.addi c0_i32_1674 v5732
  let c64_i32_1675 : BitVec 32 := 64#32
  let v5734 : BitVec 32 := Scalar.muli v5733 c64_i32_1675
  v5734
def k0_mult69 : BitVec 32 :=
  let c0_i32_1689 : BitVec 32 := 0#32
  let c8_i32_1687 : BitVec 32 := 8#32
  let c1_i32_1688 : BitVec 32 := 1#32
  let v5766 : BitVec 32 := Scalar.muli c8_i32_1687 c1_i32_1688
  let v5767 : BitVec 32 := Scalar.addi c0_i32_1689 v5766
  let c64_i32_1690 : BitVec 32 := 64#32
  let v5768 : BitVec 32 := Scalar.muli v5767 c64_i32_1690
  v5768
def k0_mult70 : BitVec 32 :=
  let c0_i32_1704 : BitVec 32 := 0#32
  let c9_i32_1702 : BitVec 32 := 9#32
  let c1_i32_1703 : BitVec 32 := 1#32
  let v5800 : BitVec 32 := Scalar.muli c9_i32_1702 c1_i32_1703
  let v5801 : BitVec 32 := Scalar.addi c0_i32_1704 v5800
  let c64_i32_1705 : BitVec 32 := 64#32
  let v5802 : BitVec 32 := Scalar.muli v5801 c64_i32_1705
  v5802
def k0_mult71 : BitVec 32 :=
  let c0_i32_1719 : BitVec 32 := 0#32
  let c10_i32_1717 : BitVec 32 := 10#32
  let c1_i32_1718 : BitVec 32 := 1#32
  let v5834 : BitVec 32 := Scalar.muli c10_i32_1717 c1_i32_1718
  let v5835 : BitVec 32 := Scalar.addi c0_i32_1719 v5834
  let c64_i32_1720 : BitVec 32 := 64#32
  let v5836 : BitVec 32 := Scalar.muli v5835 c64_i32_1720
  v5836
def k0_mult72 : BitVec 32 :=
  let c0_i32_1734 : BitVec 32 := 0#32
  let c11_i32_1732 : BitVec 32 := 11#32
  let c1_i32_1733 : BitVec 32 := 1#32
  let v5868 : BitVec 32 := Scalar.muli c11_i32_1732 c1_i32_1733
  let v5869 : BitVec 32 := Scalar.addi c0_i32_1734 v5868
  let c64_i32_1735 : BitVec 32 := 64#32
  let v5870 : BitVec 32 := Scalar.muli v5869 c64_i32_1735
  v5870
def k0_mult73 : BitVec 32 :=
  let c0_i32_1749 : BitVec 32 := 0#32
  let c12_i32_1747 : BitVec 32 := 12#32
  let c1_i32_1748 : BitVec 32 := 1#32
  let v5902 : BitVec 32 := Scalar.muli c12_i32_1747 c1_i32_1748
  let v5903 : BitVec 32 := Scalar.addi c0_i32_1749 v5902
  let c64_i32_1750 : BitVec 32 := 64#32
  let v5904 : BitVec 32 := Scalar.muli v5903 c64_i32_1750
  v5904
def k0_mult74 : BitVec 32 :=
  let c0_i32_1764 : BitVec 32 := 0#32
  let c13_i32_1762 : BitVec 32 := 13#32
  let c1_i32_1763 : BitVec 32 := 1#32
  let v5936 : BitVec 32 := Scalar.muli c13_i32_1762 c1_i32_1763
  let v5937 : BitVec 32 := Scalar.addi c0_i32_1764 v5936
  let c64_i32_1765 : BitVec 32 := 64#32
  let v5938 : BitVec 32 := Scalar.muli v5937 c64_i32_1765
  v5938
def k0_mult75 : BitVec 32 :=
  let c0_i32_1779 : BitVec 32 := 0#32
  let c14_i32_1777 : BitVec 32 := 14#32
  let c1_i32_1778 : BitVec 32 := 1#32
  let v5970 : BitVec 32 := Scalar.muli c14_i32_1777 c1_i32_1778
  let v5971 : BitVec 32 := Scalar.addi c0_i32_1779 v5970
  let c64_i32_1780 : BitVec 32 := 64#32
  let v5972 : BitVec 32 := Scalar.muli v5971 c64_i32_1780
  v5972
def k0_mult76 : BitVec 32 :=
  let c0_i32_1794 : BitVec 32 := 0#32
  let c15_i32_1792 : BitVec 32 := 15#32
  let c1_i32_1793 : BitVec 32 := 1#32
  let v6004 : BitVec 32 := Scalar.muli c15_i32_1792 c1_i32_1793
  let v6005 : BitVec 32 := Scalar.addi c0_i32_1794 v6004
  let c64_i32_1795 : BitVec 32 := 64#32
  let v6006 : BitVec 32 := Scalar.muli v6005 c64_i32_1795
  v6006
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

class Facts₀ : Prop where
  shapeCasts_S3072x1024_S16x64x3x1024 : S3072x1024.ShapeCasts S16x64x3x1024
  transposes_S16x64x3x1024_S3x16x64x1024_2_0_1_3 : S16x64x3x1024.Transposes [2, 0, 1, 3] S3x16x64x1024
  shapeCasts_S3x16x64x1024_S3072x1024 : S3x16x64x1024.ShapeCasts S3072x1024
  transposes_S3072x1024_S1024x3072_1_0 : S3072x1024.Transposes [1, 0] S1024x3072
  bitsLt_bf16_f32 : FTy.bits .bf16 < FTy.bits .f32
  shapeCasts_S3072_S16x64x3 : S3072.ShapeCasts S16x64x3
  transposes_S16x64x3_S3x16x64_2_0_1 : S16x64x3.Transposes [2, 0, 1] S3x16x64
  shapeCasts_S3x16x64_S3072 : S3x16x64.ShapeCasts S3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  inb_S64_S64_0 : ∀ a, (![0] : Fin 1 → Nat) a + S64.size a ≤ S64.size a
  h_S64 : 0 < S64.numel
  h_S1x256x1024 : 0 < S1x256x1024.numel
  shapeCasts_S1x256x1024_S256x1024 : S1x256x1024.ShapeCasts S256x1024
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S256x1024_o0_0_S256x64 : S256x1024.Slices ![0, 0] S256x64
  reduces_S256x64_S256 : S256x64.Reduces [1] S256
  shapeCasts_S256_S256x1 : S256.ShapeCasts S256x1
  broadcasts_S256x1_S256x64 : S256x1.Broadcasts S256x64
  shapeCasts_S64_S1x64 : S64.ShapeCasts S1x64
  broadcasts_S1x64_S256x64 : S1x64.Broadcasts S256x64
  slices_S256x1024_o0_64_S256x64 : S256x1024.Slices ![0, 64] S256x64
  slices_S256x1024_o0_128_S256x64 : S256x1024.Slices ![0, 128] S256x64
  slices_S256x1024_o0_192_S256x64 : S256x1024.Slices ![0, 192] S256x64
  slices_S256x1024_o0_256_S256x64 : S256x1024.Slices ![0, 256] S256x64
  slices_S256x1024_o0_320_S256x64 : S256x1024.Slices ![0, 320] S256x64
  slices_S256x1024_o0_384_S256x64 : S256x1024.Slices ![0, 384] S256x64
  slices_S256x1024_o0_448_S256x64 : S256x1024.Slices ![0, 448] S256x64
  slices_S256x1024_o0_512_S256x64 : S256x1024.Slices ![0, 512] S256x64
  slices_S256x1024_o0_576_S256x64 : S256x1024.Slices ![0, 576] S256x64
  slices_S256x1024_o0_640_S256x64 : S256x1024.Slices ![0, 640] S256x64
  slices_S256x1024_o0_704_S256x64 : S256x1024.Slices ![0, 704] S256x64
  slices_S256x1024_o0_768_S256x64 : S256x1024.Slices ![0, 768] S256x64
  slices_S256x1024_o0_832_S256x64 : S256x1024.Slices ![0, 832] S256x64
  slices_S256x1024_o0_896_S256x64 : S256x1024.Slices ![0, 896] S256x64
  slices_S256x1024_o0_960_S256x64 : S256x1024.Slices ![0, 960] S256x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  h_S256x1024 : 0 < S256x1024.numel
  shapeCasts_S256x1024_S256x1024 : S256x1024.ShapeCasts S256x1024
  h_S512x64 : 0 < S512x64.numel
  h_S2048x64 : 0 < S2048x64.numel
  reduces_S512x2048_S512 : S512x2048.Reduces [1] S512
  shapeCasts_S512_S512x1 : S512.ShapeCasts S512x1
  broadcasts_S512x1_S512x2048 : S512x1.Broadcasts S512x2048
  h_S1x512x64 : 0 < S1x512x64.numel
  shapeCasts_S1x512x64_S512x64 : S1x512x64.ShapeCasts S512x64
  shapeCasts_S512x64_S1x512x64 : S512x64.ShapeCasts S1x512x64
  dot_S256x1024_S1024x3072_S256x3072_1_0_0_1_n_n_wf : DotDims.WF S256x1024 S1024x3072 S256x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : 256 ∣ k0_mult1.toNat
  k0_off1_inb : ∀ (r : Fin 8), ∀ a, (k0_off1 (BitVec.ofNat 32 r.val)) a + S1x256x1024.size a ≤ S1x2048x1024.size a
  k0_off2_inb : ∀ (r : Fin 8), ∀ a, (k0_off2 (BitVec.ofNat 32 r.val)) a + S256x1024.size a ≤ S2048x3072.size a
  k0_off2_packedbf16 : ∀ (r : Fin 8), (Rect.unit (s := S2048x3072) (k0_off2 (BitVec.ofNat 32 r.val)) S256x1024.size (k0_off2_inb r)).PackedRows (EltTy.packing .bf16)
  k0_off3_inb : ∀ (r : Fin 8), ∀ a, (k0_off3 (BitVec.ofNat 32 r.val)) a + S256x1024.size a ≤ S2048x3072.size a
  k0_off3_packedbf16 : ∀ (r : Fin 8), (Rect.unit (s := S2048x3072) (k0_off3 (BitVec.ofNat 32 r.val)) S256x1024.size (k0_off3_inb r)).PackedRows (EltTy.packing .bf16)
  k0_off4_inb : ∀ (r : Fin 8), ∀ a, (k0_off4 (BitVec.ofNat 32 r.val)) a + S256x1024.size a ≤ S2048x3072.size a
  k0_off4_packedbf16 : ∀ (r : Fin 8), (Rect.unit (s := S2048x3072) (k0_off4 (BitVec.ofNat 32 r.val)) S256x1024.size (k0_off4_inb r)).PackedRows (EltTy.packing .bf16)
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  k0_mult9_dvd : 512 ∣ k0_mult9.toNat
  k0_mult10_dvd : 64 ∣ k0_mult10.toNat
  k0_off5_inb : ∀ (r₁ : Fin 4) (r₂ : Fin 16), ∀ a, (k0_off5 (BitVec.ofNat 32 r₁.val) (BitVec.ofNat 32 r₂.val)) a + S512x64.size a ≤ S2048x3072.size a
  k0_off6_inb : ∀ (r₁ : Fin 2) (r₂ : Fin 16), ∀ a, (k0_off6 (BitVec.ofNat 32 (1024 + 1024 * r₁.val)) (BitVec.ofNat 32 r₂.val)) a + S2048x64.size a ≤ S2048x3072.size a
  k0_off7_inb : ∀ (r₁ : Fin 4) (r₂ : Fin 16), ∀ a, (k0_off7 (BitVec.ofNat 32 r₁.val) (BitVec.ofNat 32 r₂.val)) a + S1x512x64.size a ≤ S1x2048x1024.size a
  k0_mult11_dvd : 64 ∣ k0_mult11.toNat
  k0_mult12_dvd : 64 ∣ k0_mult12.toNat
  k0_mult13_dvd : 64 ∣ k0_mult13.toNat
  k0_mult14_dvd : 64 ∣ k0_mult14.toNat
  k0_mult15_dvd : 64 ∣ k0_mult15.toNat
  k0_mult16_dvd : 64 ∣ k0_mult16.toNat
  k0_mult17_dvd : 64 ∣ k0_mult17.toNat
  k0_mult18_dvd : 64 ∣ k0_mult18.toNat
  k0_mult19_dvd : 64 ∣ k0_mult19.toNat
  k0_mult20_dvd : 64 ∣ k0_mult20.toNat
  k0_mult21_dvd : 64 ∣ k0_mult21.toNat
  k0_mult22_dvd : 64 ∣ k0_mult22.toNat
  k0_mult23_dvd : 64 ∣ k0_mult23.toNat
  k0_mult24_dvd : 64 ∣ k0_mult24.toNat
  k0_mult25_dvd : 64 ∣ k0_mult25.toNat
  k0_mult26_dvd : 512 ∣ k0_mult26.toNat
  k0_mult27_dvd : 64 ∣ k0_mult27.toNat
  k0_mult28_dvd : 64 ∣ k0_mult28.toNat
  k0_mult29_dvd : 64 ∣ k0_mult29.toNat
  k0_mult30_dvd : 64 ∣ k0_mult30.toNat
  k0_mult31_dvd : 64 ∣ k0_mult31.toNat
  k0_mult32_dvd : 64 ∣ k0_mult32.toNat
  k0_mult33_dvd : 64 ∣ k0_mult33.toNat
  k0_mult34_dvd : 64 ∣ k0_mult34.toNat
  k0_mult35_dvd : 64 ∣ k0_mult35.toNat
  k0_mult36_dvd : 64 ∣ k0_mult36.toNat
  k0_mult37_dvd : 64 ∣ k0_mult37.toNat
  k0_mult38_dvd : 64 ∣ k0_mult38.toNat
  k0_mult39_dvd : 64 ∣ k0_mult39.toNat
  k0_mult40_dvd : 64 ∣ k0_mult40.toNat
  k0_mult41_dvd : 64 ∣ k0_mult41.toNat
  k0_mult42_dvd : 64 ∣ k0_mult42.toNat
  k0_mult43_dvd : 512 ∣ k0_mult43.toNat
  k0_mult44_dvd : 64 ∣ k0_mult44.toNat
  k0_mult45_dvd : 64 ∣ k0_mult45.toNat
  k0_mult46_dvd : 64 ∣ k0_mult46.toNat
  k0_mult47_dvd : 64 ∣ k0_mult47.toNat
  k0_mult48_dvd : 64 ∣ k0_mult48.toNat
  k0_mult49_dvd : 64 ∣ k0_mult49.toNat
  k0_mult50_dvd : 64 ∣ k0_mult50.toNat
  k0_mult51_dvd : 64 ∣ k0_mult51.toNat
  k0_mult52_dvd : 64 ∣ k0_mult52.toNat
  k0_mult53_dvd : 64 ∣ k0_mult53.toNat
  k0_mult54_dvd : 64 ∣ k0_mult54.toNat
  k0_mult55_dvd : 64 ∣ k0_mult55.toNat
  k0_mult56_dvd : 64 ∣ k0_mult56.toNat
  k0_mult57_dvd : 64 ∣ k0_mult57.toNat
  k0_mult58_dvd : 64 ∣ k0_mult58.toNat
  k0_mult59_dvd : 64 ∣ k0_mult59.toNat
  k0_mult60_dvd : 512 ∣ k0_mult60.toNat
  k0_mult61_dvd : 64 ∣ k0_mult61.toNat
  k0_mult62_dvd : 64 ∣ k0_mult62.toNat
  k0_mult63_dvd : 64 ∣ k0_mult63.toNat
  k0_mult64_dvd : 64 ∣ k0_mult64.toNat
  k0_mult65_dvd : 64 ∣ k0_mult65.toNat
  k0_mult66_dvd : 64 ∣ k0_mult66.toNat
  k0_mult67_dvd : 64 ∣ k0_mult67.toNat
  k0_mult68_dvd : 64 ∣ k0_mult68.toNat
  k0_mult69_dvd : 64 ∣ k0_mult69.toNat
  k0_mult70_dvd : 64 ∣ k0_mult70.toNat
  k0_mult71_dvd : 64 ∣ k0_mult71.toNat
  k0_mult72_dvd : 64 ∣ k0_mult72.toNat
  k0_mult73_dvd : 64 ∣ k0_mult73.toNat
  k0_mult74_dvd : 64 ∣ k0_mult74.toNat
  k0_mult75_dvd : 64 ∣ k0_mult75.toNat
  k0_mult76_dvd : 64 ∣ k0_mult76.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048x1024.size a ≤ S2x2048x1024.size a
  hwx0_5 : ∀ i : grid0.Coords, EltTy.bits .f32 = 32 ∨ (Rect.block (s := S2x2048x1024) S1x2048x1024.size (cc0_transform_5 i) (hinb0_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S64 : Shape := ⟨1, ![64]⟩
abbrev S2x2048x3072 : Shape := ⟨3, ![2, 2048, 3072]⟩
abbrev S1x1x3072 : Shape := ⟨3, ![1, 1, 3072]⟩
abbrev S2x2048x16x64x3 : Shape := ⟨5, ![2, 2048, 16, 64, 3]⟩
abbrev S2x16x2048x64x3 : Shape := ⟨5, ![2, 16, 2048, 64, 3]⟩
abbrev S2x16x2048x64x1 : Shape := ⟨5, ![2, 16, 2048, 64, 1]⟩
abbrev S2x16x2048x64 : Shape := ⟨4, ![2, 16, 2048, 64]⟩
abbrev S_ : Shape := ⟨0, ![]⟩
abbrev S2x16x2048 : Shape := ⟨3, ![2, 16, 2048]⟩
abbrev S2x16x2048x1 : Shape := ⟨4, ![2, 16, 2048, 1]⟩
abbrev S1x1x1x64 : Shape := ⟨4, ![1, 1, 1, 64]⟩
abbrev S2x16x2048x2048 : Shape := ⟨4, ![2, 16, 2048, 2048]⟩
abbrev S2x2048x16x64 : Shape := ⟨4, ![2, 2048, 16, 64]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S64, .f32⟩
  | .hbm, ⟨4, _⟩ => ⟨S64, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x64x3, .f32⟩
  | .hbm, ⟨10, _⟩ => ⟨S2x16x2048x64x3, .f32⟩
  | .hbm, ⟨11, _⟩ => ⟨S2x16x2048x64x1, .f32⟩
  | .hbm, ⟨12, _⟩ => ⟨S2x16x2048x64, .f32⟩
  | .hbm, ⟨13, _⟩ => ⟨S2x16x2048x64x1, .f32⟩
  | .hbm, ⟨14, _⟩ => ⟨S2x16x2048x64, .f32⟩
  | .hbm, ⟨15, _⟩ => ⟨S2x16x2048x64x1, .f32⟩
  | .hbm, ⟨16, _⟩ => ⟨S2x16x2048x64, .f32⟩
  | .hbm, ⟨17, _⟩ => ⟨S2x16x2048x64, .f32⟩
  | .hbm, ⟨18, _⟩ => ⟨S_, .f32⟩
  | .hbm, ⟨19, _⟩ => ⟨S2x16x2048, .f32⟩
  | .hbm, ⟨20, _⟩ => ⟨S2x16x2048x1, .f32⟩
  | .hbm, ⟨21, _⟩ => ⟨S_, .f32⟩
  | .hbm, ⟨22, _⟩ => ⟨S2x16x2048x1, .f32⟩
  | .hbm, ⟨23, _⟩ => ⟨S2x16x2048x1, .f32⟩
  | .hbm, ⟨24, _⟩ => ⟨S_, .f32⟩
  | .hbm, ⟨25, _⟩ => ⟨S2x16x2048x1, .f32⟩
  | .hbm, ⟨26, _⟩ => ⟨S2x16x2048x1, .f32⟩
  | .hbm, ⟨27, _⟩ => ⟨S2x16x2048x1, .f32⟩
  | .hbm, ⟨28, _⟩ => ⟨S2x16x2048x64, .f32⟩
  | .hbm, ⟨29, _⟩ => ⟨S2x16x2048x64, .f32⟩
  | .hbm, ⟨30, _⟩ => ⟨S1x1x1x64, .f32⟩
  | .hbm, ⟨31, _⟩ => ⟨S2x16x2048x64, .f32⟩
  | .hbm, ⟨32, _⟩ => ⟨S2x16x2048x64, .f32⟩
  | .hbm, ⟨33, _⟩ => ⟨S2x16x2048x64, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S_, .f32⟩
  | .hbm, ⟨38, _⟩ => ⟨S2x16x2048x1, .f32⟩
  | .hbm, ⟨39, _⟩ => ⟨S2x16x2048x1, .f32⟩
  | .hbm, ⟨40, _⟩ => ⟨S_, .f32⟩
  | .hbm, ⟨41, _⟩ => ⟨S2x16x2048x1, .f32⟩
  | .hbm, ⟨42, _⟩ => ⟨S2x16x2048x1, .f32⟩
  | .hbm, ⟨43, _⟩ => ⟨S2x16x2048x1, .f32⟩
  | .hbm, ⟨44, _⟩ => ⟨S2x16x2048x64, .f32⟩
  | .hbm, ⟨45, _⟩ => ⟨S2x16x2048x64, .f32⟩
  | .hbm, ⟨46, _⟩ => ⟨S1x1x1x64, .f32⟩
  | .hbm, ⟨47, _⟩ => ⟨S2x16x2048x64, .f32⟩
  | .hbm, ⟨48, _⟩ => ⟨S2x16x2048x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S_, .f32⟩
  | .hbm, ⟨57, _⟩ => ⟨S2x16x2048, .f32⟩
  | .hbm, ⟨58, _⟩ => ⟨S_, .f32⟩
  | .hbm, ⟨59, _⟩ => ⟨S2x16x2048, .f32⟩
  | .hbm, ⟨60, _⟩ => ⟨S2x16x2048, .f32⟩
  | .hbm, ⟨61, _⟩ => ⟨S2x16x2048x1, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S_, .f32⟩
  | .hbm, ⟨66, _⟩ => ⟨S2x16x2048, .f32⟩
  | .hbm, ⟨67, _⟩ => ⟨S2x16x2048x1, .f32⟩
  | .hbm, ⟨68, _⟩ => ⟨S2x16x2048x2048, .f32⟩
  | .hbm, ⟨69, _⟩ => ⟨S2x16x2048x2048, .f32⟩
  | .hbm, ⟨70, _⟩ => ⟨S2x16x2048x64, .f32⟩
  | .hbm, ⟨71, _⟩ => ⟨S2x2048x16x64, .f32⟩
  | .hbm, ⟨72, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x64x3 : S2x2048x3072.ShapeCasts S2x2048x16x64x3
  transposes_S2x2048x16x64x3_S2x16x2048x64x3_0_2_1_3_4 : S2x2048x16x64x3.Transposes [0, 2, 1, 3, 4] S2x16x2048x64x3
  slices_S2x16x2048x64x3_S2x16x2048x64x1_0_0_0_0_0 : S2x16x2048x64x3.Slices ![0, 0, 0, 0, 0] S2x16x2048x64x1
  shapeCasts_S2x16x2048x64x1_S2x16x2048x64 : S2x16x2048x64x1.ShapeCasts S2x16x2048x64
  slices_S2x16x2048x64x3_S2x16x2048x64x1_0_0_0_0_1 : S2x16x2048x64x3.Slices ![0, 0, 0, 0, 1] S2x16x2048x64x1
  slices_S2x16x2048x64x3_S2x16x2048x64x1_0_0_0_0_2 : S2x16x2048x64x3.Slices ![0, 0, 0, 0, 2] S2x16x2048x64x1
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  bcast_S64_S1x1x1x64_3 : S64.BroadcastsInDim S1x1x1x64 (![3] : Fin 1 → Fin S1x1x1x64.rank)
  bcast_S1x1x1x64_S2x16x2048x64_0_1_2_3 : S1x1x1x64.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The kernel body of `Kernel` run once on whole staging buffers, at any float instance: from the five input
  buffers at given contents, the output buffer and the scratch buffer at anything, the body terminates with
  the inputs as they were, the scratch at some contents, and the output buffer overwritten by a list of
  pieces (one per head and query tile) that the run itself finds.
-/
import proofs.«146380_j70660801954384_2_alg».proof.Proof.Gen.Kernel.Frame
import proofs.«146380_j70660801954384_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The pieces the body's stores leave in the output buffer (last store first), with the proof that the body
    runs to its continuation holding exactly that. -/
noncomputable def kernelRun (c : Dev nD) (i : grid0.Coords) (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg6 : Memref sig .tc .vmem S1x2048x1024 .f32) (harg6 : arg6.IsWhole) (arg7 : Memref sig .tc .vmem S2048x3072 .bf16) (harg7 : arg7.IsWhole)
    (x0 : Vec F S1x2048x1024 .f32) (x1 : Vec F S1024x3072 .bf16) (x2 : Vec F S3072 .f32) (x3 : Vec F S64 .f32) (x4 : Vec F S64 .f32) :
    { L5 : List (View.Piece (Elt F) S1x2048x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS0
    ipureintro; rfl

end Cert.Kernel.Body

end
-- ==== Proof.KernelBody.lean ====
/-
  The frame of `Kernel`, at any float instance: the body's run (the run module) placed under the pipeline.
  A grid point is one batch element; its six windows are whole buffers (the batch element's rows of x, the
  re-laid weight and bias, the two gains, the batch element's rows of the result). After the body the five
  input buffers hold their blocks as before and the result's buffer holds the body's pieces, which tile it
  (4 query tiles × 16 heads of 512 × 64), so its contents do not depend on what it held before.
-/
import proofs.«146380_j70660801954384_2_alg».proof.Proof.KernelRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result window, through which its contents are stated. -/
abbrev VO5 : View sig .tc .vmem S1x2048x1024 .f32 := (Memref.whole cc0_stg5_0 : Memref sig .tc .vmem S1x2048x1024 .f32).view
/-- Each window's current staging buffer at point `t`, spelt as the pipeline passes it, and its wholeness. -/
abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3072 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S3072 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x1024 .f32 := win0_5.stage (cfg0.slots t 5)
abbrev hs5 (t : Fin cfg0.N) : (ms5 t).IsWhole := hstage0_5 ((cfg0.slots t 5).cast nbuf0_5)
/-- The scratch operand: a whole scoped buffer of the kernel's own. -/
abbrev scM : Memref sig .tc .vmem S2048x3072 .bf16 := Memref.whole cc0_scratch0

/-- The pipeline's invariant with the scratch buffer owned at some contents: what the body is handed and gives back. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The run's pieces tile the result's block (64 stores of 1 × 512 × 64), so they cover it. -/
theorem cover5 (c : Dev nD) (i : grid0.Coords) (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg6 : Memref sig .tc .vmem S1x2048x1024 .f32) (harg6 : arg6.IsWhole) (arg7 : Memref sig .tc .vmem S2048x3072 .bf16) (harg7 : arg7.IsWhole)
    (x0 : Vec F S1x2048x1024 .f32) (x1 : Vec F S1024x3072 .bf16) (x2 : Vec F S3072 .f32) (x3 : Vec F S64 .f32) (x4 : Vec F S64 .f32) (y : S1x2048x1024.Idx) :
    ∃ pc ∈ (kernelRun c i arg1 harg1 arg2 harg2 arg3 harg3 arg4 harg4 arg5 harg5 arg6 harg6 arg7 harg7 x0 x1 x2 x3 x4).1, y ∈ pc.1.set :=
  View.cover_of_tiledL (kernelRun c i arg1 harg1 arg2 harg2 arg3 harg3 arg4 harg4 arg5 harg5 arg6 harg6 arg7 harg7 x0 x1 x2 x3 x4).1 S1x512x64.size (by sl_kernel_rfl) y

/-- What the run leaves in the result's staging buffer: its pieces read back. -/
def out5 (c : Dev nD) (i : grid0.Coords) (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg6 : Memref sig .tc .vmem S1x2048x1024 .f32) (harg6 : arg6.IsWhole) (arg7 : Memref sig .tc .vmem S2048x3072 .bf16) (harg7 : arg7.IsWhole)
    (x0 : Vec F S1x2048x1024 .f32) (x1 : Vec F S1024x3072 .bf16) (x2 : Vec F S3072 .f32) (x3 : Vec F S64 .f32) (x4 : Vec F S64 .f32) : Vec F S1x2048x1024 .f32 :=
  VO5.read (Elt F) (VO5.writes (Elt F) VO5.junk (kernelRun c i arg1 harg1 arg2 harg2 arg3 harg3 arg4 harg4 arg5 harg5 arg6 harg6 arg7 harg7 x0 x1 x2 x3 x4).1)

/-- What the result's staging buffer holds after the body at point `t`. -/
def outsAt (c : Dev nD) (t : Fin cfg0.N) : Vec F S1x2048x1024 .f32 :=
  out5 c (grid0.coords t) (ms0 t) (hs0 t) (ms1 t) (hs1 t) (ms2 t) (hs2 t) (ms3 t) (hs3 t) (ms4 t) (hs4 t) (ms5 t) (hs5 t) scM (Memref.isWhole_whole _)
    (iblk m c 0 t) (iblk m c 1 t) (iblk m c 2 t) (iblk m c 3 t) (iblk m c 4 t)

/-- The proof data of the pipeline on core `c`: the arrays as the region finds them; after the body at point `t`
    each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point: the inputs' buffers hold their blocks, so the run applies; the invariant hands the
    body its scratch buffer at some contents and takes it back at some contents; the result's buffer ends at the
    pieces read back, whatever it held (they cover it). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  unfold outsAt
  unfold out5
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves its argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealRun.lean ====
/-
  The kernel body of `KernelIdeal` run once on whole staging buffers, at any float instance: from the five input
  buffers at given contents, the output buffer and the scratch buffer at anything, the body terminates with
  the inputs as they were, the scratch at some contents, and the output buffer overwritten by a list of
  pieces (one per head and query tile) that the run itself finds.
-/
import proofs.«146380_j70660801954384_2_alg».proof.Proof.Gen.KernelIdeal.Frame
import proofs.«146380_j70660801954384_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The pieces the body's stores leave in the output buffer (last store first), with the proof that the body
    runs to its continuation holding exactly that. -/
noncomputable def kernelRun (c : Dev nD) (i : grid0.Coords) (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg6 : Memref sig .tc .vmem S1x2048x1024 .f32) (harg6 : arg6.IsWhole) (arg7 : Memref sig .tc .vmem S2048x3072 .bf16) (harg7 : arg7.IsWhole)
    (x0 : Vec F S1x2048x1024 .f32) (x1 : Vec F S1024x3072 .bf16) (x2 : Vec F S3072 .f32) (x3 : Vec F S64 .f32) (x4 : Vec F S64 .f32) :
    { L5 : List (View.Piece (Elt F) S1x2048x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS0
    ipureintro; rfl

end Cert.KernelIdeal.Body

end
-- ==== Proof.KernelIdealTile.lean ====
/-
  One projection tile of the body of `KernelIdeal` as pure functions of the loaded buffers, at any float instance: 256 rows
  of x (cast to bf16) times the re-laid weight plus the bias give a 256 × 3072 tile whose three 1024-column thirds
  are the queries, keys and values of the 16 heads; the first two thirds are normalised head by head (64 lanes:
  divided by the root of their mean square plus ε, times the gain) and each third is stored as bf16.
-/
import proofs.«146380_j70660801954384_2_alg».proof.Proof.Gen.KernelIdeal.Skeleton

noncomputable section

namespace Cert.KernelIdeal.Tile

open Cert.KernelIdeal Cert.KernelIdeal.Gen Idealize.ShloMosaic

variable {F : FTy → Type} [FloatOps F]

/-- The tile of projections: rows of x against the re-laid weight, plus the bias along the rows. -/
def qkv (xt : Vec F S1x256x1024 .f32) (wl : Vec F S1024x3072 .bf16) (bl : Vec F S3072 .f32) : FVec F S256x3072 .f32 :=
  addf
    (matmul dot_S256x1024_S1024x3072_S256x3072_1_0_0_1_n_n none
      (truncf .bf16 (shapeCast S256x1024 xt shapeCasts_S1x256x1024_S256x1024) bitsLt_bf16_f32)
      (shapeCast S1024x3072 wl shapeCasts_S1024x3072_S1024x3072)
      (constant S256x3072 .f32 0x00000000#32))
    (broadcastTo S256x3072 (shapeCast S1x3072 (shapeCast S3072 bl shapeCasts_S3072_S3072) shapeCasts_S3072_S1x3072) broadcasts_S1x3072_S256x3072)

/-- One head's 64 lanes normalised by their root mean square, times the gain. -/
def seg (g : Vec F S64 .f32) (s : FVec F S256x64 .f32) : FVec F S256x64 .f32 :=
  mulf
    (mulf s
      (broadcastTo S256x64
        (rsqrt
          (addf
            (divf
              (shapeCast S256x1 (multiReduction .add [1] S256 (mulf s s) 0x00000000#32 reduces_S256x64_S256 (.inl rfl) rfl) shapeCasts_S256_S256x1)
              (broadcast S256x1 (Scalar.ofBits .f32 0x42800000#32)))
            (broadcast S256x1 (Scalar.ofBits .f32 0x358637BD#32))))
        broadcasts_S256x1_S256x64))
    (broadcastTo S256x64 (shapeCast S1x64 g shapeCasts_S64_S1x64) broadcasts_S1x64_S256x64)

/-- A third of the tile normalised head by head and cast to bf16, as it is stored. -/
def normed (g : Vec F S64 .f32) (part : FVec F S256x1024 .f32) : FVec F S256x1024 .bf16 :=
  shapeCast S256x1024
    (truncf .bf16
      (concatenate S256x1024 1 [
      ⟨S256x64, seg g (extractStridedSlice S256x64 ![0, 0] part slices_S256x1024_o0_0_S256x64)⟩,
      ⟨S256x64, seg g (extractStridedSlice S256x64 ![0, 64] part slices_S256x1024_o0_64_S256x64)⟩,
      ⟨S256x64, seg g (extractStridedSlice S256x64 ![0, 128] part slices_S256x1024_o0_128_S256x64)⟩,
      ⟨S256x64, seg g (extractStridedSlice S256x64 ![0, 192] part slices_S256x1024_o0_192_S256x64)⟩,
      ⟨S256x64, seg g (extractStridedSlice S256x64 ![0, 256] part slices_S256x1024_o0_256_S256x64)⟩,
      ⟨S256x64, seg g (extractStridedSlice S256x64 ![0, 320] part slices_S256x1024_o0_320_S256x64)⟩,
      ⟨S256x64, seg g (extractStridedSlice S256x64 ![0, 384] part slices_S256x1024_o0_384_S256x64)⟩,
      ⟨S256x64, seg g (extractStridedSlice S256x64 ![0, 448] part slices_S256x1024_o0_448_S256x64)⟩,
      ⟨S256x64, seg g (extractStridedSlice S256x64 ![0, 512] part slices_S256x1024_o0_512_S256x64)⟩,
      ⟨S256x64, seg g (extractStridedSlice S256x64 ![0, 576] part slices_S256x1024_o0_576_S256x64)⟩,
      ⟨S256x64, seg g (extractStridedSlice S256x64 ![0, 640] part slices_S256x1024_o0_640_S256x64)⟩,
      ⟨S256x64, seg g (extractStridedSlice S256x64 ![0, 704] part slices_S256x1024_o0_704_S256x64)⟩,
      ⟨S256x64, seg g (extractStridedSlice S256x64 ![0, 768] part slices_S256x1024_o0_768_S256x64)⟩,
      ⟨S256x64, seg g (extractStridedSlice S256x64 ![0, 832] part slices_S256x1024_o0_832_S256x64)⟩,
      ⟨S256x64, seg g (extractStridedSlice S256x64 ![0, 896] part slices_S256x1024_o0_896_S256x64)⟩,
      ⟨S256x64, seg g (extractStridedSlice S256x64 ![0, 960] part slices_S256x1024_o0_960_S256x64)⟩]
        concatenates_S256x64_S256x64_S256x64_S256x64_S256x64_S256x64_S256x64_S256x64_S256x64_S256x64_S256x64_S256x64_S256x64_S256x64_S256x64_S256x64_S256x1024_d1)
      bitsLt_bf16_f32)
    shapeCasts_S256x1024_S256x1024

/-- The stored query, key and value thirds of a tile. -/
def tileQ (xt : Vec F S1x256x1024 .f32) (wl : Vec F S1024x3072 .bf16) (bl : Vec F S3072 .f32) (g : Vec F S64 .f32) : FVec F S256x1024 .bf16 :=
  normed g (extractStridedSlice S256x1024 ![0, 0] (qkv xt wl bl) slices_S256x3072_o0_0_S256x1024)
def tileK (xt : Vec F S1x256x1024 .f32) (wl : Vec F S1024x3072 .bf16) (bl : Vec F S3072 .f32) (g : Vec F S64 .f32) : FVec F S256x1024 .bf16 :=
  normed g (extractStridedSlice S256x1024 ![0, 1024] (qkv xt wl bl) slices_S256x3072_o0_1024_S256x1024)
def tileV (xt : Vec F S1x256x1024 .f32) (wl : Vec F S1024x3072 .bf16) (bl : Vec F S3072 .f32) : FVec F S256x1024 .bf16 :=
  shapeCast S256x1024
    (truncf .bf16 (extractStridedSlice S256x1024 ![0, 2048] (qkv xt wl bl) slices_S256x3072_o0_2048_S256x1024) bitsLt_bf16_f32)
    shapeCasts_S256x1024_S256x1024

end Cert.KernelIdeal.Tile

end
-- ==== Proof.KernelIdealPieces.lean ====
/-
  What the body of `KernelIdeal` leaves behind, spelt out (at any float instance). The scratch buffer (2048 × 3072) is
  written by 24 stores: for each of the 8 tiles of 256 rows, the tile's query, key and value thirds at columns 0,
  1024, 2048. The result's block (1 × 2048 × 1024) is written by 64 stores: for each of 4 query tiles of 512 rows
  and each of 16 heads, that head's attention of the query tile's 512 × 64 block against the head's 2048 × 64 key
  and value blocks, all three read back from the scratch buffer after its 24 stores.
-/
import proofs.«146380_j70660801954384_2_alg».proof.Proof.KernelIdealRun
import proofs.«146380_j70660801954384_2_alg».proof.Proof.KernelIdealTile

set_option maxRecDepth 16384

noncomputable section

namespace Cert.KernelIdeal.Body

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The loads of the input buffers -/

theorem inbX (t : Fin 8) : ∀ a, (![0, 256 * t.val, 0] : Fin 3 → Nat) a + S1x256x1024.size a ≤ S1x2048x1024.size a := by
  intro a; have := t.isLt
  match a with
  | ⟨0, _⟩ => show 0 + 1 ≤ 1; omega
  | ⟨1, _⟩ => show 256 * t.val + 256 ≤ 2048; omega
  | ⟨2, _⟩ => show 0 + 1024 ≤ 1024; omega

/-- Rows 256·t … 256·t + 255 of x, as the body loads them. -/
abbrev ldx (t : Fin 8) (arg1 : Memref sig .tc .vmem S1x2048x1024 .f32) (harg1 : arg1.IsWhole) (x0 : Vec F S1x2048x1024 .f32) : Vec F S1x256x1024 .f32 :=
  View.readAt (Elt F) arg1.view (Rect.unit (s := S1x2048x1024) ![0, 256 * t.val, 0] S1x256x1024.size (inbX t)).toLoadRect (harg1.unread x0)
/-- The re-laid weight, the re-laid bias and a gain, as the body loads them (whole). -/
abbrev ldw (arg2 : Memref sig .tc .vmem S1024x3072 .bf16) (harg2 : arg2.IsWhole) (x1 : Vec F S1024x3072 .bf16) : Vec F S1024x3072 .bf16 :=
  View.readAt (Elt F) arg2.view (Rect.unit (s := S1024x3072) ![0, 0] S1024x3072.size inb_S1024x3072_S1024x3072_0_0).toLoadRect (harg2.unread x1)
abbrev ldb (arg3 : Memref sig .tc .vmem S3072 .f32) (harg3 : arg3.IsWhole) (x2 : Vec F S3072 .f32) : Vec F S3072 .f32 :=
  View.readAt (Elt F) arg3.view (Rect.unit (s := S3072) ![0] S3072.size inb_S3072_S3072_0).toLoadRect (harg3.unread x2)
abbrev ldg (arg4 : Memref sig .tc .vmem S64 .f32) (harg4 : arg4.IsWhole) (x3 : Vec F S64 .f32) : Vec F S64 .f32 :=
  View.readAt (Elt F) arg4.view (Rect.unit (s := S64) ![0] S64.size inb_S64_S64_0).toLoadRect (harg4.unread x3)

/-! ## The scratch buffer's 24 stores -/

theorem inbS (t : Fin 8) (o : Nat) (ho : o + 1024 ≤ 3072) : ∀ a, (![256 * t.val, o] : Fin 2 → Nat) a + S256x1024.size a ≤ S2048x3072.size a := by
  intro a; have := t.isLt
  match a with
  | ⟨0, _⟩ => show 256 * t.val + 256 ≤ 2048; omega
  | ⟨1, _⟩ => show o + 1024 ≤ 3072; omega

section
variable (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (x0 : Vec F S1x2048x1024 .f32) (x1 : Vec F S1024x3072 .bf16) (x2 : Vec F S3072 .f32) (x3 : Vec F S64 .f32) (x4 : Vec F S64 .f32)

/-- Tile `t`'s three stores: values at column 2048, keys at 1024, queries at 0 (last store first). -/
def tilePieces (t : Fin 8) : List (View.Piece (Elt F) S2048x3072 .bf16) :=
  [⟨Rect.unit ![256 * t.val, 2048] S256x1024.size (inbS t 2048 (by omega)),
      tileV (ldx t arg1 harg1 x0) (ldw arg2 harg2 x1) (ldb arg3 harg3 x2)⟩,
   ⟨Rect.unit ![256 * t.val, 1024] S256x1024.size (inbS t 1024 (by omega)),
      tileK (ldx t arg1 harg1 x0) (ldw arg2 harg2 x1) (ldb arg3 harg3 x2) (ldg arg5 harg5 x4)⟩,
   ⟨Rect.unit ![256 * t.val, 0] S256x1024.size (inbS t 0 (by omega)),
      tileQ (ldx t arg1 harg1 x0) (ldw arg2 harg2 x1) (ldb arg3 harg3 x2) (ldg arg4 harg4 x3)⟩]

/-- All 24 stores, last first. -/
def scratchPieces : List (View.Piece (Elt F) S2048x3072 .bf16) :=
  ([7, 6, 5, 4, 3, 2, 1, 0] : List (Fin 8)).flatMap (tilePieces arg1 harg1 arg2 harg2 arg3 harg3 arg4 harg4 arg5 harg5 x0 x1 x2 x3 x4)

/-- The run's list of scratch stores is that list. -/
theorem scratch_eq (c : Dev nD) :
    kernelRun.sl.HS0_24 c arg1 harg1 arg2 harg2 arg3 harg3 arg4 harg4 arg5 harg5 x0 x1 x2 x3 x4 = scratchPieces arg1 harg1 arg2 harg2 arg3 harg3 arg4 harg4 arg5 harg5 x0 x1 x2 x3 x4 := rfl

end

/-! ## The result's 64 stores -/

theorem inbL (r0 c0 nr : Nat) (h0 : r0 + nr ≤ 2048) (h1 : c0 + 64 ≤ 3072) : ∀ a, (![r0, c0] : Fin 2 → Nat) a + (![nr, 64] : Fin 2 → Nat) a ≤ S2048x3072.size a := by
  intro a
  match a with
  | ⟨0, _⟩ => show r0 + nr ≤ 2048; omega
  | ⟨1, _⟩ => show c0 + 64 ≤ 3072; omega

theorem inbO (tq : Fin 4) (h : Fin 16) : ∀ a, (![0, 512 * tq.val, 64 * h.val] : Fin 3 → Nat) a + (![1, 512, 64] : Fin 3 → Nat) a ≤ S1x2048x1024.size a := by
  intro a; have := tq.isLt; have := h.isLt
  match a with
  | ⟨0, _⟩ => show 0 + 1 ≤ 1; omega
  | ⟨1, _⟩ => show 512 * tq.val + 512 ≤ 2048; omega
  | ⟨2, _⟩ => show 64 * h.val + 64 ≤ 1024; omega

section
variable (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg7 : Memref sig .tc .vmem S2048x3072 .bf16) (x0 : Vec F S1x2048x1024 .f32) (x1 : Vec F S1024x3072 .bf16) (x2 : Vec F S3072 .f32) (x3 : Vec F S64 .f32) (x4 : Vec F S64 .f32)

/-- A block of the scratch buffer read back after its 24 stores: `nr` rows from `r0`, 64 columns from `c0`. -/
abbrev ldS (r0 c0 nr : Nat) (h0 : r0 + nr ≤ 2048) (h1 : c0 + 64 ≤ 3072) :=
  arg7.view.readCov (scratchPieces arg1 harg1 arg2 harg2 arg3 harg3 arg4 harg4 arg5 harg5 x0 x1 x2 x3 x4) (Rect.unit (s := S2048x3072) ![r0, c0] ![nr, 64] (inbL r0 c0 nr h0 h1)).toLoadRect

/-- The store of query tile `tq`, head `h`. -/
def headPiece (tq : Fin 4) (h : Fin 16) : View.Piece (Elt F) S1x2048x1024 .f32 :=
  ⟨Rect.unit ![0, 512 * tq.val, 64 * h.val] ![1, 512, 64] (inbO tq h),
    k0_pay1
      (ldS arg1 harg1 arg2 harg2 arg3 harg3 arg4 harg4 arg5 harg5 arg7 x0 x1 x2 x3 x4 (512 * tq.val) (64 * h.val) 512 (by have := tq.isLt; omega) (by have := h.isLt; omega))
      (ldS arg1 harg1 arg2 harg2 arg3 harg3 arg4 harg4 arg5 harg5 arg7 x0 x1 x2 x3 x4 0 (1024 + 64 * h.val) 2048 (by omega) (by have := h.isLt; omega))
      (ldS arg1 harg1 arg2 harg2 arg3 harg3 arg4 harg4 arg5 harg5 arg7 x0 x1 x2 x3 x4 0 (2048 + 64 * h.val) 2048 (by omega) (by have := h.isLt; omega))⟩

/-- All 64 stores, last first. -/
def outPieces : List (View.Piece (Elt F) S1x2048x1024 .f32) :=
  ([3, 2, 1, 0] : List (Fin 4)).flatMap fun tq =>
    ([15, 14, 13, 12, 11, 10, 9, 8, 7, 6, 5, 4, 3, 2, 1, 0] : List (Fin 16)).map fun h =>
      headPiece arg1 harg1 arg2 harg2 arg3 harg3 arg4 harg4 arg5 harg5 arg7 x0 x1 x2 x3 x4 tq h

set_option maxHeartbeats 8000000 in
/-- The run's pieces are that list. -/
theorem out_eq (c : Dev nD) (i : grid0.Coords) (harg7 : arg7.IsWhole) (arg6 : Memref sig .tc .vmem S1x2048x1024 .f32) (harg6 : arg6.IsWhole) :
    (kernelRun c i arg1 harg1 arg2 harg2 arg3 harg3 arg4 harg4 arg5 harg5 arg6 harg6 arg7 harg7 x0 x1 x2 x3 x4).1 = outPieces arg1 harg1 arg2 harg2 arg3 harg3 arg4 harg4 arg5 harg5 arg7 x0 x1 x2 x3 x4 := rfl

end

end Cert.KernelIdeal.Body

end
-- ==== Proof.Spec.lean ====
/-
  The specification: the attention layer as ONE function of the argument arrays, index by index, over the
  extended reals.

  Arguments: x[b, n, k] (2 × 2048 × 1024), the projection weight w[e, k] (3072 × 1024) and bias bq[e] (3072), whose
  row e = 192·h + 3·d + j holds head h, lane d of the query (j = 0), key (j = 1) or value (j = 2) projection, and the
  two gains qn[d], kn[d] (64).

    comp j b h n d   = Σ_k x[b,n,k] · w[e,k] + bq[e]                       (e = 192·h + 3·d + j)
    nrm g j b h n d  = (comp · rsqrt((Σ_d' comp²) / 64 + ε)) · g[d]         (the per-head root-mean-square normalisation)
    score b h n n'   = (Σ_d nrm qn 0 b h n d · nrm kn 1 b h n' d) · 1/8
    prob b h n n'    = exp(score − rowmax) / Σ_m exp(score b h n m − rowmax)
    attn b h n d     = Σ_n' prob b h n n' · comp 2 b h n' d
    G[b, n, 64·h + d] = attn b h n d

  The float literals stay as their words (the same word stands on both programs' sides and is never evaluated here).
-/
import Idealize.ShloMosaic.PureOps.Ideal
import Idealize.ShloMosaic.Lib.ValueIdx

noncomputable section

namespace Cert.Attn.Spec

open Idealize.ShloMosaic Idealize.ShloMosaic.ValueIdx

abbrev SX : Shape := ⟨3, ![2, 2048, 1024]⟩
abbrev SW : Shape := ⟨2, ![3072, 1024]⟩
abbrev SB : Shape := ⟨1, ![3072]⟩
abbrev SN : Shape := ⟨1, ![64]⟩

/-- ε of the normalisation, 64 (the head width), 1/8 (the score scale) and −∞ (where a row maximum starts), as the words both programs hold. -/
def eps : EReal := Ideal.ofBits .f32 0x358637BD#32
def c64 : EReal := Ideal.ofBits .f32 0x42800000#32
def cscale : EReal := Ideal.ofBits .f32 0x3E000000#32
def ninf : EReal := Ideal.ofBits .f32 0xFF800000#32

/-- Row of the projection weight that holds head `h`, lane `d`, component `j` (0 query, 1 key, 2 value). -/
def row (h : Fin 16) (d : Fin 64) (j : Fin 3) : Fin 3072 :=
  ⟨192 * h.val + 3 * d.val + j.val, by have := h.isLt; have := d.isLt; have := j.isLt; omega⟩

/-- Head and lane of an output column. -/
def headOf (c : Fin 1024) : Fin 16 := ⟨c.val / 64, by have := c.isLt; omega⟩
def laneOf (c : Fin 1024) : Fin 64 := ⟨c.val % 64, by omega⟩

section
variable (x : SX.Idx → EReal) (w : SW.Idx → EReal) (bq : SB.Idx → EReal) (qn kn : SN.Idx → EReal)

/-- The projection: component `j` of head `h`, lane `d`, at batch `b`, position `n`. -/
def comp (j : Fin 3) (b : Fin 2) (h : Fin 16) (n : Fin 2048) (d : Fin 64) : EReal :=
  (∑ k : Fin 1024, x (ix3 b n k) * w (ix2 (row h d j) k)) + bq (ix1 (row h d j))

/-- Component `j` normalised over the head's 64 lanes, with gain `g`. -/
def nrm (g : SN.Idx → EReal) (j : Fin 3) (b : Fin 2) (h : Fin 16) (n : Fin 2048) (d : Fin 64) : EReal :=
  (comp x w bq j b h n d
      * Ideal.rsqrt (Ideal.div (∑ d' : Fin 64, comp x w bq j b h n d' * comp x w bq j b h n d') c64 + eps))
    * g (ix1 d)

/-- The scaled score of query position `n` against key position `n'`. -/
def score (b : Fin 2) (h : Fin 16) (n n' : Fin 2048) : EReal :=
  (∑ d : Fin 64, nrm x w bq qn 0 b h n d * nrm x w bq kn 1 b h n' d) * cscale

/-- The row maximum the softmax subtracts. -/
def rowmax (b : Fin 2) (h : Fin 16) (n : Fin 2048) : EReal :=
  max ninf ((Finset.univ : Finset (Fin 2048)).fold max ninf (fun n' => score x w bq qn kn b h n n'))

def ex (b : Fin 2) (h : Fin 16) (n n' : Fin 2048) : EReal :=
  Ideal.exp (score x w bq qn kn b h n n' - rowmax x w bq qn kn b h n)

def prob (b : Fin 2) (h : Fin 16) (n n' : Fin 2048) : EReal :=
  Ideal.div (ex x w bq qn kn b h n n') (∑ m' : Fin 2048, ex x w bq qn kn b h n m')

def attn (b : Fin 2) (h : Fin 16) (n : Fin 2048) (d : Fin 64) : EReal :=
  ∑ n' : Fin 2048, prob x w bq qn kn b h n n' * comp x w bq 2 b h n' d

/-- The layer's result array. -/
def G : SX.Idx → EReal := fun i =>
  attn x w bq qn kn (i 0) (headOf (i 2)) (i 1) (laneOf (i 2))

end

end Cert.Attn.Spec

end
-- ==== Proof.Forms.lean ====
/-
  The three pieces of the layer as functions of plain coordinate functions, so that the kernel's blocks (a tile of
  256 rows, a head's 512 × 64 queries against 2048 × 64 keys and values) can be read against them one at a time:
    projOf xf wf β      = Σ_k xf k · wf k + β
    nrmOf pf γ d        = (pf d · rsqrt((Σ_d' pf d'²) / 64 + ε)) · γ
    softRow qf kf vf d  = Σ_n' softmax_n'((Σ_d' qf d' · kf n' d') / 8) · vf n' d
  The specification's comp, nrm and attn are these at the arrays' rows, by definition.
-/
import proofs.«146380_j70660801954384_2_alg».proof.Proof.Spec

noncomputable section

namespace Cert.Attn.Spec

open Idealize.ShloMosaic Idealize.ShloMosaic.ValueIdx

/-- A row of x against a row of the weight, plus the bias entry. -/
def projOf (xf wf : Fin 1024 → EReal) (β : EReal) : EReal := (∑ k : Fin 1024, xf k * wf k) + β

/-- Lane `d` of a head's 64 projected lanes `pf`, normalised by their root mean square, times the gain entry `γ`. -/
def nrmOf (pf : Fin 64 → EReal) (γ : EReal) (d : Fin 64) : EReal :=
  (pf d * Ideal.rsqrt (Ideal.div (∑ d' : Fin 64, pf d' * pf d') c64 + eps)) * γ

/-- The scaled score of a query row `qf` against key row `n'`. -/
def scoreOf (qf : Fin 64 → EReal) (kf : Fin 2048 → Fin 64 → EReal) (n' : Fin 2048) : EReal :=
  (∑ d : Fin 64, qf d * kf n' d) * cscale

def rowmaxOf (qf : Fin 64 → EReal) (kf : Fin 2048 → Fin 64 → EReal) : EReal :=
  max ninf ((Finset.univ : Finset (Fin 2048)).fold max ninf (fun n' => scoreOf qf kf n'))

def exOf (qf : Fin 64 → EReal) (kf : Fin 2048 → Fin 64 → EReal) (n' : Fin 2048) : EReal :=
  Ideal.exp (scoreOf qf kf n' - rowmaxOf qf kf)

/-- One query row attended over all keys: lane `d` of the result. -/
def softRow (qf : Fin 64 → EReal) (kf vf : Fin 2048 → Fin 64 → EReal) (d : Fin 64) : EReal :=
  ∑ n' : Fin 2048, Ideal.div (exOf qf kf n') (∑ m' : Fin 2048, exOf qf kf m') * vf n' d

section
variable (x : SX.Idx → EReal) (w : SW.Idx → EReal) (bq : SB.Idx → EReal) (qn kn : SN.Idx → EReal)

theorem comp_eq_projOf (j : Fin 3) (b : Fin 2) (h : Fin 16) (n : Fin 2048) (d : Fin 64) :
    comp x w bq j b h n d
      = projOf (fun k => x (ix3 b n k)) (fun k => w (ix2 (row h d j) k)) (bq (ix1 (row h d j))) := rfl

theorem nrm_eq_nrmOf (g : SN.Idx → EReal) (j : Fin 3) (b : Fin 2) (h : Fin 16) (n : Fin 2048) (d : Fin 64) :
    nrm x w bq g j b h n d = nrmOf (fun d' => comp x w bq j b h n d') (g (ix1 d)) d := rfl

theorem attn_eq_softRow (b : Fin 2) (h : Fin 16) (n : Fin 2048) (d : Fin 64) :
    attn x w bq qn kn b h n d
      = softRow (fun d' => nrm x w bq qn 0 b h n d') (fun n' d' => nrm x w bq kn 1 b h n' d')
          (fun n' d' => comp x w bq 2 b h n' d') d := rfl

end

end Cert.Attn.Spec

end
-- ==== Proof.Cols.lean ====
/-
  Column arithmetic of the kernel's layouts: the re-laid weight has 3072 columns, third j (0 queries, 1 keys,
  2 values) holding the 1024 columns of the 16 heads' 64 lanes, column 64·h + d for head h, lane d.
-/
import proofs.«146380_j70660801954384_2_alg».proof.Proof.Spec

namespace Cert.Attn.Spec

/-- Column `cc` of third `j` of the 3072 columns. -/
def col3 (j : Fin 3) (cc : Fin 1024) : Fin 3072 :=
  ⟨1024 * j.val + cc.val, by have := j.isLt; have := cc.isLt; omega⟩

/-- The column of head `h`, lane `d` within a third. -/
def hl (h : Fin 16) (d : Fin 64) : Fin 1024 :=
  ⟨64 * h.val + d.val, by have := h.isLt; have := d.isLt; omega⟩

theorem headOf_hl (h : Fin 16) (d : Fin 64) : headOf (hl h d) = h := by
  apply Fin.ext; have := d.isLt; simp only [headOf, hl]; omega

theorem laneOf_hl (h : Fin 16) (d : Fin 64) : laneOf (hl h d) = d := by
  apply Fin.ext; have := d.isLt; simp only [laneOf, hl]; omega

theorem hl_headOf_laneOf (c : Fin 1024) : hl (headOf c) (laneOf c) = c := by
  apply Fin.ext; simp only [headOf, laneOf, hl]; omega

end Cert.Attn.Spec
-- ==== Proof.KernelIdealScratchFn.lean ====
/-
  The scratch buffer's contents as ONE function of a batch element's inputs, at the extended reals. With
  P n e = Σ_k x[n,k] · w'[k,e] + b'[e] the 2048 × 3072 projections (w', b' the re-laid weight and bias), entry
  (n, col) of the scratch buffer is the normalised query lane (col < 1024, gain qn), the normalised key lane
  (1024 ≤ col < 2048, gain kn) or the value lane P n col (col ≥ 2048); a head's 64 lanes are columns 64·h … 64·h + 63
  of a third. Also: what the body's loads of its input buffers read, and where a block's coordinates land.
-/
import proofs.«146380_j70660801954384_2_alg».proof.Proof.KernelIdealPieces
import proofs.«146380_j70660801954384_2_alg».proof.Proof.Forms
import proofs.«146380_j70660801954384_2_alg».proof.Proof.Cols
import Idealize.ShloMosaic.Lib.Pipeline.Value
import Idealize.ShloMosaic.Lib.ValueIdx
import Idealize.ShloMosaic.PureOps.Ideal

set_option maxRecDepth 16384

noncomputable section

namespace Cert.KernelIdeal.Val

open Cert.KernelIdeal Cert.KernelIdeal.Gen Cert.KernelIdeal.Body Cert.KernelIdeal.Tile Cert.Attn.Spec
open Idealize.ShloMosaic Idealize.ShloMosaic.TcCoe Idealize.ShloMosaic.ValueIdx
open Idealize.SL Idealize.SL.Sem

/-! ## The contents -/

section
variable (x0 : Vec Ideal S1x2048x1024 .f32) (x1 : Vec Ideal S1024x3072 .bf16) (x2 : Vec Ideal S3072 .f32) (x3 x4 : Vec Ideal S64 .f32)

/-- Entry (n, e) of the batch element's 2048 × 3072 projections. -/
def P (n : Fin 2048) (e : Fin 3072) : EReal :=
  projOf (fun k => x0 (ix3 (0 : Fin 1) n k)) (fun k => x1 (ix2 k e)) (x2 (ix1 e))

/-- Column `cc` of third `j`, row `n`, normalised over its head's 64 lanes with gain `g`. -/
def Nf (g : Vec Ideal S64 .f32) (j : Fin 3) (n : Fin 2048) (cc : Fin 1024) : EReal :=
  nrmOf (fun d' => P x0 x1 x2 n (col3 j (hl (headOf cc) d'))) (g (ix1 (laneOf cc))) (laneOf cc)

/-- The scratch buffer after its 24 stores. -/
def Sfun : S2048x3072.Idx → EReal := fun i =>
  if h0 : (i 1).val < 1024 then Nf x0 x1 x2 x3 0 ⟨(i 0).val, (i 0).isLt⟩ ⟨(i 1).val, h0⟩
  else if h1 : (i 1).val < 2048 then Nf x0 x1 x2 x4 1 ⟨(i 0).val, (i 0).isLt⟩ ⟨(i 1).val - 1024, by omega⟩
  else P x0 x1 x2 ⟨(i 0).val, (i 0).isLt⟩ ⟨(i 1).val, (i 1).isLt⟩

theorem Sfun_q (n : Fin 2048) (cc : Fin 1024) : Sfun x0 x1 x2 x3 x4 (ix2 n (col3 0 cc)) = Nf x0 x1 x2 x3 0 n cc := by
  have hc := cc.isLt
  have h0 : ((ix2 n (col3 0 cc) : S2048x3072.Idx) 1).val < 1024 := by show 1024 * 0 + cc.val < 1024; omega
  unfold Sfun; rw [dif_pos h0]
  congr 1; exact Fin.ext (by show 1024 * 0 + cc.val = cc.val; omega)

theorem Sfun_k (n : Fin 2048) (cc : Fin 1024) : Sfun x0 x1 x2 x3 x4 (ix2 n (col3 1 cc)) = Nf x0 x1 x2 x4 1 n cc := by
  have hc := cc.isLt
  have h0 : ¬ ((ix2 n (col3 1 cc) : S2048x3072.Idx) 1).val < 1024 := by show ¬ (1024 * 1 + cc.val < 1024); omega
  have h1 : ((ix2 n (col3 1 cc) : S2048x3072.Idx) 1).val < 2048 := by show 1024 * 1 + cc.val < 2048; omega
  unfold Sfun; rw [dif_neg h0, dif_pos h1]
  congr 1; exact Fin.ext (by show 1024 * 1 + cc.val - 1024 = cc.val; omega)

theorem Sfun_v (n : Fin 2048) (cc : Fin 1024) : Sfun x0 x1 x2 x3 x4 (ix2 n (col3 2 cc)) = P x0 x1 x2 n (col3 2 cc) := by
  have hc := cc.isLt
  have h0 : ¬ ((ix2 n (col3 2 cc) : S2048x3072.Idx) 1).val < 1024 := by show ¬ (1024 * 2 + cc.val < 1024); omega
  have h1 : ¬ ((ix2 n (col3 2 cc) : S2048x3072.Idx) 1).val < 2048 := by show ¬ (1024 * 2 + cc.val < 2048); omega
  unfold Sfun; rw [dif_neg h0, dif_neg h1]

end

/-! ## The loads of the input buffers -/

section
variable (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (x0 : Vec Ideal S1x2048x1024 .f32) (x1 : Vec Ideal S1024x3072 .bf16) (x2 : Vec Ideal S3072 .f32) (x3 x4 : Vec Ideal S64 .f32)

/-- Row `256·t + r` of the batch element. -/
def rowT (t : Fin 8) (r : Fin 256) : Fin 2048 := ⟨256 * t.val + r.val, by have := t.isLt; have := r.isLt; omega⟩

theorem ldx_apply (t : Fin 8) (r : Fin 256) (k : Fin 1024) :
    ldx (F := Ideal) t arg1 harg1 x0 (ix3 (0 : Fin 1) r k) = x0 (ix3 (0 : Fin 1) (rowT t r) k) := by
  show (arg1.view.read (Elt Ideal) (harg1.unread x0)) _ = _
  rw [harg1.read_unread]
  refine congrArg x0 (funext fun a => Fin.ext ?_)
  match a with
  | ⟨0, _⟩ => show 0 + 1 * 0 = 0; omega
  | ⟨1, _⟩ => show 256 * t.val + 1 * r.val = 256 * t.val + r.val; omega
  | ⟨2, _⟩ => show 0 + 1 * k.val = k.val; omega

theorem ldw_eq : ldw (F := Ideal) arg2 harg2 x1 = x1 := by
  show View.ld (arg2.view.read (Elt Ideal) (harg2.unread x1)) _ = _
  rw [harg2.read_unread]
  exact View.ld_unit_zero (S := S1024x3072) (funext fun a => by match a with | ⟨0, _⟩ => rfl | ⟨1, _⟩ => rfl) _ x1

theorem ldb_eq : ldb (F := Ideal) arg3 harg3 x2 = x2 := by
  show View.ld (arg3.view.read (Elt Ideal) (harg3.unread x2)) _ = _
  rw [harg3.read_unread]
  exact View.ld_unit_zero (S := S3072) (funext fun a => by match a with | ⟨0, _⟩ => rfl) _ x2

theorem ldg_eq (arg : Memref sig .tc .vmem S64 .f32) (harg : arg.IsWhole) (g : Vec Ideal S64 .f32) : ldg (F := Ideal) arg harg g = g := by
  show View.ld (arg.view.read (Elt Ideal) (harg.unread g)) _ = _
  rw [harg.read_unread]
  exact View.ld_unit_zero (S := S64) (funext fun a => by match a with | ⟨0, _⟩ => rfl) _ g

end

/-! ## Where a block's coordinates land -/

/-- In the scratch buffer: entry (r, cc) of a block at offsets (r0, c0). -/
theorem emb2 (r0 c0 nr nc : Nat) (inb) (r : Fin nr) (cc : Fin nc) (hr : r0 + nr ≤ 2048) (hc : c0 + nc ≤ 3072) :
    (Rect.unit (s := S2048x3072) ![r0, c0] ![nr, nc] inb).emb (ix2 r cc)
      = (ix2 (⟨r0 + r.val, by have := r.isLt; omega⟩ : Fin 2048) (⟨c0 + cc.val, by have := cc.isLt; omega⟩ : Fin 3072) : S2048x3072.Idx) := by
  funext a; apply Fin.ext
  match a with
  | ⟨0, _⟩ => show r0 + 1 * r.val = r0 + r.val; omega
  | ⟨1, _⟩ => show c0 + 1 * cc.val = c0 + cc.val; omega

end Cert.KernelIdeal.Val

end
-- ==== Proof.KernelIdealTileVal.lean ====
/-
  The stored blocks of one projection tile read at an index, at the ideal instance: an entry of the 256 × 3072 tile of
  projections is a row of x against a column of the re-laid weight plus the bias entry; an entry of a normalised third
  is that head's 64 projected lanes divided by the root of their mean square plus ε, times the gain; a change of
  float format is the identity.
-/
import proofs.«146380_j70660801954384_2_alg».proof.Proof.KernelIdealTile
import proofs.«146380_j70660801954384_2_alg».proof.Proof.Forms
import proofs.«146380_j70660801954384_2_alg».proof.Proof.Cols
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileVal

open Cert.KernelIdeal Cert.KernelIdeal.Gen Cert.KernelIdeal.Tile Cert.Attn.Spec Idealize.ShloMosaic Idealize.ShloMosaic.ValueIdx

/-! ## The product of a 256 × 1024 block and the 1024 × 3072 weight at an entry -/

theorem lhs_row (j : S256x3072.Idx) (q : dot_S256x1024_S1024x3072_S256x3072_1_0_0_1_n_n.contr.Idx) :
    (dot_S256x1024_S1024x3072_S256x3072_1_0_0_1_n_n.lhsIdx j q 0).val = (j 0).val := by
  unfold DotDims.lhsIdx
  rw [dif_neg (show ¬(0 : Fin S256x1024.rank) ∈ dot_S256x1024_S1024x3072_S256x3072_1_0_0_1_n_n.lhsBatch by decide),
    dif_pos (show (0 : Fin S256x1024.rank) ∈ dot_S256x1024_S1024x3072_S256x3072_1_0_0_1_n_n.lhsNonContracting by decide)]
  rfl

theorem rhs_col (j : S256x3072.Idx) (q : dot_S256x1024_S1024x3072_S256x3072_1_0_0_1_n_n.contr.Idx) :
    (dot_S256x1024_S1024x3072_S256x3072_1_0_0_1_n_n.rhsIdx j q 1).val = (j 1).val := by
  unfold DotDims.rhsIdx
  rw [dif_neg (show ¬(1 : Fin S1024x3072.rank) ∈ dot_S256x1024_S1024x3072_S256x3072_1_0_0_1_n_n.rhsBatch by decide),
    dif_pos (show (1 : Fin S1024x3072.rank) ∈ dot_S256x1024_S1024x3072_S256x3072_1_0_0_1_n_n.rhsNonContracting by decide)]
  rfl

/-- An entry of the product is the sum over the contracted coordinate. -/
theorem mm_apply (lhs : FVec Ideal S256x1024 .bf16) (rhs : FVec Ideal S1024x3072 .bf16) (r : Fin 256) (e : Fin 3072) :
    matmul dot_S256x1024_S1024x3072_S256x3072_1_0_0_1_n_n none lhs rhs (constant (F := Ideal) S256x3072 .f32 0x00000000#32) (ix2 r e)
      = ∑ k : Fin 1024, lhs (ix2 r k) * rhs (ix2 k e) := by
  refine (Ideal.matmul_constant_zero_apply dot_S256x1024_S1024x3072_S256x3072_1_0_0_1_n_n none lhs rhs (ix2 r e)).trans ?_
  rw [← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 r e)
      ((contrEquiv1 dot_S256x1024_S1024x3072_S256x3072_1_0_0_1_n_n 1024 rfl rfl).symm k) = ix2 r k :=
    funext fun a => Fin.ext (by
      match a with
      | ⟨0, _⟩ => exact lhs_row _ _
      | ⟨1, _⟩ => exact (dot_S256x1024_S1024x3072_S256x3072_1_0_0_1_n_n.lhsIdx_val_of_single rfl _ _).trans hk)
  have er : dot_S256x1024_S1024x3072_S256x3072_1_0_0_1_n_n.rhsIdx (ix2 r e)
      ((contrEquiv1 dot_S256x1024_S1024x3072_S256x3072_1_0_0_1_n_n 1024 rfl rfl).symm k) = ix2 k e :=
    funext fun a => Fin.ext (by
      match a with
      | ⟨0, _⟩ => exact (dot_S256x1024_S1024x3072_S256x3072_1_0_0_1_n_n.rhsIdx_val_of_single rfl _ _).trans hk
      | ⟨1, _⟩ => exact rhs_col _ _)
  rw [el, er]

/-! ## The tile of projections -/

/-- Entry (r, e) of the tile of projections. -/
theorem qkv_apply (xt : Vec Ideal S1x256x1024 .f32) (wl : Vec Ideal S1024x3072 .bf16) (bl : Vec Ideal S3072 .f32)
    (r : Fin 256) (e : Fin 3072) :
    qkv (F := Ideal) xt wl bl (ix2 r e)
      = projOf (fun k => xt (ix3 (0 : Fin 1) r k)) (fun k => wl (ix2 k e)) (bl (ix1 e)) := by
  unfold qkv projOf
  refine (addf_apply _ _ _).trans ?_
  refine congrArg₂ (· + ·) ?_ ?_
  · refine (mm_apply _ _ r e).trans ?_
    refine Finset.sum_congr rfl fun k _ => ?_
    refine congrArg₂ (· * ·) ?_ ?_
    · exact shapeCast_1ab_ab_apply xt shapeCasts_S1x256x1024_S256x1024 r k
    · exact congrFun (shapeCast_self wl shapeCasts_S1024x3072_S1024x3072) (ix2 k e)
  · refine (broadcastTo_1b_ab_apply _ broadcasts_S1x3072_S256x3072 r e).trans ?_
    refine (shapeCast_a_1a_apply _ shapeCasts_S3072_S1x3072 (0 : Fin 1) e).trans ?_
    exact congrFun (shapeCast_self bl shapeCasts_S3072_S3072) (ix1 e)

/-! ## Column forms of the layout operations, and a row's sum -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-- The sum along the 64 lanes of a 256 × 64 block, at row `r`. -/
theorem rowsum_apply (src : FVec Ideal S256x64 .f32) (hφ : FKind.Formats .f32)
    (hacc : (0x00000000#32 : BitVec 32) = FKind.add.neutral .f32 hφ) (r : Fin 256) :
    multiReduction (F := Ideal) .add [1] S256 src 0x00000000#32 reduces_S256x64_S256 hφ hacc (ix1 r)
      = ∑ k : Fin 64, src (ix2 r k) := by
  refine (Ideal.multiReduction_add_single src 0x00000000#32 reduces_S256x64_S256 hφ hacc (ix1 r)).trans ?_
  show ∑ k : Fin 64, src (reduces_S256x64_S256.lift (ix1 r) k) = _
  refine Finset.sum_congr rfl fun k _ => congrArg src (funext fun c => Fin.ext ?_)
  match c with
  | ⟨0, _⟩ => rfl
  | ⟨1, _⟩ => rfl

/-! ## One head's 64 lanes normalised -/

/-- Entry (r, d) of a normalised head: the lane over the root of the row's mean square plus ε, times the gain. -/
theorem seg_apply (g : Vec Ideal S64 .f32) (s : FVec Ideal S256x64 .f32) (r : Fin 256) (d : Fin 64) :
    seg (F := Ideal) g s (ix2 r d) = nrmOf (fun d' => s (ix2 r d')) (g (ix1 d)) d := by
  unfold seg nrmOf
  refine (mulf_apply _ _ _).trans ?_
  refine congrArg₂ (· * ·) ?_ ?_
  · refine (mulf_apply _ _ _).trans ?_
    refine congrArg₂ (· * ·) rfl ?_
    refine (broadcastTo_a1_ab_apply _ broadcasts_S256x1_S256x64 r d).trans ?_
    refine congrArg Ideal.rsqrt ?_
    refine (addf_apply _ _ _).trans ?_
    refine congrArg₂ (· + ·) ?_ rfl
    refine (divf_apply _ _ _).trans ?_
    refine congrArg₂ Ideal.div ?_ rfl
    refine (shapeCast_a_a1_apply _ shapeCasts_S256_S256x1 r (0 : Fin 1)).trans ?_
    exact rowsum_apply _ _ _ r
  · refine (broadcastTo_1b_ab_apply _ broadcasts_S1x64_S256x64 r d).trans ?_
    exact shapeCast_a_1a_apply g shapeCasts_S64_S1x64 (0 : Fin 1) d

/-! ## Sixteen blocks of 64 lanes side by side -/

/-- Entry (r, cc) of sixteen 256 × 64 blocks laid side by side is entry (r, cc % 64) of block cc / 64. -/
theorem concat16_apply (p0 p1 p2 p3 p4 p5 p6 p7 p8 p9 p10 p11 p12 p13 p14 p15 : FVec Ideal S256x64 .f32)
    (h : Shape.Concatenates (([⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩, ⟨S256x64, p12⟩, ⟨S256x64, p13⟩, ⟨S256x64, p14⟩, ⟨S256x64, p15⟩] :
      List ((s : Shape) × (s.Idx → Ideal .f32))).map (·.1)) S256x1024 1)
    (r : Fin 256) (cc : Fin 1024) :
    concatenate S256x1024 1 [⟨S256x64, p0⟩, ⟨S256x64, p1⟩, ⟨S256x64, p2⟩, ⟨S256x64, p3⟩, ⟨S256x64, p4⟩, ⟨S256x64, p5⟩, ⟨S256x64, p6⟩, ⟨S256x64, p7⟩, ⟨S256x64, p8⟩, ⟨S256x64, p9⟩, ⟨S256x64, p10⟩, ⟨S256x64, p11⟩, ⟨S256x64, p12⟩, ⟨S256x64, p13⟩, ⟨S256x64, p14⟩, ⟨S256x64, p15⟩] h (ix2 r cc)
      = (![p0, p1, p2, p3, p4, p5, p6, p7, p8, p9, p10, p11, p12, p13, p14, p15] : Fin 16 → FVec Ideal S256x64 .f32) (headOf cc) (ix2 r (laneOf cc)) :=
  concatenate_ofFn_apply (t := S256x1024) (s₁ := S256x64) (1 : Fin 2)
    (![p0, p1, p2, p3, p4, p5, p6, p7, p8, p9, p10, p11, p12, p13, p14, p15] : Fin 16 → FVec Ideal S256x64 .f32) h rfl 64 rfl (ix2 r cc) (headOf cc) rfl
    (ix2 r (laneOf cc)) rfl
    (fun b hb => by
      match b with
      | ⟨0, _⟩ => rfl
      | ⟨1, _⟩ => exact absurd rfl hb)

/-! ## A third normalised head by head, and the three stored thirds -/

/-- A normalised head cut out of a third at the head's 64 columns. -/
theorem seg_slice_apply (g : Vec Ideal S64 .f32) (part : FVec Ideal S256x1024 .f32) (hd : Fin 16) (o : ℕ)
    (ho : o = 64 * hd.val) (hs : S256x1024.Slices ![0, o] S256x64) (r : Fin 256) (d : Fin 64) :
    seg (F := Ideal) g (extractStridedSlice S256x64 ![0, o] part hs) (ix2 r d)
      = nrmOf (fun d' => part (ix2 r (hl hd d'))) (g (ix1 d)) d :=
  (seg_apply g _ r d).trans (congrArg (fun pf => nrmOf pf (g (ix1 d)) d)
    (funext fun d' => slice2_axis1_apply o part hs r d' (hl hd d') (by subst ho; rfl)))

/-- Entry (r, cc) of a normalised third: lane cc % 64 of head cc / 64, normalised over that head's 64 columns. -/
theorem normed_apply (g : Vec Ideal S64 .f32) (part : FVec Ideal S256x1024 .f32) (r : Fin 256) (cc : Fin 1024) :
    normed (F := Ideal) g part (ix2 r cc)
      = nrmOf (fun d' => part (ix2 r (hl (headOf cc) d'))) (g (ix1 (laneOf cc))) (laneOf cc) := by
  unfold normed
  refine (congrFun (shapeCast_self _ shapeCasts_S256x1024_S256x1024) (ix2 r cc)).trans ?_
  refine (truncf_apply (φ := .f32) (ψ := .bf16) _ bitsLt_bf16_f32 (ix2 r cc)).trans ?_
  refine (concat16_apply _ _ _ _ _ _ _ _ _ _ _ _ _ _ _ _ _ r cc).trans ?_
  generalize headOf cc = hd
  generalize laneOf cc = d
  fin_cases hd <;> exact seg_slice_apply g part _ _ (by rfl) _ r d

/-- Entry (r, cc) of the stored values: the projection at column cc of the third third. -/
theorem tileV_apply (xt : Vec Ideal S1x256x1024 .f32) (wl : Vec Ideal S1024x3072 .bf16) (bl : Vec Ideal S3072 .f32)
    (r : Fin 256) (cc : Fin 1024) :
    tileV (F := Ideal) xt wl bl (ix2 r cc)
      = projOf (fun k => xt (ix3 (0 : Fin 1) r k)) (fun k => wl (ix2 k (col3 2 cc))) (bl (ix1 (col3 2 cc))) := by
  unfold tileV
  refine (congrFun (shapeCast_self _ shapeCasts_S256x1024_S256x1024) (ix2 r cc)).trans ?_
  refine (truncf_apply (φ := .f32) (ψ := .bf16) _ bitsLt_bf16_f32 (ix2 r cc)).trans ?_
  refine (slice2_axis1_apply 2048 _ slices_S256x3072_o0_2048_S256x1024 r cc (col3 2 cc) rfl).trans ?_
  exact qkv_apply xt wl bl r (col3 2 cc)

/-- Entry (r, cc) of the stored queries. -/
theorem tileQ_apply (xt : Vec Ideal S1x256x1024 .f32) (wl : Vec Ideal S1024x3072 .bf16) (bl : Vec Ideal S3072 .f32)
    (g : Vec Ideal S64 .f32) (r : Fin 256) (cc : Fin 1024) :
    tileQ (F := Ideal) xt wl bl g (ix2 r cc)
      = nrmOf (fun d' => projOf (fun k => xt (ix3 (0 : Fin 1) r k)) (fun k => wl (ix2 k (col3 0 (hl (headOf cc) d'))))
            (bl (ix1 (col3 0 (hl (headOf cc) d')))))
          (g (ix1 (laneOf cc))) (laneOf cc) := by
  unfold tileQ
  refine (normed_apply g _ r cc).trans ?_
  refine congrArg (fun pf => nrmOf pf (g (ix1 (laneOf cc))) (laneOf cc)) (funext fun d' => ?_)
  refine (slice2_axis1_apply 0 _ slices_S256x3072_o0_0_S256x1024 r (hl (headOf cc) d') (col3 0 (hl (headOf cc) d'))
    (by show 1024 * 0 + _ = 0 + _; omega)).trans ?_
  exact qkv_apply xt wl bl r (col3 0 (hl (headOf cc) d'))

/-- Entry (r, cc) of the stored keys. -/
theorem tileK_apply (xt : Vec Ideal S1x256x1024 .f32) (wl : Vec Ideal S1024x3072 .bf16) (bl : Vec Ideal S3072 .f32)
    (g : Vec Ideal S64 .f32) (r : Fin 256) (cc : Fin 1024) :
    tileK (F := Ideal) xt wl bl g (ix2 r cc)
      = nrmOf (fun d' => projOf (fun k => xt (ix3 (0 : Fin 1) r k)) (fun k => wl (ix2 k (col3 1 (hl (headOf cc) d'))))
            (bl (ix1 (col3 1 (hl (headOf cc) d')))))
          (g (ix1 (laneOf cc))) (laneOf cc) := by
  unfold tileK
  refine (normed_apply g _ r cc).trans ?_
  refine congrArg (fun pf => nrmOf pf (g (ix1 (laneOf cc))) (laneOf cc)) (funext fun d' => ?_)
  refine (slice2_axis1_apply 1024 _ slices_S256x3072_o0_1024_S256x1024 r (hl (headOf cc) d') (col3 1 (hl (headOf cc) d'))
    (by show 1024 * 1 + _ = 1024 + _; omega)).trans ?_
  exact qkv_apply xt wl bl r (col3 1 (hl (headOf cc) d'))

end Cert.KernelIdeal.TileVal

end
-- ==== Proof.KernelIdealScratch.lean ====
/-
  The scratch buffer read back, at the extended reals. Each of its 24 stores is a block of the one function
  `Sfun` (a tile's value third is the projections' entries, its query and key thirds the normalised lanes), the 24
  blocks tile the buffer, so every block the attention phase loads from it is `Sfun` at the block's coordinates.
-/
import proofs.«146380_j70660801954384_2_alg».proof.Proof.KernelIdealScratchFn
import proofs.«146380_j70660801954384_2_alg».proof.Proof.KernelIdealTileVal

set_option maxRecDepth 16384

noncomputable section

namespace Cert.KernelIdeal.Val

open Cert.KernelIdeal Cert.KernelIdeal.Gen Cert.KernelIdeal.Body Cert.KernelIdeal.Tile Cert.KernelIdeal.TileVal Cert.Attn.Spec
open Idealize.ShloMosaic Idealize.ShloMosaic.TcCoe Idealize.ShloMosaic.Tactic Idealize.ShloMosaic.ValueIdx
open Idealize.SL Idealize.SL.Sem

section
variable (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (x0 : Vec Ideal S1x2048x1024 .f32) (x1 : Vec Ideal S1024x3072 .bf16) (x2 : Vec Ideal S3072 .f32) (x3 x4 : Vec Ideal S64 .f32)

/-- Entry (r, cc) of tile `t`'s block in third `j` sits at row 256·t + r, column 1024·j + cc. -/
theorem emb_tile (t : Fin 8) (j : Fin 3) (o : Nat) (ho : o = 1024 * j.val) (inb) (r : Fin 256) (cc : Fin 1024) :
    (Rect.unit (s := S2048x3072) ![256 * t.val, o] S256x1024.size inb).emb (ix2 r cc)
      = (ix2 (rowT t r) (col3 j cc) : S2048x3072.Idx) := by
  subst ho
  funext a; apply Fin.ext
  match a with
  | ⟨0, _⟩ => show 256 * t.val + 1 * r.val = 256 * t.val + r.val; omega
  | ⟨1, _⟩ => show 1024 * j.val + 1 * cc.val = 1024 * j.val + cc.val; omega

theorem pieceV_ok (t : Fin 8) (y : S256x1024.Idx) :
    tileV (F := Ideal) (ldx t arg1 harg1 x0) (ldw arg2 harg2 x1) (ldb arg3 harg3 x2) y
      = Sfun x0 x1 x2 x3 x4 ((Rect.unit (s := S2048x3072) ![256 * t.val, 2048] S256x1024.size (inbS t 2048 (by omega))).emb y) := by
  obtain ⟨r, cc, rfl⟩ : ∃ (r : Fin 256) (cc : Fin 1024), y = ix2 r cc := ⟨y 0, y 1, eq_ix2 y⟩
  rw [emb_tile t 2 2048 rfl, Sfun_v, tileV_apply, ldw_eq, ldb_eq]
  unfold P
  simp only [ldx_apply]

theorem pieceK_ok (t : Fin 8) (y : S256x1024.Idx) :
    tileK (F := Ideal) (ldx t arg1 harg1 x0) (ldw arg2 harg2 x1) (ldb arg3 harg3 x2) (ldg arg5 harg5 x4) y
      = Sfun x0 x1 x2 x3 x4 ((Rect.unit (s := S2048x3072) ![256 * t.val, 1024] S256x1024.size (inbS t 1024 (by omega))).emb y) := by
  obtain ⟨r, cc, rfl⟩ : ∃ (r : Fin 256) (cc : Fin 1024), y = ix2 r cc := ⟨y 0, y 1, eq_ix2 y⟩
  rw [emb_tile t 1 1024 rfl, Sfun_k, tileK_apply, ldw_eq, ldb_eq, ldg_eq]
  unfold Nf P
  simp only [ldx_apply]

theorem pieceQ_ok (t : Fin 8) (y : S256x1024.Idx) :
    tileQ (F := Ideal) (ldx t arg1 harg1 x0) (ldw arg2 harg2 x1) (ldb arg3 harg3 x2) (ldg arg4 harg4 x3) y
      = Sfun x0 x1 x2 x3 x4 ((Rect.unit (s := S2048x3072) ![256 * t.val, 0] S256x1024.size (inbS t 0 (by omega))).emb y) := by
  obtain ⟨r, cc, rfl⟩ : ∃ (r : Fin 256) (cc : Fin 1024), y = ix2 r cc := ⟨y 0, y 1, eq_ix2 y⟩
  rw [emb_tile t 0 0 rfl, Sfun_q, tileQ_apply, ldw_eq, ldb_eq, ldg_eq]
  unfold Nf P
  simp only [ldx_apply]

/-- Every one of the 24 stores is a block of `Sfun`. -/
theorem scratch_pieces_ok :
    ∀ p ∈ scratchPieces (F := Ideal) arg1 harg1 arg2 harg2 arg3 harg3 arg4 harg4 arg5 harg5 x0 x1 x2 x3 x4, ∀ y : p.1.shape.Idx,
      p.2 y = Sfun x0 x1 x2 x3 x4 (p.1.emb y) := by
  intro p hp
  simp only [scratchPieces, List.mem_flatMap] at hp
  obtain ⟨t, -, hp⟩ := hp
  simp only [tilePieces, List.mem_cons, List.not_mem_nil, or_false] at hp
  rcases hp with rfl | rfl | rfl
  · exact pieceV_ok arg1 harg1 arg2 harg2 arg3 harg3 x0 x1 x2 x3 x4 t
  · exact pieceK_ok arg1 harg1 arg2 harg2 arg3 harg3 arg5 harg5 x0 x1 x2 x3 x4 t
  · exact pieceQ_ok arg1 harg1 arg2 harg2 arg3 harg3 arg4 harg4 x0 x1 x2 x3 x4 t

/-- The 24 stores tile the scratch buffer. -/
theorem scover (y : S2048x3072.Idx) : ∃ p ∈ scratchPieces (F := Ideal) arg1 harg1 arg2 harg2 arg3 harg3 arg4 harg4 arg5 harg5 x0 x1 x2 x3 x4, y ∈ p.1.set :=
  View.cover_of_tiledL (scratchPieces (F := Ideal) arg1 harg1 arg2 harg2 arg3 harg3 arg4 harg4 arg5 harg5 x0 x1 x2 x3 x4) S256x1024.size (by sl_kernel_rfl) y

/-- A block of `nr` rows from `r0` and 64 columns from `c0`, read back from the scratch buffer, is `Sfun` there. -/
theorem ldS_apply (arg7 : Memref sig .tc .vmem S2048x3072 .bf16) (r0 c0 nr : Nat) (h0 : r0 + nr ≤ 2048) (h1 : c0 + 64 ≤ 3072)
    (r : Fin nr) (d : Fin 64) :
    ldS (F := Ideal) arg1 harg1 arg2 harg2 arg3 harg3 arg4 harg4 arg5 harg5 arg7 x0 x1 x2 x3 x4 r0 c0 nr h0 h1 (ix2 r d)
      = Sfun x0 x1 x2 x3 x4 (ix2 (⟨r0 + r.val, by have := r.isLt; omega⟩ : Fin 2048) (⟨c0 + d.val, by have := d.isLt; omega⟩ : Fin 3072)) := by
  refine (congrFun (View.readCov_eq_canon' arg7.view (scratchPieces (F := Ideal) arg1 harg1 arg2 harg2 arg3 harg3 arg4 harg4 arg5 harg5 x0 x1 x2 x3 x4)
    (Rect.unit (s := S2048x3072) ![r0, c0] ![nr, 64] (inbL r0 c0 nr h0 h1)).toLoadRect) (ix2 r d)).trans ?_
  refine (View.canon_apply_of_pieces (Sfun x0 x1 x2 x3 x4) _ (scratch_pieces_ok arg1 harg1 arg2 harg2 arg3 harg3 arg4 harg4 arg5 harg5 x0 x1 x2 x3 x4) _
    (scover arg1 harg1 arg2 harg2 arg3 harg3 arg4 harg4 arg5 harg5 x0 x1 x2 x3 x4 _)).trans ?_
  refine congrArg (Sfun x0 x1 x2 x3 x4) (funext fun a => Fin.ext ?_)
  match a with
  | ⟨0, _⟩ => show r0 + 1 * r.val = r0 + r.val; omega
  | ⟨1, _⟩ => show c0 + 1 * d.val = c0 + d.val; omega

end

end Cert.KernelIdeal.Val

end
-- ==== Proof.KernelIdealHead.lean ====
/-
  One head of the kernel: the block computed from a 512 × 64 query block and the 2048 × 64 key and value blocks is,
  row by row, the softmax-weighted sum of the value rows — the specification's softRow.
    scores   = (q · kᵀ) / 8
    weights  = exp(scores − row maximum) / row sum
    result   = weights · v
-/
import proofs.«146380_j70660801954384_2_alg».proof.Proof.Gen.KernelIdeal.Skeleton
import proofs.«146380_j70660801954384_2_alg».proof.Proof.Forms
import Idealize.ShloMosaic.Lib.ValueIdx
import Idealize.ShloMosaic.Lib.Pipeline.Value
import Idealize.ShloMosaic.PureOps.Ideal.Laws

noncomputable section

namespace Cert.KernelIdeal.Head

open Idealize.ShloMosaic Idealize.ShloMosaic.ValueIdx Cert.KernelIdeal Cert.KernelIdeal.Gen Cert.Attn.Spec

/-! ## The two matrix products at an index -/

theorem lhs1_0 (i : S512x2048.Idx) (c : dot_S512x64_S2048x64_S512x2048_1_1_0_0_n_n.contr.Idx) : (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem rhs1_0 (i : S512x2048.Idx) (c : dot_S512x64_S2048x64_S512x2048_1_1_0_0_n_n.contr.Idx) : (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem lhs2_0 (i : S512x64.Idx) (c : dot_S512x2048_S2048x64_S512x64_1_0_0_1_n_n.contr.Idx) : (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem rhs2_1 (i : S512x64.Idx) (c : dot_S512x2048_S2048x64_S512x64_1_0_0_1_n_n.contr.Idx) : (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- q · kᵀ into the zero accumulator, at (r, n'): the dot product of query row r with key row n'. -/
theorem qk_at (q : Vec Ideal S512x64 .bf16) (k : Vec Ideal S2048x64 .bf16) (r : Fin 512) (n' : Fin 2048) :
    matmul (φ₁ := .bf16) (φ₂ := .bf16) dot_S512x64_S2048x64_S512x2048_1_1_0_0_n_n none q k (constant (F := Ideal) S512x2048 .f32 0x00000000#32) (ix2 r n')
      = ∑ d : Fin 64, q (ix2 r d) * k (ix2 n' d) := by
  show FloatOps.matmul (φ₁ := .bf16) (φ₂ := .bf16) dot_S512x64_S2048x64_S512x2048_1_1_0_0_n_n none q k (constant (F := Ideal) S512x2048 .f32 0x00000000#32) (ix2 r n') = _
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r n') ((contrEquiv1 dot_S512x64_S2048x64_S512x2048_1_1_0_0_n_n 64 rfl rfl).symm d) = ix2 r d := funext fun a => Fin.ext (by
    match a with
    | ⟨0, _⟩ => exact lhs1_0 _ _
    | ⟨1, _⟩ => exact (dot_S512x64_S2048x64_S512x2048_1_1_0_0_n_n.lhsIdx_val_of_single rfl _ _).trans hk)
  have er : dot_S512x64_S2048x64_S512x2048_1_1_0_0_n_n.rhsIdx (ix2 r n') ((contrEquiv1 dot_S512x64_S2048x64_S512x2048_1_1_0_0_n_n 64 rfl rfl).symm d) = ix2 n' d := funext fun a => Fin.ext (by
    match a with
    | ⟨0, _⟩ => exact rhs1_0 _ _
    | ⟨1, _⟩ => exact (dot_S512x64_S2048x64_S512x2048_1_1_0_0_n_n.rhsIdx_val_of_single rfl _ _).trans hk)
  rw [el, er]

/-- weights · v into the zero accumulator, at (r, d): the sum over key positions of the weight times the value's lane d. -/
theorem pv_at (p : FVec Ideal S512x2048 .bf16) (v : Vec Ideal S2048x64 .bf16) (r : Fin 512) (d : Fin 64) :
    matmul (φ₁ := .bf16) (φ₂ := .bf16) dot_S512x2048_S2048x64_S512x64_1_0_0_1_n_n none p v (constant (F := Ideal) S512x64 .f32 0x00000000#32) (ix2 r d)
      = ∑ n' : Fin 2048, p (ix2 r n') * v (ix2 n' d) := by
  show FloatOps.matmul (φ₁ := .bf16) (φ₂ := .bf16) dot_S512x2048_S2048x64_S512x64_1_0_0_1_n_n none p v (constant (F := Ideal) S512x64 .f32 0x00000000#32) (ix2 r d) = _
  rw [Ideal.matmul_constant_zero_apply, ← Equiv.sum_comp (contrEquiv1 dot_S512x2048_S2048x64_S512x64_1_0_0_1_n_n 2048 rfl rfl).symm]
  refine Finset.sum_congr rfl fun n' _ => ?_
  have hk := contrEquiv1_symm_val dot_S512x2048_S2048x64_S512x64_1_0_0_1_n_n 2048 rfl rfl n'
  have el : dot_S512x2048_S2048x64_S512x64_1_0_0_1_n_n.lhsIdx (ix2 r d) ((contrEquiv1 dot_S512x2048_S2048x64_S512x64_1_0_0_1_n_n 2048 rfl rfl).symm n') = ix2 r n' := funext fun a => Fin.ext (by
    match a with
    | ⟨0, _⟩ => exact lhs2_0 _ _
    | ⟨1, _⟩ => exact (dot_S512x2048_S2048x64_S512x64_1_0_0_1_n_n.lhsIdx_val_of_single rfl _ _).trans hk)
  have er : dot_S512x2048_S2048x64_S512x64_1_0_0_1_n_n.rhsIdx (ix2 r d) ((contrEquiv1 dot_S512x2048_S2048x64_S512x64_1_0_0_1_n_n 2048 rfl rfl).symm n') = ix2 n' d := funext fun a => Fin.ext (by
    match a with
    | ⟨0, _⟩ => exact (dot_S512x2048_S2048x64_S512x64_1_0_0_1_n_n.rhsIdx_val_of_single rfl _ _).trans hk
    | ⟨1, _⟩ => exact rhs2_1 _ _)
  rw [el, er]

/-! ## The row reductions and the layout operations at an index -/

/-- Row r with column k put back is (r, k). -/
theorem lift_ix1 (r : Fin 512) (k : Fin (S512x2048.size 1)) :
    reduces_S512x2048_S512.lift (ix1 r) k = ix2 r (⟨k.val, k.isLt⟩ : Fin 2048) := by
  funext c; apply Fin.ext
  match c with
  | ⟨0, _⟩ => rfl
  | ⟨1, _⟩ => rfl

/-- The row maximum from −∞. -/
theorem rowmax_at (src : FVec Ideal S512x2048 .f32) (r : Fin 512) :
    multiReduction (F := Ideal) .maximumf [1] S512 src 0xFF800000#32 reduces_S512x2048_S512 (.inl rfl) rfl (ix1 r)
      = (Finset.univ : Finset (Fin 2048)).fold max ninf (fun n' => src (ix2 r n')) := by
  refine (Ideal.multiReduction_maximumf_single src 0xFF800000#32 reduces_S512x2048_S512 (.inl rfl) rfl (ix1 r)).trans ?_
  have hf : (src ∘ reduces_S512x2048_S512.lift (ix1 r)) = fun n' : Fin 2048 => src (ix2 r n') :=
    funext fun k => congrArg src (lift_ix1 r k)
  exact congrArg (fun g => Finset.fold max ninf g (Finset.univ : Finset (Fin 2048))) hf

/-- The row sum from zero. -/
theorem rowsum_at (src : FVec Ideal S512x2048 .f32) (r : Fin 512) :
    multiReduction (F := Ideal) .add [1] S512 src 0x00000000#32 reduces_S512x2048_S512 (.inl rfl) rfl (ix1 r)
      = ∑ n' : Fin 2048, src (ix2 r n') := by
  refine (Ideal.multiReduction_add_single src 0x00000000#32 reduces_S512x2048_S512 (.inl rfl) rfl (ix1 r)).trans ?_
  exact Finset.sum_congr rfl fun k _ => congrArg src (lift_ix1 r k)

/-- A vector of 512 entries as a 512 × 1 column. -/
theorem col_at (v : FVec Ideal S512 .f32) (r : Fin 512) :
    shapeCast S512x1 v shapeCasts_S512_S512x1 (ix2 r (0 : Fin 1)) = v (ix1 r) :=
  shapeCast_apply v shapeCasts_S512_S512x1 (ix2 r (0 : Fin 1)) (ix1 r) (by
    rw [Shape.rowMajor_val_one, Shape.rowMajor_val_two]; show r.val = r.val * 1 + 0; omega)

/-- The column laid along each of the 2048 columns. -/
theorem bcast_at (v : FVec Ideal S512x1 .f32) (r : Fin 512) (n' : Fin 2048) :
    broadcastTo S512x2048 v broadcasts_S512x1_S512x2048 (ix2 r n') = v (ix2 r (0 : Fin 1)) := by
  refine broadcastTo_apply v broadcasts_S512x1_S512x2048 (ix2 r n') (ix2 r (0 : Fin 1)) fun ax => ?_
  match ax with
  | ⟨0, _⟩ => show r.val = if (512 : Nat) = 1 then 0 else r.val; rw [if_neg (by decide)]
  | ⟨1, _⟩ => show 0 = if (1 : Nat) = 1 then 0 else n'.val; rw [if_pos rfl]

/-- The 512 × 64 block as a 1 × 512 × 64 block. -/
theorem out_at (y : FVec Ideal S512x64 .f32) (r : Fin 512) (d : Fin 64) :
    shapeCast S1x512x64 y shapeCasts_S512x64_S1x512x64 (ix3 (0 : Fin 1) r d) = y (ix2 r d) :=
  shapeCast_apply y shapeCasts_S512x64_S1x512x64 (ix3 (0 : Fin 1) r d) (ix2 r d) (by
    rw [Shape.rowMajor_val_two, Shape.rowMajor_val_three]; show r.val * 64 + d.val = (0 * 512 + r.val) * 64 + d.val; omega)

theorem exp_at (v : FVec Ideal S512x2048 .f32) (i : S512x2048.Idx) : exp v i = Ideal.exp (v i) := rfl

/-! ## The head, stage by stage -/

section
variable (q : Vec Ideal S512x64 .bf16) (k : Vec Ideal S2048x64 .bf16)

/-- The scaled scores of the block. -/
def sc : FVec Ideal S512x2048 .f32 :=
  mulf (matmul (φ₁ := .bf16) (φ₂ := .bf16) dot_S512x64_S2048x64_S512x2048_1_1_0_0_n_n none q k (constant (F := Ideal) S512x2048 .f32 0x00000000#32))
    (broadcast S512x2048 (Scalar.ofBits (F := Ideal) .f32 0x3E000000#32))

/-- The row maxima. -/
def mx : FVec Ideal S512 .f32 :=
  maximumf (broadcast S512 (Scalar.ofBits (F := Ideal) .f32 0xFF800000#32))
    (multiReduction (F := Ideal) .maximumf [1] S512 (sc q k) 0xFF800000#32 reduces_S512x2048_S512 (.inl rfl) rfl)

/-- The exponentials of the scores less their row maximum. -/
def ee : FVec Ideal S512x2048 .f32 :=
  exp (subf (sc q k) (broadcastTo S512x2048 (shapeCast S512x1 (mx q k) shapeCasts_S512_S512x1) broadcasts_S512x1_S512x2048))

/-- The softmax weights. -/
def pr : FVec Ideal S512x2048 .f32 :=
  divf (ee q k) (broadcastTo S512x2048 (shapeCast S512x1
    (multiReduction (F := Ideal) .add [1] S512 (ee q k) 0x00000000#32 reduces_S512x2048_S512 (.inl rfl) rfl) shapeCasts_S512_S512x1)
    broadcasts_S512x1_S512x2048)

/-- The block the kernel stores is the weights times the values, re-laid as 1 × 512 × 64. -/
theorem pay_eq (v : Vec Ideal S2048x64 .bf16) :
    k0_pay1 (F := Ideal) q k v
      = shapeCast S1x512x64 (matmul (φ₁ := .bf16) (φ₂ := .bf16) dot_S512x2048_S2048x64_S512x64_1_0_0_1_n_n none (truncf .bf16 (pr q k) bitsLt_bf16_f32) v
          (constant (F := Ideal) S512x64 .f32 0x00000000#32)) shapeCasts_S512x64_S1x512x64 := rfl

theorem sc_at (r : Fin 512) (n' : Fin 2048) : sc q k (ix2 r n') = scoreOf (fun d' => q (ix2 r d')) (fun n'' d' => k (ix2 n'' d')) n' := by
  unfold sc
  rw [mulf_apply, qk_at, broadcast_apply]
  rfl

theorem mx_at (r : Fin 512) : mx q k (ix1 r) = rowmaxOf (fun d' => q (ix2 r d')) (fun n'' d' => k (ix2 n'' d')) := by
  unfold mx
  rw [maximumf_apply, rowmax_at, broadcast_apply]
  simp only [sc_at]
  rfl

theorem ee_at (r : Fin 512) (n' : Fin 2048) : ee q k (ix2 r n') = exOf (fun d' => q (ix2 r d')) (fun n'' d' => k (ix2 n'' d')) n' := by
  unfold ee
  rw [exp_at, subf_apply, bcast_at, col_at, mx_at, sc_at]
  rfl

theorem pr_at (r : Fin 512) (n' : Fin 2048) :
    pr q k (ix2 r n') = Ideal.div (exOf (fun d' => q (ix2 r d')) (fun n'' d' => k (ix2 n'' d')) n') (∑ m' : Fin 2048, exOf (fun d' => q (ix2 r d')) (fun n'' d' => k (ix2 n'' d')) m') := by
  unfold pr
  rw [divf_apply, bcast_at, col_at, rowsum_at]
  simp only [ee_at]

end

/-- Row r, lane d of the block computed from the query block q and the key and value blocks k, v is the query row attended over
    all 2048 keys. -/
theorem head_apply (q : Vec Ideal S512x64 .bf16) (k v : Vec Ideal S2048x64 .bf16) (r : Fin 512) (d : Fin 64) :
    k0_pay1 (F := Ideal) q k v (ix3 (0 : Fin 1) r d)
      = softRow (fun d' => q (ix2 r d')) (fun n' d' => k (ix2 n' d')) (fun n' d' => v (ix2 n' d')) d := by
  rw [pay_eq, out_at, pv_at]
  simp only [truncf_apply, pr_at]
  rfl

end Cert.KernelIdeal.Head

end
-- ==== Proof.KernelIdealBody.lean ====
/-
  The frame of `KernelIdeal`, at any float instance: the body's run (the run module) placed under the pipeline.
  A grid point is one batch element; its six windows are whole buffers (the batch element's rows of x, the
  re-laid weight and bias, the two gains, the batch element's rows of the result). After the body the five
  input buffers hold their blocks as before and the result's buffer holds the body's pieces, which tile it
  (4 query tiles × 16 heads of 512 × 64), so its contents do not depend on what it held before.
-/
import proofs.«146380_j70660801954384_2_alg».proof.Proof.KernelIdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result window, through which its contents are stated. -/
abbrev VO5 : View sig .tc .vmem S1x2048x1024 .f32 := (Memref.whole cc0_stg5_0 : Memref sig .tc .vmem S1x2048x1024 .f32).view
/-- Each window's current staging buffer at point `t`, spelt as the pipeline passes it, and its wholeness. -/
abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3072 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S3072 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x1024 .f32 := win0_5.stage (cfg0.slots t 5)
abbrev hs5 (t : Fin cfg0.N) : (ms5 t).IsWhole := hstage0_5 ((cfg0.slots t 5).cast nbuf0_5)
/-- The scratch operand: a whole scoped buffer of the kernel's own. -/
abbrev scM : Memref sig .tc .vmem S2048x3072 .bf16 := Memref.whole cc0_scratch0

/-- The pipeline's invariant with the scratch buffer owned at some contents: what the body is handed and gives back. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The run's pieces tile the result's block (64 stores of 1 × 512 × 64), so they cover it. -/
theorem cover5 (c : Dev nD) (i : grid0.Coords) (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg6 : Memref sig .tc .vmem S1x2048x1024 .f32) (harg6 : arg6.IsWhole) (arg7 : Memref sig .tc .vmem S2048x3072 .bf16) (harg7 : arg7.IsWhole)
    (x0 : Vec F S1x2048x1024 .f32) (x1 : Vec F S1024x3072 .bf16) (x2 : Vec F S3072 .f32) (x3 : Vec F S64 .f32) (x4 : Vec F S64 .f32) (y : S1x2048x1024.Idx) :
    ∃ pc ∈ (kernelRun c i arg1 harg1 arg2 harg2 arg3 harg3 arg4 harg4 arg5 harg5 arg6 harg6 arg7 harg7 x0 x1 x2 x3 x4).1, y ∈ pc.1.set :=
  View.cover_of_tiledL (kernelRun c i arg1 harg1 arg2 harg2 arg3 harg3 arg4 harg4 arg5 harg5 arg6 harg6 arg7 harg7 x0 x1 x2 x3 x4).1 S1x512x64.size (by sl_kernel_rfl) y

/-- What the run leaves in the result's staging buffer: its pieces read back. -/
def out5 (c : Dev nD) (i : grid0.Coords) (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg6 : Memref sig .tc .vmem S1x2048x1024 .f32) (harg6 : arg6.IsWhole) (arg7 : Memref sig .tc .vmem S2048x3072 .bf16) (harg7 : arg7.IsWhole)
    (x0 : Vec F S1x2048x1024 .f32) (x1 : Vec F S1024x3072 .bf16) (x2 : Vec F S3072 .f32) (x3 : Vec F S64 .f32) (x4 : Vec F S64 .f32) : Vec F S1x2048x1024 .f32 :=
  VO5.read (Elt F) (VO5.writes (Elt F) VO5.junk (kernelRun c i arg1 harg1 arg2 harg2 arg3 harg3 arg4 harg4 arg5 harg5 arg6 harg6 arg7 harg7 x0 x1 x2 x3 x4).1)

/-- What the result's staging buffer holds after the body at point `t`. -/
def outsAt (c : Dev nD) (t : Fin cfg0.N) : Vec F S1x2048x1024 .f32 :=
  out5 c (grid0.coords t) (ms0 t) (hs0 t) (ms1 t) (hs1 t) (ms2 t) (hs2 t) (ms3 t) (hs3 t) (ms4 t) (hs4 t) (ms5 t) (hs5 t) scM (Memref.isWhole_whole _)
    (iblk m c 0 t) (iblk m c 1 t) (iblk m c 2 t) (iblk m c 3 t) (iblk m c 4 t)

/-- The proof data of the pipeline on core `c`: the arrays as the region finds them; after the body at point `t`
    each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The body at any point: the inputs' buffers hold their blocks, so the run applies; the invariant hands the
    body its scratch buffer at some contents and takes it back at some contents; the result's buffer ends at the
    pieces read back, whatever it held (they cover it). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  unfold outsAt
  unfold out5
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves its argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KernelIdealOut.lean ====
/-
  The result's block of one batch element, at the extended reals. Entry (n, 64·h + d) is head h's attention of row
  n: the softmax row of the normalised query lanes of (n, h) against the normalised key lanes of all 2048 rows of
  head h, applied to the value lanes — all read from the scratch buffer's contents `Sfun`. Each of the 64 stores is a
  block of that one function `Gblk`, and they tile the block, so the body leaves exactly `Gblk` there.
-/
import proofs.«146380_j70660801954384_2_alg».proof.Proof.KernelIdealScratch
import proofs.«146380_j70660801954384_2_alg».proof.Proof.KernelIdealHead
import proofs.«146380_j70660801954384_2_alg».proof.Proof.KernelIdealBody

set_option maxRecDepth 16384

noncomputable section

namespace Cert.KernelIdeal.Val

open Cert.KernelIdeal Cert.KernelIdeal.Gen Cert.KernelIdeal.Body Cert.KernelIdeal.Tile Cert.KernelIdeal.Head Cert.Attn.Spec
open Idealize.ShloMosaic Idealize.ShloMosaic.TcCoe Idealize.ShloMosaic.Tactic Idealize.ShloMosaic.ValueIdx
open Idealize.SL Idealize.SL.Sem

section
variable (x0 : Vec Ideal S1x2048x1024 .f32) (x1 : Vec Ideal S1024x3072 .bf16) (x2 : Vec Ideal S3072 .f32) (x3 x4 : Vec Ideal S64 .f32)

/-- The batch element's result block. -/
def Gblk : S1x2048x1024.Idx → EReal := fun i =>
  softRow
    (fun d' => Sfun x0 x1 x2 x3 x4 (ix2 (⟨(i 1).val, (i 1).isLt⟩ : Fin 2048) (col3 0 (hl (headOf ⟨(i 2).val, (i 2).isLt⟩) d'))))
    (fun n' d' => Sfun x0 x1 x2 x3 x4 (ix2 n' (col3 1 (hl (headOf ⟨(i 2).val, (i 2).isLt⟩) d'))))
    (fun n' d' => Sfun x0 x1 x2 x3 x4 (ix2 n' (col3 2 (hl (headOf ⟨(i 2).val, (i 2).isLt⟩) d'))))
    (laneOf ⟨(i 2).val, (i 2).isLt⟩)

theorem Gblk_at (n : Fin 2048) (h : Fin 16) (d : Fin 64) :
    Gblk x0 x1 x2 x3 x4 (ix3 (0 : Fin 1) n (hl h d))
      = softRow (fun d' => Sfun x0 x1 x2 x3 x4 (ix2 n (col3 0 (hl h d'))))
          (fun n' d' => Sfun x0 x1 x2 x3 x4 (ix2 n' (col3 1 (hl h d'))))
          (fun n' d' => Sfun x0 x1 x2 x3 x4 (ix2 n' (col3 2 (hl h d')))) d := by
  show softRow (fun d' => Sfun x0 x1 x2 x3 x4 (ix2 n (col3 0 (hl (headOf (hl h d)) d'))))
      (fun n' d' => Sfun x0 x1 x2 x3 x4 (ix2 n' (col3 1 (hl (headOf (hl h d)) d'))))
      (fun n' d' => Sfun x0 x1 x2 x3 x4 (ix2 n' (col3 2 (hl (headOf (hl h d)) d')))) (laneOf (hl h d)) = _
  rw [headOf_hl, laneOf_hl]

end

section
variable (arg1 : Memref sig .tc .vmem S1x2048x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S64 .f32) (harg4 : arg4.IsWhole) (arg5 : Memref sig .tc .vmem S64 .f32) (harg5 : arg5.IsWhole) (arg7 : Memref sig .tc .vmem S2048x3072 .bf16) (x0 : Vec Ideal S1x2048x1024 .f32) (x1 : Vec Ideal S1024x3072 .bf16) (x2 : Vec Ideal S3072 .f32) (x3 x4 : Vec Ideal S64 .f32)

/-- Row `512·tq + r` of the batch element. -/
def rowQ (tq : Fin 4) (r : Fin 512) : Fin 2048 := ⟨512 * tq.val + r.val, by have := tq.isLt; have := r.isLt; omega⟩

/-- The three blocks a head's attention loads, at an entry. -/
theorem ldQ_apply (tq : Fin 4) (h : Fin 16) (hq hc) (r : Fin 512) (d' : Fin 64) :
    ldS (F := Ideal) arg1 harg1 arg2 harg2 arg3 harg3 arg4 harg4 arg5 harg5 arg7 x0 x1 x2 x3 x4 (512 * tq.val) (64 * h.val) 512 hq hc (ix2 r d')
      = Sfun x0 x1 x2 x3 x4 (ix2 (rowQ tq r) (col3 0 (hl h d'))) := by
  rw [ldS_apply]
  refine congrArg (Sfun x0 x1 x2 x3 x4) ?_
  have := d'.isLt
  refine congrArg₂ (fun a b => (ix2 a b : S2048x3072.Idx)) rfl (Fin.ext ?_)
  show 64 * h.val + d'.val = 1024 * 0 + (64 * h.val + d'.val); omega

theorem ldK_apply (h : Fin 16) (hq hc) (n' : Fin 2048) (d' : Fin 64) :
    ldS (F := Ideal) arg1 harg1 arg2 harg2 arg3 harg3 arg4 harg4 arg5 harg5 arg7 x0 x1 x2 x3 x4 0 (1024 + 64 * h.val) 2048 hq hc (ix2 n' d')
      = Sfun x0 x1 x2 x3 x4 (ix2 n' (col3 1 (hl h d'))) := by
  rw [ldS_apply]
  refine congrArg (Sfun x0 x1 x2 x3 x4) ?_
  refine congrArg₂ (fun a b => (ix2 a b : S2048x3072.Idx)) (Fin.ext ?_) (Fin.ext ?_)
  · show 0 + n'.val = n'.val; omega
  · show 1024 + 64 * h.val + d'.val = 1024 * 1 + (64 * h.val + d'.val); omega

theorem ldV_apply (h : Fin 16) (hq hc) (n' : Fin 2048) (d' : Fin 64) :
    ldS (F := Ideal) arg1 harg1 arg2 harg2 arg3 harg3 arg4 harg4 arg5 harg5 arg7 x0 x1 x2 x3 x4 0 (2048 + 64 * h.val) 2048 hq hc (ix2 n' d')
      = Sfun x0 x1 x2 x3 x4 (ix2 n' (col3 2 (hl h d'))) := by
  rw [ldS_apply]
  refine congrArg (Sfun x0 x1 x2 x3 x4) ?_
  refine congrArg₂ (fun a b => (ix2 a b : S2048x3072.Idx)) (Fin.ext ?_) (Fin.ext ?_)
  · show 0 + n'.val = n'.val; omega
  · show 2048 + 64 * h.val + d'.val = 1024 * 2 + (64 * h.val + d'.val); omega

/-- Entry (0, r, d) of the block of query tile `tq`, head `h` sits at row 512·tq + r, column 64·h + d. -/
theorem emb_head (tq : Fin 4) (h : Fin 16) (inb) (r : Fin 512) (d : Fin 64) :
    (Rect.unit (s := S1x2048x1024) ![0, 512 * tq.val, 64 * h.val] ![1, 512, 64] inb).emb (ix3 (0 : Fin 1) r d)
      = (ix3 (0 : Fin 1) (rowQ tq r) (hl h d) : S1x2048x1024.Idx) := by
  funext a; apply Fin.ext
  match a with
  | ⟨0, _⟩ => show 0 + 1 * 0 = 0; omega
  | ⟨1, _⟩ => show 512 * tq.val + 1 * r.val = 512 * tq.val + r.val; omega
  | ⟨2, _⟩ => show 64 * h.val + 1 * d.val = 64 * h.val + d.val; omega

theorem headPiece_ok (tq : Fin 4) (h : Fin 16) (y : S1x512x64.Idx) :
    (headPiece (F := Ideal) arg1 harg1 arg2 harg2 arg3 harg3 arg4 harg4 arg5 harg5 arg7 x0 x1 x2 x3 x4 tq h).2 y
      = Gblk x0 x1 x2 x3 x4 ((headPiece (F := Ideal) arg1 harg1 arg2 harg2 arg3 harg3 arg4 harg4 arg5 harg5 arg7 x0 x1 x2 x3 x4 tq h).1.emb y) := by
  obtain ⟨z, r, d, rfl⟩ : ∃ (z : Fin 1) (r : Fin 512) (d : Fin 64), y = ix3 z r d := ⟨y 0, y 1, y 2, eq_ix3 y⟩
  obtain rfl : z = 0 := Subsingleton.elim _ _
  show k0_pay1 (F := Ideal) _ _ _ (ix3 (0 : Fin 1) r d) = Gblk x0 x1 x2 x3 x4 ((Rect.unit (s := S1x2048x1024) ![0, 512 * tq.val, 64 * h.val] ![1, 512, 64] (inbO tq h)).emb (ix3 (0 : Fin 1) r d))
  rw [emb_head, Gblk_at, head_apply]
  simp only [ldQ_apply, ldK_apply, ldV_apply]

/-- Every one of the 64 stores is a block of `Gblk`. -/
theorem out_pieces_ok :
    ∀ p ∈ outPieces (F := Ideal) arg1 harg1 arg2 harg2 arg3 harg3 arg4 harg4 arg5 harg5 arg7 x0 x1 x2 x3 x4, ∀ y : p.1.shape.Idx,
      p.2 y = Gblk x0 x1 x2 x3 x4 (p.1.emb y) := by
  intro p hp
  simp only [outPieces, List.mem_flatMap, List.mem_map] at hp
  obtain ⟨tq, -, h, -, rfl⟩ := hp
  exact headPiece_ok arg1 harg1 arg2 harg2 arg3 harg3 arg4 harg4 arg5 harg5 arg7 x0 x1 x2 x3 x4 tq h

/-- What the body leaves in the result's buffer is `Gblk` of the input buffers' contents. -/
theorem out5_eq (c : Dev nD) (i : grid0.Coords) (harg7 : arg7.IsWhole) (arg6 : Memref sig .tc .vmem S1x2048x1024 .f32) (harg6 : arg6.IsWhole) :
    out5 (F := Ideal) c i arg1 harg1 arg2 harg2 arg3 harg3 arg4 harg4 arg5 harg5 arg6 harg6 arg7 harg7 x0 x1 x2 x3 x4 = Gblk x0 x1 x2 x3 x4 := by
  unfold out5
  rw [View.read_writes_eq_canon VO5 VO5.junk _ (cover5 c i arg1 harg1 arg2 harg2 arg3 harg3 arg4 harg4 arg5 harg5 arg6 harg6 arg7 harg7 x0 x1 x2 x3 x4)]
  funext y
  have hc := cover5 (F := Ideal) c i arg1 harg1 arg2 harg2 arg3 harg3 arg4 harg4 arg5 harg5 arg6 harg6 arg7 harg7 x0 x1 x2 x3 x4 y
  rw [out_eq arg1 harg1 arg2 harg2 arg3 harg3 arg4 harg4 arg5 harg5 arg7 x0 x1 x2 x3 x4 c i harg7 arg6 harg6] at hc ⊢
  exact View.canon_apply_of_pieces (Gblk x0 x1 x2 x3 x4) _ (out_pieces_ok arg1 harg1 arg2 harg2 arg3 harg3 arg4 harg4 arg5 harg5 arg7 x0 x1 x2 x3 x4) y hc

end

end Cert.KernelIdeal.Val

end
-- ==== Proof.KernelIdealBlocks.lean ====
/-
  The pipeline's blocks. A grid point is one batch element: window 0's block at point t is batch element t's rows of x,
  windows 1 to 4 hold a whole array each at both points, and window 5's block at point t is batch element t's rows of the
  result. So each input block read at an index is the array at the corresponding index, and the result array after the run
  is any function whose rows of batch element t are what point t wrote back.
-/
import proofs.«146380_j70660801954384_2_alg».proof.Proof.KernelIdealBody
import Idealize.ShloMosaic.Lib.Pipeline.Value
import Idealize.ShloMosaic.Lib.ValueIdx

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD) (t : Fin cfg0.N)

/-- The block indices over the two grid points: windows 0 and 5 are at block t on the batch axis and block 0 on the others;
    windows 1 to 4 are at block 0. -/
theorem index_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The input blocks -/

/-- Window 0's block at point t: batch element t's rows of x. -/
theorem iblk0_apply (n : Fin 2048) (k : Fin 1024) :
    iblk (F := Ideal) m c 0 t (ix3 (0 : Fin 1) n k)
      = m ((c : Thread nD τ).loc main_arg0) (ix3 (⟨t.val, t.isLt⟩ : Fin 2) n k) := by
  obtain ⟨e0, e1, e2, -⟩ := index_facts t
  show V m c main_arg0 (((cfg0.win 0).blk t).view.emb (ix3 (0 : Fin 1) n k)) = _
  rw [V_main_arg0]
  have h : ((cfg0.win 0).blk t).view.emb (ix3 (0 : Fin 1) n k) = ix3 (⟨t.val, t.isLt⟩ : Fin 2) n k := by
    funext a; apply Fin.ext
    match a with
    | ⟨0, _⟩ => show win0_0.index t (0 : Fin 3) * 1 + 1 * 0 = t.val; omega
    | ⟨1, _⟩ => show win0_0.index t (1 : Fin 3) * 2048 + 1 * n.val = n.val; omega
    | ⟨2, _⟩ => show win0_0.index t (2 : Fin 3) * 1024 + 1 * k.val = k.val; omega
  rw [h]

/-- Window 1's block is the whole re-laid weight. -/
theorem iblk1_eq : (iblk (F := Ideal) m c 1 t : S1024x3072.Idx → EReal) = V m c main_v4 := by
  obtain ⟨-, -, -, e0, e1, -⟩ := index_facts t
  funext j
  show V m c main_v4 (((cfg0.win 1).blk t).view.emb j) = V m c main_v4 j
  have h : ((cfg0.win 1).blk t).view.emb j = j := by
    funext a; apply Fin.ext
    match a with
    | ⟨0, _⟩ => show win0_1.index t (0 : Fin 2) * 1024 + 1 * (j 0).val = (j 0).val; omega
    | ⟨1, _⟩ => show win0_1.index t (1 : Fin 2) * 3072 + 1 * (j 1).val = (j 1).val; omega
  rw [h]

/-- Window 2's block is the whole re-laid bias. -/
theorem iblk2_eq : (iblk (F := Ideal) m c 2 t : S3072.Idx → EReal) = V m c main_v7 := by
  obtain ⟨-, -, -, -, -, e0, -⟩ := index_facts t
  funext j
  show V m c main_v7 (((cfg0.win 2).blk t).view.emb j) = V m c main_v7 j
  have h : ((cfg0.win 2).blk t).view.emb j = j := by
    funext a; apply Fin.ext
    match a with
    | ⟨0, _⟩ => show win0_2.index t (0 : Fin 1) * 3072 + 1 * (j 0).val = (j 0).val; omega
  rw [h]

/-- Window 3's block is the whole query gain. -/
theorem iblk3_eq : (iblk (F := Ideal) m c 3 t : S64.Idx → EReal) = m ((c : Thread nD τ).loc main_arg3) := by
  obtain ⟨-, -, -, -, -, -, e0, -⟩ := index_facts t
  funext j
  show V m c main_arg3 (((cfg0.win 3).blk t).view.emb j) = _
  rw [V_main_arg3]
  have h : ((cfg0.win 3).blk t).view.emb j = j := by
    funext a; apply Fin.ext
    match a with
    | ⟨0, _⟩ => show win0_3.index t (0 : Fin 1) * 64 + 1 * (j 0).val = (j 0).val; omega
  rw [h]

/-- Window 4's block is the whole key gain. -/
theorem iblk4_eq : (iblk (F := Ideal) m c 4 t : S64.Idx → EReal) = m ((c : Thread nD τ).loc main_arg4) := by
  obtain ⟨-, -, -, -, -, -, -, e0, -⟩ := index_facts t
  funext j
  show V m c main_arg4 (((cfg0.win 4).blk t).view.emb j) = _
  rw [V_main_arg4]
  have h : ((cfg0.win 4).blk t).view.emb j = j := by
    funext a; apply Fin.ext
    match a with
    | ⟨0, _⟩ => show win0_4.index t (0 : Fin 1) * 64 + 1 * (j 0).val = (j 0).val; omega
  rw [h]

/-! ## From blocks to the result array -/

/-- An index of the result array is in point t's block iff on each axis it lies in the block's range. -/
theorem mem_blk5 (t : Fin cfg0.N) (i : S2x2048x1024.Idx) :
    i ∈ ((cfg0.win 5).blk t).view.set ↔ ∀ a : Fin 3, win0_5.index t a * S1x2048x1024.size a ≤ (i a).val
      ∧ (i a).val < win0_5.index t a * S1x2048x1024.size a + S1x2048x1024.size a := by
  show i ∈ ((View.whole main_v8).slice (win0_5.rect t)).set ↔ _
  rw [View.set_slice_whole, Rect.mem_set_unit]
  exact Iff.rfl

/-- Every index (b, n, cc) of the result array is in the block of point b, which is written back. -/
theorem covered5 (i : S2x2048x1024.Idx) :
    ∃ t : Fin cfg0.N, (cfg0.win 5).flush t = true ∧ i ∈ ((cfg0.win 5).blk t).view.set := by
  have hi0 : (i 0).val < 2 := (i 0).isLt
  have hi1 : (i 1).val < 2048 := (i 1).isLt
  have hi2 : (i 2).val < 1024 := (i 2).isLt
  obtain ⟨-, -, -, -, -, -, -, -, e0, e1, e2⟩ := index_facts (⟨(i 0).val, hi0⟩ : Fin cfg0.N)
  have e0' : win0_5.index (⟨(i 0).val, hi0⟩ : Fin cfg0.N) (0 : Fin 3) = (i 0).val := e0
  refine ⟨(⟨(i 0).val, hi0⟩ : Fin cfg0.N), flush0_5 _, ?_⟩
  rw [mem_blk5]
  intro a
  match a with
  | ⟨0, _⟩ =>
    show win0_5.index (⟨(i 0).val, hi0⟩ : Fin cfg0.N) (0 : Fin 3) * 1 ≤ (i 0).val
      ∧ (i 0).val < win0_5.index (⟨(i 0).val, hi0⟩ : Fin cfg0.N) (0 : Fin 3) * 1 + 1
    omega
  | ⟨1, _⟩ =>
    show win0_5.index (⟨(i 0).val, hi0⟩ : Fin cfg0.N) (1 : Fin 3) * 2048 ≤ (i 1).val
      ∧ (i 1).val < win0_5.index (⟨(i 0).val, hi0⟩ : Fin cfg0.N) (1 : Fin 3) * 2048 + 2048
    omega
  | ⟨2, _⟩ =>
    show win0_5.index (⟨(i 0).val, hi0⟩ : Fin cfg0.N) (2 : Fin 3) * 1024 ≤ (i 2).val
      ∧ (i 2).val < win0_5.index (⟨(i 0).val, hi0⟩ : Fin cfg0.N) (2 : Fin 3) * 1024 + 1024
    omega

/-- What point t writes back is block t of GA, when the body's result at point t is GA's rows of batch element t. -/
theorem flushed5_eq (GA : S2x2048x1024.Idx → EReal)
    (hblk : ∀ (t : Fin cfg0.N) (n : Fin 2048) (cc : Fin 1024),
      outsAt (F := Ideal) m c t (ix3 (0 : Fin 1) n cc) = GA (ix3 (⟨t.val, t.isLt⟩ : Fin 2) n cc)) (t : Fin cfg0.N) :
    (dats (F := Ideal) m 0 c).flushed 5 t = ((cfg0.win 5).blk t).view.read (Elt Ideal) GA := by
  obtain ⟨-, -, -, -, -, -, -, -, e0, e1, e2⟩ := index_facts t
  show (cfg0.win 5).cut (grid0.coords t) ((dats (F := Ideal) m 0 c).after 5 t) = _
  rw [after5]
  funext j
  have hj0 : (j 0).val < 1 := (j 0).isLt
  have hj1 : (j 1).val < 2048 := (j 1).isLt
  have hj2 : (j 2).val < 1024 := (j 2).isLt
  show outsAt (F := Ideal) m c t ((cfg0.win 5).xinj (grid0.coords t) j) = GA (((cfg0.win 5).blk t).view.emb j)
  have hx : (cfg0.win 5).xinj (grid0.coords t) j = ix3 (0 : Fin 1) (⟨(j 1).val, hj1⟩ : Fin 2048) (⟨(j 2).val, hj2⟩ : Fin 1024) := by
    funext a; apply Fin.ext
    match a with
    | ⟨0, _⟩ => show (j 0).val = 0; omega
    | ⟨1, _⟩ => rfl
    | ⟨2, _⟩ => rfl
  have he : ((cfg0.win 5).blk t).view.emb j
      = ix3 (⟨t.val, t.isLt⟩ : Fin 2) (⟨(j 1).val, hj1⟩ : Fin 2048) (⟨(j 2).val, hj2⟩ : Fin 1024) := by
    funext a; apply Fin.ext
    match a with
    | ⟨0, _⟩ => show win0_5.index t (0 : Fin 3) * 1 + 1 * (j 0).val = t.val; omega
    | ⟨1, _⟩ => show win0_5.index t (1 : Fin 3) * 2048 + 1 * (j 1).val = (j 1).val; omega
    | ⟨2, _⟩ => show win0_5.index t (2 : Fin 3) * 1024 + 1 * (j 2).val = (j 2).val; omega
  exact (congrArg (outsAt (F := Ideal) m c t) hx).trans ((hblk t _ _).trans (congrArg GA he.symm))

/-- The result array after the run is GA, when each point's written-back block is GA's rows of that batch element. -/
theorem arr_of_blocks (GA : S2x2048x1024.Idx → EReal)
    (hblk : ∀ (t : Fin cfg0.N) (n : Fin 2048) (cc : Fin 1024),
      outsAt (F := Ideal) m c t (ix3 (0 : Fin 1) n cc) = GA (ix3 (⟨t.val, t.isLt⟩ : Fin 2) n cc)) :
    (dats (F := Ideal) m 0 c).arrAt 5 cfg0.N = GA :=
  (dats (F := Ideal) m 0 c).arrAt_eq_of_cover 5 GA (fun t _ => flushed5_eq m c GA hblk t) covered5

end Cert.KernelIdeal.Blocks

end
-- ==== Proof.KernelIdealHost.lean ====
/-
  The host side of the kernel's program, at the extended reals: before the region the weight (3072 × 1024, row
  192·h + 3·d + j for head h, lane d, component j) is re-laid as 1024 × 3072 with column 1024·j + 64·h + d
  (reshape to 16 × 64 × 3 × 1024, move the component axis first, flatten, transpose, cast to bf16 — the identity
  here), and the bias likewise as 3072 entries at 1024·j + 64·h + d. Read at an index, each is the argument
  array's entry.
-/
import proofs.«146380_j70660801954384_2_alg».proof.Proof.Gen.KernelIdeal.Frame
import proofs.«146380_j70660801954384_2_alg».proof.Proof.Cols
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Host

open Cert.KernelIdeal Cert.KernelIdeal.Gen Cert.Attn.Spec
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The re-laid weight as the host operations' composed term of the weight argument. -/
theorem w2_term (c : Dev nD) :
    (V (F := Ideal) m c main_v4 : S1024x3072.Idx → EReal) =
      truncf (F := Ideal) .bf16 (transpose S1024x3072 [1, 0]
        (shapeCast S3072x1024 (transpose S3x16x64x1024 [2, 0, 1, 3]
          (shapeCast S16x64x3x1024 (m ((c : Thread nD τ).loc main_arg1) : S3072x1024.Idx → EReal) shapeCasts_S3072x1024_S16x64x3x1024)
          transposes_S16x64x3x1024_S3x16x64x1024_2_0_1_3) shapeCasts_S3x16x64x1024_S3072x1024)
        transposes_S3072x1024_S1024x3072_1_0) bitsLt_bf16_f32 := by
  dsimp only [V, hostOps0]; after_results; rfl

/-- The re-laid bias as the host operations' composed term of the bias argument. -/
theorem b2_term (c : Dev nD) :
    (V (F := Ideal) m c main_v7 : S3072.Idx → EReal) =
      shapeCast S3072 (transpose S3x16x64 [2, 0, 1]
        (shapeCast S16x64x3 (m ((c : Thread nD τ).loc main_arg2) : S3072.Idx → EReal) shapeCasts_S3072_S16x64x3)
        transposes_S16x64x3_S3x16x64_2_0_1) shapeCasts_S3x16x64_S3072 := by
  dsimp only [V, hostOps0]; after_results; rfl

/-- Entry (k, 1024·j + 64·h + d) of the re-laid weight is entry (192·h + 3·d + j, k) of the weight. -/
theorem w2_apply (c : Dev nD) (k : Fin 1024) (j : Fin 3) (h : Fin 16) (d : Fin 64) :
    V (F := Ideal) m c main_v4 (ix2 k (col3 j (hl h d)))
      = m ((c : Thread nD τ).loc main_arg1) (ix2 (row h d j) k) := by
  rw [w2_term]
  have hj := j.isLt; have hh := h.isLt; have hd := d.isLt; have hk := k.isLt
  simp only [truncf, Ideal.truncf_def]
  refine (transpose_apply [1, 0] _ transposes_S3072x1024_S1024x3072_1_0 (ix2 k (col3 j (hl h d))) (ix2 (col3 j (hl h d)) k)
    (fun b => match b with | ⟨0, _⟩ => rfl | ⟨1, _⟩ => rfl)).trans ?_
  refine (shapeCast_apply _ shapeCasts_S3x16x64x1024_S3072x1024 (ix2 (col3 j (hl h d)) k) (ix4 j h d k)
    (by rewrite [Shape.rowMajor_val_four, Shape.rowMajor_val_two]
        show ((j.val * 16 + h.val) * 64 + d.val) * 1024 + k.val = (1024 * j.val + (64 * h.val + d.val)) * 1024 + k.val
        omega)).trans ?_
  refine (transpose_apply [2, 0, 1, 3] _ transposes_S16x64x3x1024_S3x16x64x1024_2_0_1_3 (ix4 j h d k) (ix4 h d j k)
    (fun b => match b with | ⟨0, _⟩ => rfl | ⟨1, _⟩ => rfl | ⟨2, _⟩ => rfl | ⟨3, _⟩ => rfl)).trans ?_
  exact shapeCast_apply _ shapeCasts_S3072x1024_S16x64x3x1024 (ix4 h d j k) (ix2 (row h d j) k)
    (by rewrite [Shape.rowMajor_val_two, Shape.rowMajor_val_four]
        show (192 * h.val + 3 * d.val + j.val) * 1024 + k.val = ((h.val * 64 + d.val) * 3 + j.val) * 1024 + k.val
        omega)

/-- Entry 1024·j + 64·h + d of the re-laid bias is entry 192·h + 3·d + j of the bias. -/
theorem b2_apply (c : Dev nD) (j : Fin 3) (h : Fin 16) (d : Fin 64) :
    V (F := Ideal) m c main_v7 (ix1 (col3 j (hl h d)))
      = m ((c : Thread nD τ).loc main_arg2) (ix1 (row h d j)) := by
  rw [b2_term]
  have hj := j.isLt; have hh := h.isLt; have hd := d.isLt
  refine (shapeCast_apply _ shapeCasts_S3x16x64_S3072 (ix1 (col3 j (hl h d))) (ix3 j h d)
    (by rewrite [Shape.rowMajor_val_three, Shape.rowMajor_val_one]
        show (j.val * 16 + h.val) * 64 + d.val = 1024 * j.val + (64 * h.val + d.val)
        omega)).trans ?_
  refine (transpose_apply [2, 0, 1] _ transposes_S16x64x3_S3x16x64_2_0_1 (ix3 j h d) (ix3 h d j)
    (fun b => match b with | ⟨0, _⟩ => rfl | ⟨1, _⟩ => rfl | ⟨2, _⟩ => rfl)).trans ?_
  exact shapeCast_apply _ shapeCasts_S3072_S16x64x3 (ix3 h d j) (ix1 (row h d j))
    (by rewrite [Shape.rowMajor_val_one, Shape.rowMajor_val_three]
        show 192 * h.val + 3 * d.val + j.val = (h.val * 64 + d.val) * 3 + j.val
        omega)

end Cert.KernelIdeal.Host

end
-- ==== Proof.KernelIdealFinal.lean ====
/-
  The kernel's result array, at the extended reals, is the specification `G` of the argument arrays. A batch
  element's block was read as `Gblk` of its input blocks; those blocks are the batch element's rows of x, the
  re-laid weight and bias (whose entry at column 1024·j + 64·h + d is the weight's and bias's row 192·h + 3·d + j),
  and the two gains, so the block's projections are the specification's `comp`, its normalised lanes `nrm`, and
  its entry (n, 64·h + d) the specification's `attn` of head h, row n, lane d. The two points' blocks make up the
  array, and the run ends with the result there and the arguments as they were.
-/
import proofs.«146380_j70660801954384_2_alg».proof.Proof.KernelIdealOut
import proofs.«146380_j70660801954384_2_alg».proof.Proof.KernelIdealBlocks
import proofs.«146380_j70660801954384_2_alg».proof.Proof.KernelIdealHost

set_option maxRecDepth 16384

noncomputable section

namespace Cert.KernelIdeal.Val

open Cert.KernelIdeal Cert.KernelIdeal.Gen Cert.KernelIdeal.Body Cert.KernelIdeal.Blocks Cert.KernelIdeal.Host Cert.Attn.Spec
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

/-- The specification at core `c`'s argument arrays. -/
def GA : S2x2048x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))

/-- A projection entry of batch element `t`'s block is the specification's `comp`. -/
theorem P_eq (t : Fin cfg0.N) (n : Fin 2048) (j : Fin 3) (h : Fin 16) (d : Fin 64) :
    P (iblk (F := Ideal) m c 0 t) (iblk (F := Ideal) m c 1 t) (iblk (F := Ideal) m c 2 t) n (col3 j (hl h d))
      = comp (m ((c : Thread nD τ).loc main_arg0)) (m ((c : Thread nD τ).loc main_arg1)) (m ((c : Thread nD τ).loc main_arg2)) j (⟨t.val, t.isLt⟩ : Fin 2) h n d := by
  unfold P
  rw [comp_eq_projOf]
  refine congr (congr (congrArg projOf (funext fun k => iblk0_apply m c t n k)) (funext fun k => ?_)) ?_
  · exact (congrFun (iblk1_eq m c t) _).trans (w2_apply m c k j h d)
  · exact (congrFun (iblk2_eq m c t) _).trans (b2_apply m c j h d)

theorem Nq_eq (t : Fin cfg0.N) (n : Fin 2048) (h : Fin 16) (d : Fin 64) :
    Nf (iblk (F := Ideal) m c 0 t) (iblk (F := Ideal) m c 1 t) (iblk (F := Ideal) m c 2 t) (iblk (F := Ideal) m c 3 t) 0 n (hl h d)
      = nrm (m ((c : Thread nD τ).loc main_arg0)) (m ((c : Thread nD τ).loc main_arg1)) (m ((c : Thread nD τ).loc main_arg2)) (m ((c : Thread nD τ).loc main_arg3)) 0 (⟨t.val, t.isLt⟩ : Fin 2) h n d := by
  unfold Nf
  rw [headOf_hl, laneOf_hl, nrm_eq_nrmOf]
  exact congrFun (congr (congrArg nrmOf (funext fun d' => P_eq m c t n 0 h d')) (congrFun (iblk3_eq m c t) _)) d

theorem Nk_eq (t : Fin cfg0.N) (n : Fin 2048) (h : Fin 16) (d : Fin 64) :
    Nf (iblk (F := Ideal) m c 0 t) (iblk (F := Ideal) m c 1 t) (iblk (F := Ideal) m c 2 t) (iblk (F := Ideal) m c 4 t) 1 n (hl h d)
      = nrm (m ((c : Thread nD τ).loc main_arg0)) (m ((c : Thread nD τ).loc main_arg1)) (m ((c : Thread nD τ).loc main_arg2)) (m ((c : Thread nD τ).loc main_arg4)) 1 (⟨t.val, t.isLt⟩ : Fin 2) h n d := by
  unfold Nf
  rw [headOf_hl, laneOf_hl, nrm_eq_nrmOf]
  exact congrFun (congr (congrArg nrmOf (funext fun d' => P_eq m c t n 1 h d')) (congrFun (iblk4_eq m c t) _)) d

/-- What point `t` leaves in the result's buffer is the specification's rows of batch element `t`. -/
theorem outsAt_eq (t : Fin cfg0.N) (n : Fin 2048) (cc : Fin 1024) :
    outsAt (F := Ideal) m c t (ix3 (0 : Fin 1) n cc) = GA m c (ix3 (⟨t.val, t.isLt⟩ : Fin 2) n cc) := by
  unfold outsAt
  rw [out5_eq]
  have hcc : cc = hl (headOf cc) (laneOf cc) := (hl_headOf_laneOf cc).symm
  generalize headOf cc = h at hcc
  generalize laneOf cc = d at hcc
  subst hcc
  rw [Gblk_at]
  refine Eq.trans (congrFun (congr (congr (congrArg softRow
      (funext fun d' => (Sfun_q (iblk (F := Ideal) m c 0 t) (iblk (F := Ideal) m c 1 t) (iblk (F := Ideal) m c 2 t) (iblk (F := Ideal) m c 3 t) (iblk (F := Ideal) m c 4 t) n (hl h d')).trans (Nq_eq m c t n h d')))
      (funext fun n' => funext fun d' => (Sfun_k (iblk (F := Ideal) m c 0 t) (iblk (F := Ideal) m c 1 t) (iblk (F := Ideal) m c 2 t) (iblk (F := Ideal) m c 3 t) (iblk (F := Ideal) m c 4 t) n' (hl h d')).trans (Nk_eq m c t n' h d')))
      (funext fun n' => funext fun d' => (Sfun_v (iblk (F := Ideal) m c 0 t) (iblk (F := Ideal) m c 1 t) (iblk (F := Ideal) m c 2 t) (iblk (F := Ideal) m c 3 t) (iblk (F := Ideal) m c 4 t) n' (hl h d')).trans (P_eq m c t n' 2 h d'))) d) ?_
  show _ = attn (m ((c : Thread nD τ).loc main_arg0)) (m ((c : Thread nD τ).loc main_arg1)) (m ((c : Thread nD τ).loc main_arg2)) (m ((c : Thread nD τ).loc main_arg3)) (m ((c : Thread nD τ).loc main_arg4)) (⟨t.val, t.isLt⟩ : Fin 2) (headOf (hl h d)) n (laneOf (hl h d))
  rw [headOf_hl, laneOf_hl, attn_eq_softRow]

/-- The result array after the run. -/
theorem final5 : (dats (F := Ideal) m 0 c).arrAt 5 cfg0.N = GA m c :=
  arr_of_blocks m c (GA m c) (fun t n cc => outsAt_eq m c t n cc)

/-- The kernel's program runs, ends with the result array at the specification and the arguments as they were. -/
theorem run : θ_run defs (onTc (τ := τ) (main (F := Ideal))) ⟨m, fun _ => 0, ρ⟩ (fun r => ∀ c : Dev nD,
      r.2.mem ((c.tc : Thread nD τ).loc main_v8) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main (F := Ideal) m ρ)

end Cert.KernelIdeal.Val

end
-- ==== Proof.RefIsG1.lean ====
import proofs.«146380_j70660801954384_2_alg».proof.Proof.Gen.ReferenceIdeal.Read
import proofs.«146380_j70660801954384_2_alg».proof.Proof.Spec
import Idealize.ShloMosaic.Lib.ValueIdx
import Idealize.ShloMosaic.Lib.Pipeline.Value
import Idealize.ShloMosaic.PureOps.Ideal.Laws

noncomputable section

namespace Cert.Attn.Ref

open Idealize.ShloMosaic Idealize.ShloMosaic.ValueIdx Cert.ReferenceIdeal Cert.ReferenceIdeal.Read Cert.Attn.Spec

/-! ## The projection: the three slices of x·wᵀ + bq, read at (b, h, n, d) -/

/-- Row-major position of (b, h, n, d) in 2 × 16 × 2048 × 64, split back into its coordinates. -/
theorem flat4 (b h n d : Nat) (hb : b < 2) (hh : h < 16) (hn : n < 2048) (hd : d < 64) :
    (((b * 16 + h) * 2048 + n) * 64 + d) / 2097152 = b ∧ (((b * 16 + h) * 2048 + n) * 64 + d) / 131072 % 16 = h
      ∧ (((b * 16 + h) * 2048 + n) * 64 + d) / 64 % 2048 = n ∧ (((b * 16 + h) * 2048 + n) * 64 + d) / 1 % 64 = d := by
  omega

section
variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The projected array at batch b, position n, column e is the dot product of x's row with w's row e, plus the bias. -/
theorem v3_at (b : Fin 2) (n : Fin 2048) (e : Fin 3072) :
    val_main_v3 (F := Ideal) x0 x1 x2 (ix3 b n e) = (∑ k : Fin 1024, x0 (ix3 b n k) * x1 (ix2 e k)) + x2 (ix1 e) := by
  rw [val_main_v3_apply, val_main_v0_apply, val_main_v2_apply, val_main_v1_apply]
  have el : ∀ k : Fin 1024, lidx_main_v0 (ix3 b n e) k = ix3 b n k := fun k => funext fun a => Fin.ext (by match a with | ⟨0, _⟩ => rfl | ⟨1, _⟩ => rfl | ⟨2, _⟩ => rfl)
  have er : ∀ k : Fin 1024, ridx_main_v0 (ix3 b n e) k = ix2 e k := fun k => funext fun a => Fin.ext (by
    match a with
    | ⟨0, _⟩ => rfl
    | ⟨1, _⟩ => rfl)
  have eb : idx_main_v1 (idx_main_v2 (ix3 b n e)) = ix1 e := funext fun a => Fin.ext (by
    match a with
    | ⟨0, _⟩ => rfl)
  simp only [el, er, eb, Ideal.addf_def]

/-- After the reshape to (b, n, h, d, j) and the transpose to (b, h, n, d, j), the entry is component j of head h, lane d. -/
theorem v5_at (b : Fin 2) (h : Fin 16) (n : Fin 2048) (d : Fin 64) (j : Fin 3) :
    val_main_v5 (F := Ideal) x0 x1 x2 (ix5 b h n d j) = comp x0 x1 x2 j b h n d := by
  rw [val_main_v5_apply, val_main_v4_apply]
  have e3 : idx_main_v4 (idx_main_v5 (ix5 b h n d j)) = ix3 b n (row h d j) := funext fun a => Fin.ext (by
    have hb := b.isLt; have hh := h.isLt; have hn := n.isLt; have hd := d.isLt; have hj := j.isLt
    match a with
    | ⟨0, _⟩ => show ((((b.val * 2048 + n.val) * 16 + h.val) * 64 + d.val) * 3 + j.val) / 6291456 = b.val; omega
    | ⟨1, _⟩ => show ((((b.val * 2048 + n.val) * 16 + h.val) * 64 + d.val) * 3 + j.val) / 3072 % 2048 = n.val; omega
    | ⟨2, _⟩ => show ((((b.val * 2048 + n.val) * 16 + h.val) * 64 + d.val) * 3 + j.val) % 3072 = 192 * h.val + 3 * d.val + j.val; omega)
  rw [e3, v3_at]
  rfl

/-- The query slice. -/
theorem v7_at (b : Fin 2) (h : Fin 16) (n : Fin 2048) (d : Fin 64) :
    val_main_v7 (F := Ideal) x0 x1 x2 (ix4 b h n d) = comp x0 x1 x2 0 b h n d := by
  rw [val_main_v7_apply, val_main_v6_apply]
  have e : idx_main_v6 (idx_main_v7 (ix4 b h n d)) = ix5 b h n d (0 : Fin 3) := funext fun a => Fin.ext (by
    obtain ⟨f0, f1, f2, f3⟩ := flat4 b.val h.val n.val d.val b.isLt h.isLt n.isLt d.isLt
    match a with
    | ⟨0, _⟩ => exact f0
    | ⟨1, _⟩ => exact f1
    | ⟨2, _⟩ => exact f2
    | ⟨3, _⟩ => exact f3
    | ⟨4, _⟩ => rfl)
  rw [e, v5_at]

/-- The key slice. -/
theorem v9_at (b : Fin 2) (h : Fin 16) (n : Fin 2048) (d : Fin 64) :
    val_main_v9 (F := Ideal) x0 x1 x2 (ix4 b h n d) = comp x0 x1 x2 1 b h n d := by
  rw [val_main_v9_apply, val_main_v8_apply]
  have e : idx_main_v8 (idx_main_v9 (ix4 b h n d)) = ix5 b h n d (1 : Fin 3) := funext fun a => Fin.ext (by
    obtain ⟨f0, f1, f2, f3⟩ := flat4 b.val h.val n.val d.val b.isLt h.isLt n.isLt d.isLt
    match a with
    | ⟨0, _⟩ => exact f0
    | ⟨1, _⟩ => exact f1
    | ⟨2, _⟩ => exact f2
    | ⟨3, _⟩ => exact f3
    | ⟨4, _⟩ => rfl)
  rw [e, v5_at]

/-- The value slice. -/
theorem v11_at (b : Fin 2) (h : Fin 16) (n : Fin 2048) (d : Fin 64) :
    val_main_v11 (F := Ideal) x0 x1 x2 (ix4 b h n d) = comp x0 x1 x2 2 b h n d := by
  rw [val_main_v11_apply, val_main_v10_apply]
  have e : idx_main_v10 (idx_main_v11 (ix4 b h n d)) = ix5 b h n d (2 : Fin 3) := funext fun a => Fin.ext (by
    obtain ⟨f0, f1, f2, f3⟩ := flat4 b.val h.val n.val d.val b.isLt h.isLt n.isLt d.isLt
    match a with
    | ⟨0, _⟩ => exact f0
    | ⟨1, _⟩ => exact f1
    | ⟨2, _⟩ => exact f2
    | ⟨3, _⟩ => exact f3
    | ⟨4, _⟩ => rfl)
  rw [e, v5_at]

/-! ## The per-head root-mean-square normalisation -/

/-- The query: the reciprocal root of the mean square over the head's lanes (plus ε), one value per (b, h, n). -/
theorem v19_at (b : Fin 2) (h : Fin 16) (n : Fin 2048) :
    val_main_v19 (F := Ideal) x0 x1 x2 (ix4 b h n (0 : Fin 1))
      = Ideal.rsqrt (Ideal.div (∑ d' : Fin 64, comp x0 x1 x2 0 b h n d' * comp x0 x1 x2 0 b h n d') c64 + eps) := by
  rw [val_main_v19_apply, val_main_v18_apply, val_main_v16_apply, val_main_v14_apply, val_main_v15_apply, val_main_v17_apply,
    val_main_cst_0_apply, val_main_cst_1_apply]
  have e1 : idx_main_v14 (ix4 b h n (0 : Fin 1)) = ix3 b h n := funext fun a => Fin.ext (by match a with | ⟨0, _⟩ => rfl | ⟨1, _⟩ => rfl | ⟨2, _⟩ => rfl)
  rw [e1, val_main_v13_apply, val_main_cst_apply]
  have e2 : ∀ k : Fin 64, idx_main_v13 (ix3 b h n) k = ix4 b h n k := fun k => funext fun a => Fin.ext (by match a with | ⟨0, _⟩ => rfl | ⟨1, _⟩ => rfl | ⟨2, _⟩ => rfl | ⟨3, _⟩ => rfl)
  simp only [e2, val_main_v12_apply, v7_at, Ideal.hostUnary_rsqrt_def, Ideal.addf_def, Ideal.hostDivf_def, Ideal.ofBits_def,
    Ideal.mulf_def, Ideal.ofBits_zero_f32, zero_add]
  rfl

/-- The query, normalised and scaled by its gain. -/
theorem v24_at (x3 : (⟨S64, .f32⟩ : BufTy).Contents (Elt Ideal)) (b : Fin 2) (h : Fin 16) (n : Fin 2048) (d : Fin 64) :
    val_main_v24 (F := Ideal) x0 x1 x2 x3 (ix4 b h n d) = nrm x0 x1 x2 x3 0 b h n d := by
  rw [val_main_v24_apply, val_main_v21_apply, val_main_v20_apply, val_main_v23_apply, val_main_v22_apply]
  have e1 : idx_main_v20 (ix4 b h n d) = ix4 b h n (0 : Fin 1) := funext fun a => Fin.ext (by match a with | ⟨0, _⟩ => rfl | ⟨1, _⟩ => rfl | ⟨2, _⟩ => rfl | ⟨3, _⟩ => rfl)
  have e2 : idx_main_v22 (idx_main_v23 (ix4 b h n d)) = ix1 d := funext fun a => Fin.ext (by match a with | ⟨0, _⟩ => rfl)
  rw [e1, e2, v19_at, v7_at]
  rfl

/-- The key: the reciprocal root of the mean square over the head's lanes (plus ε), one value per (b, h, n). -/
theorem v32_at (b : Fin 2) (h : Fin 16) (n : Fin 2048) :
    val_main_v32 (F := Ideal) x0 x1 x2 (ix4 b h n (0 : Fin 1))
      = Ideal.rsqrt (Ideal.div (∑ d' : Fin 64, comp x0 x1 x2 1 b h n d' * comp x0 x1 x2 1 b h n d') c64 + eps) := by
  rw [val_main_v32_apply, val_main_v31_apply, val_main_v29_apply, val_main_v27_apply, val_main_v28_apply, val_main_v30_apply,
    val_main_cst_3_apply, val_main_cst_4_apply]
  have e1 : idx_main_v27 (ix4 b h n (0 : Fin 1)) = ix3 b h n := funext fun a => Fin.ext (by match a with | ⟨0, _⟩ => rfl | ⟨1, _⟩ => rfl | ⟨2, _⟩ => rfl)
  rw [e1, val_main_v26_apply, val_main_cst_2_apply]
  have e2 : ∀ k : Fin 64, idx_main_v26 (ix3 b h n) k = ix4 b h n k := fun k => funext fun a => Fin.ext (by match a with | ⟨0, _⟩ => rfl | ⟨1, _⟩ => rfl | ⟨2, _⟩ => rfl | ⟨3, _⟩ => rfl)
  simp only [e2, val_main_v25_apply, v9_at, Ideal.hostUnary_rsqrt_def, Ideal.addf_def, Ideal.hostDivf_def, Ideal.ofBits_def,
    Ideal.mulf_def, Ideal.ofBits_zero_f32, zero_add]
  rfl

/-- The key, normalised and scaled by its gain. -/
theorem v37_at (x4 : (⟨S64, .f32⟩ : BufTy).Contents (Elt Ideal)) (b : Fin 2) (h : Fin 16) (n : Fin 2048) (d : Fin 64) :
    val_main_v37 (F := Ideal) x0 x1 x2 x4 (ix4 b h n d) = nrm x0 x1 x2 x4 1 b h n d := by
  rw [val_main_v37_apply, val_main_v34_apply, val_main_v33_apply, val_main_v36_apply, val_main_v35_apply]
  have e1 : idx_main_v33 (ix4 b h n d) = ix4 b h n (0 : Fin 1) := funext fun a => Fin.ext (by match a with | ⟨0, _⟩ => rfl | ⟨1, _⟩ => rfl | ⟨2, _⟩ => rfl | ⟨3, _⟩ => rfl)
  have e2 : idx_main_v35 (idx_main_v36 (ix4 b h n d)) = ix1 d := funext fun a => Fin.ext (by match a with | ⟨0, _⟩ => rfl)
  rw [e1, e2, v32_at, v9_at]
  rfl

end

end Cert.Attn.Ref

end
-- ==== Proof.RefIsGScale.lean ====
/-
  The score scale: the reference computes 1 / sqrt(64) from the words 1.0 and 64.0; over the extended reals this is
  the real 1/8, which is what the word 0x3E000000 denotes.
-/
import Idealize.ShloMosaic.PureOps.Ideal

noncomputable section

namespace Cert.Attn.Ref

open Idealize.ShloMosaic

/-- The word 1.0 denotes 1. -/
theorem ofBits_one : Ideal.ofBits .f32 0x3F800000#32 = ((1 : ℝ) : EReal) := by
  simp [Ideal.ofBits, Ideal.ieee, -EReal.coe_mul]; norm_num

/-- The word 64.0 denotes 64. -/
theorem ofBits_64 : Ideal.ofBits .f32 0x42800000#32 = ((64 : ℝ) : EReal) := by
  simp [Ideal.ofBits, Ideal.ieee, -EReal.coe_mul]; norm_num

/-- The word 0.125 denotes 1/8. -/
theorem ofBits_eighth : Ideal.ofBits .f32 0x3E000000#32 = ((1 / 8 : ℝ) : EReal) := by
  simp [Ideal.ofBits, Ideal.ieee, -EReal.coe_mul]; norm_num

/-- 1 / sqrt 64 = 1/8. -/
theorem scale_eq :
    Ideal.div (Ideal.ofBits .f32 0x3F800000#32) (Ideal.sqrt (Ideal.ofBits .f32 0x42800000#32)) = Ideal.ofBits .f32 0x3E000000#32 := by
  have hs : Real.sqrt 64 = 8 := by
    rw [show (64 : ℝ) = 8 ^ 2 by norm_num]; exact Real.sqrt_sq (by norm_num)
  rw [ofBits_one, ofBits_64, ofBits_eighth, Ideal.sqrt_coe, if_neg (by norm_num), hs, Ideal.div_coe (by norm_num), ← EReal.coe_mul, one_mul]

end Cert.Attn.Ref

end
-- ==== Proof.RefIsG.lean ====
/-
  The reference program computes the specification G: each stage of the reference read at explicit coordinates, from the
  scaled scores through the softmax to the weighted sum of the values and the final re-layout.
-/
import proofs.«146380_j70660801954384_2_alg».proof.Proof.RefIsG1
import proofs.«146380_j70660801954384_2_alg».proof.Proof.RefIsGScale
import Idealize.ShloMosaic.PureOps.Reduce

noncomputable section

namespace Cert.Attn.Ref

open Idealize.ShloMosaic Idealize.ShloMosaic.ValueIdx Cert.ReferenceIdeal Cert.ReferenceIdeal.Gen Cert.ReferenceIdeal.Read Cert.Attn.Spec

/-- The index (b, h, n) of the reduced array with coordinate k put back on the last axis is (b, h, n, k). -/
theorem lift_ix3 (hr : S2x16x2048x2048.Reduces [3] S2x16x2048) (b : Fin 2) (h : Fin 16) (n : Fin 2048)
    (k : Fin (S2x16x2048x2048.size 3)) : hr.lift (ix3 b h n) k = ix4 b h n (⟨k.val, k.isLt⟩ : Fin 2048) := by
  funext c; apply Fin.ext
  match c with
  | ⟨0, _⟩ => rfl
  | ⟨1, _⟩ => rfl
  | ⟨2, _⟩ => rfl
  | ⟨3, _⟩ => rfl

/-- A maximum-reduce over the last axis starting from −∞, at (b, h, n), is the fold of max over that row. -/
theorem reduce_max_at (y : (⟨S2x16x2048x2048, .f32⟩ : BufTy).Contents (Elt Ideal)) (f : Fin 2048 → EReal)
    (b : Fin 2) (h : Fin 16) (n : Fin 2048) (hy : ∀ n' : Fin 2048, y (ix4 b h n n') = f n') :
    (Host.reduce (FloatOps.maximumf (F := Ideal) (φ := .f32)) y (val_main_cst_7 (F := Ideal)) reducesTo_S2x16x2048x2048_S2x16x2048_d3 h_S_
        (ix3 b h n) : EReal)
      = (Finset.univ : Finset (Fin 2048)).fold max ninf f := by
  have hr : S2x16x2048x2048.Reduces [3] S2x16x2048 := by decide
  rw [Host.reduce_eq_fold_single (FloatOps.maximumf (F := Ideal) (φ := .f32)) y _ reducesTo_S2x16x2048x2048_S2x16x2048_d3 hr h_S_]
  have hf : (y ∘ hr.lift (ix3 b h n)) = f := funext fun k => by
    rw [Function.comp_apply, lift_ix3]; exact hy _
  exact congrArg (fun g => Finset.fold max ninf g (Finset.univ : Finset (Fin 2048))) hf

section
variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 x4 : (⟨S64, .f32⟩ : BufTy).Contents (Elt Ideal))

/-- The scaled score of query position n against key position n'. -/
theorem v42_at (b : Fin 2) (h : Fin 16) (n n' : Fin 2048) :
    val_main_v42 (F := Ideal) x0 x1 x2 x3 x4 (ix4 b h n n') = score x0 x1 x2 x3 x4 b h n n' := by
  rw [val_main_v42_apply, val_main_v40_apply, val_main_v41_apply, val_main_v39_apply, val_main_v38_apply, val_main_cst_6_apply,
    val_main_cst_5_apply]
  have el : ∀ k : Fin 64, lidx_main_v40 (ix4 b h n n') k = ix4 b h n k := fun k => funext fun a => Fin.ext (by match a with | ⟨0, _⟩ => rfl | ⟨1, _⟩ => rfl | ⟨2, _⟩ => rfl | ⟨3, _⟩ => rfl)
  have er : ∀ k : Fin 64, ridx_main_v40 (ix4 b h n n') k = ix4 b h n' k := fun k => funext fun a => Fin.ext (by match a with | ⟨0, _⟩ => rfl | ⟨1, _⟩ => rfl | ⟨2, _⟩ => rfl | ⟨3, _⟩ => rfl)
  simp only [el, er, v24_at, v37_at, Ideal.mulf_def, Ideal.hostDivf_def, Ideal.hostUnary_sqrt_def, Ideal.ofBits_def, scale_eq]
  rfl

/-- The row maximum. -/
theorem v45_at (b : Fin 2) (h : Fin 16) (n : Fin 2048) :
    val_main_v45 (F := Ideal) x0 x1 x2 x3 x4 (ix3 b h n) = rowmax x0 x1 x2 x3 x4 b h n := by
  rw [val_main_v45_apply, val_main_v44_apply, val_main_cst_8_apply]
  have e : val_main_v43 (F := Ideal) x0 x1 x2 x3 x4 (ix3 b h n)
      = (Finset.univ : Finset (Fin 2048)).fold max ninf (fun n' => score x0 x1 x2 x3 x4 b h n n') := by
    unfold val_main_v43
    exact reduce_max_at _ _ b h n (fun n' => v42_at x0 x1 x2 x3 x4 b h n n')
  rw [e]
  simp only [Ideal.maximumf_def, Ideal.ofBits_def]
  rfl

/-- The exponential of the score less the row maximum. -/
theorem v49_at (b : Fin 2) (h : Fin 16) (n n' : Fin 2048) :
    val_main_v49 (F := Ideal) x0 x1 x2 x3 x4 (ix4 b h n n') = ex x0 x1 x2 x3 x4 b h n n' := by
  rw [val_main_v49_apply, val_main_v48_apply, val_main_v47_apply, val_main_v46_apply]
  have e : idx_main_v46 (idx_main_v47 (ix4 b h n n')) = ix3 b h n := funext fun a => Fin.ext (by match a with | ⟨0, _⟩ => rfl | ⟨1, _⟩ => rfl | ⟨2, _⟩ => rfl)
  rw [e, v45_at, v42_at]
  simp only [Ideal.hostUnary_exp_def, Ideal.subf_def]
  rfl

/-- The softmax weight. -/
theorem v53_at (b : Fin 2) (h : Fin 16) (n n' : Fin 2048) :
    val_main_v53 (F := Ideal) x0 x1 x2 x3 x4 (ix4 b h n n') = prob x0 x1 x2 x3 x4 b h n n' := by
  rw [val_main_v53_apply, val_main_v52_apply, val_main_v51_apply]
  have e : idx_main_v51 (idx_main_v52 (ix4 b h n n')) = ix3 b h n := funext fun a => Fin.ext (by match a with | ⟨0, _⟩ => rfl | ⟨1, _⟩ => rfl | ⟨2, _⟩ => rfl)
  rw [e, val_main_v50_apply, val_main_cst_9_apply]
  have e2 : ∀ k : Fin 2048, idx_main_v50 (ix3 b h n) k = ix4 b h n k := fun k => funext fun a => Fin.ext (by match a with | ⟨0, _⟩ => rfl | ⟨1, _⟩ => rfl | ⟨2, _⟩ => rfl | ⟨3, _⟩ => rfl)
  simp only [e2, v49_at, Ideal.hostDivf_def, Ideal.ofBits_def, Ideal.ofBits_zero_f32, zero_add]
  rfl

/-- The weighted sum of the values. -/
theorem v54_at (b : Fin 2) (h : Fin 16) (n : Fin 2048) (d : Fin 64) :
    val_main_v54 (F := Ideal) x0 x1 x2 x3 x4 (ix4 b h n d) = attn x0 x1 x2 x3 x4 b h n d := by
  rw [val_main_v54_apply]
  have el : ∀ k : Fin 2048, lidx_main_v54 (ix4 b h n d) k = ix4 b h n k := fun k => funext fun a => Fin.ext (by match a with | ⟨0, _⟩ => rfl | ⟨1, _⟩ => rfl | ⟨2, _⟩ => rfl | ⟨3, _⟩ => rfl)
  have er : ∀ k : Fin 2048, ridx_main_v54 (ix4 b h n d) k = ix4 b h k d := fun k => funext fun a => Fin.ext (by match a with | ⟨0, _⟩ => rfl | ⟨1, _⟩ => rfl | ⟨2, _⟩ => rfl | ⟨3, _⟩ => rfl)
  simp only [el, er, v53_at, v11_at]
  rfl

/-- The result, transposed back to (b, n, h, d) and flattened to 1024 columns, at (b, n, c): head c / 64, lane c % 64. -/
theorem v56_at (b : Fin 2) (n : Fin 2048) (c : Fin 1024) :
    val_main_v56 (F := Ideal) x0 x1 x2 x3 x4 (ix3 b n c) = attn x0 x1 x2 x3 x4 b (headOf c) n (laneOf c) := by
  rw [val_main_v56_apply, val_main_v55_apply]
  have e : idx_main_v55 (idx_main_v56 (ix3 b n c)) = ix4 b (headOf c) n (laneOf c) := funext fun a => Fin.ext (by
    have hb := b.isLt; have hn := n.isLt; have hc := c.isLt
    match a with
    | ⟨0, _⟩ => show ((b.val * 2048 + n.val) * 1024 + c.val) / 2097152 = b.val; omega
    | ⟨1, _⟩ => show ((b.val * 2048 + n.val) * 1024 + c.val) / 64 % 16 = c.val / 64; omega
    | ⟨2, _⟩ => show ((b.val * 2048 + n.val) * 1024 + c.val) / 1024 % 2048 = n.val; omega
    | ⟨3, _⟩ => show ((b.val * 2048 + n.val) * 1024 + c.val) % 64 = c.val % 64; omega)
  rw [e, v54_at]

end

/-- The reference program's result is the specification. -/
theorem ref_is_G (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 x4 : (⟨S64, .f32⟩ : BufTy).Contents (Elt Ideal)) :
    Cert.ReferenceIdeal.Read.val_main_v56 (F := Ideal) x0 x1 x2 x3 x4 = Cert.Attn.Spec.G x0 x1 x2 x3 x4 := by
  funext i
  obtain ⟨b, n, c, rfl⟩ : ∃ (b : Fin 2) (n : Fin 2048) (c : Fin 1024), i = ix3 b n c := ⟨i 0, i 1, i 2, eq_ix3 i⟩
  exact v56_at x0 x1 x2 x3 x4 b n c

end Cert.Attn.Ref

end
-- ==== Proof.lean ====
/-
  A fused attention layer (query/key/value projection, per-head root-mean-square normalisation, softmax attention;
  2 batch elements × 2048 positions × 1024 channels, 16 heads of 64 lanes) as ONE kernel against its plain reference,
  over the extended reals.

  Both programs compute, for batch b, position n, head h, lane d,
      attn b h n d = Σ_n' softmax_n'((Σ_d' q̂[b,h,n,d'] · k̂[b,h,n',d']) / 8) · v[b,h,n',d],
  with q, k, v the projections x·wᵀ + bias read at weight row 192·h + 3·d + j (j = 0, 1, 2) and q̂, k̂ their lanes
  divided by the root of the head's mean square plus ε and multiplied by a gain (the specification: Proof/Spec.lean).
  The reference does this on whole arrays (Proof/RefIsG*.lean read its operations at an index). The kernel re-lays
  the weight and bias on the host (Proof/KernelIdealHost.lean), then at each of two grid points (one per batch
  element) writes the normalised queries and keys and the values of all heads into a scratch buffer, tile by tile
  (Proof/KernelIdealTile*.lean, KernelIdealScratch*.lean), and reads them back head by head for the attention
  (Proof/KernelIdealHead.lean, KernelIdealOut.lean); the two points' blocks make up the result
  (Proof/KernelIdealBlocks.lean, KernelIdealFinal.lean). No rearrangement of a sum is needed: the two sides are the
  same terms entry by entry, so the precondition is never opened; the reference's scale 1/√64 is the kernel's 1/8.
  The frames: the kernel's body run once on whole buffers (Proof/Kernel*Run.lean) under the pipeline
  (Proof/Kernel*Body.lean), at the word-level and at the ideal instance; the reference's is its run.
-/
import proofs.«146380_j70660801954384_2_alg».proof.Defs
import proofs.«146380_j70660801954384_2_alg».proof.Proof.Gen.Kernel
import proofs.«146380_j70660801954384_2_alg».proof.Proof.Gen.KernelIdeal
import proofs.«146380_j70660801954384_2_alg».proof.Proof.Gen.ReferenceIdeal
import proofs.«146380_j70660801954384_2_alg».proof.Proof.Gen.ReferenceIdeal.Run
import proofs.«146380_j70660801954384_2_alg».proof.Proof.Gen.ReferenceIdeal.Read
import proofs.«146380_j70660801954384_2_alg».proof.Proof.Gen.Pre_finite_inputs
import proofs.«146380_j70660801954384_2_alg».proof.Proof.KernelBody
import proofs.«146380_j70660801954384_2_alg».proof.Proof.KernelIdealFinal
import proofs.«146380_j70660801954384_2_alg».proof.Proof.RefIsG
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of the (agreeing) argument arrays in their result. -/
theorem algebraic : Cert.algebraic_KernelIdeal_ReferenceIdeal := by
  intro m ρ m' ρ' _ hagree
  refine ⟨fun c => Cert.KernelIdeal.Val.GA m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.Attn.Ref.ref_is_G,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
